-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x67 : Shape := ⟨2, ![100000, 67]⟩
abbrev S2x1600000 : Shape := ⟨2, ![2, 1600000]⟩
abbrev S67 : Shape := ⟨1, ![67]⟩
abbrev S4x128x67 : Shape := ⟨3, ![4, 128, 67]⟩
abbrev S128 : Shape := ⟨1, ![128]⟩
abbrev S4x1x128 : Shape := ⟨3, ![4, 1, 128]⟩
abbrev S1 : Shape := ⟨1, ![1]⟩
abbrev S_ : Shape := ⟨0, ![]⟩

class Facts : Prop where
  bcast_S_S100000x67 : S_.BroadcastsInDim S100000x67 (![] : Fin 0 → Fin S100000x67.rank)
  reducesTo_S100000x67_S_d0_1 : S100000x67.ReducesTo [0, 1] S_
  h_S_ : 0 < S_.numel
  bcast_S_S67 : S_.BroadcastsInDim S67 (![] : Fin 0 → Fin S67.rank)
  reducesTo_S67_S_d0 : S67.ReducesTo [0] S_
  bcast_S_S4x128x67 : S_.BroadcastsInDim S4x128x67 (![] : Fin 0 → Fin S4x128x67.rank)
  reducesTo_S4x128x67_S_d0_1_2 : S4x128x67.ReducesTo [0, 1, 2] S_
  bcast_S_S128 : S_.BroadcastsInDim S128 (![] : Fin 0 → Fin S128.rank)
  reducesTo_S128_S_d0 : S128.ReducesTo [0] S_
  bcast_S_S4x1x128 : S_.BroadcastsInDim S4x1x128 (![] : Fin 0 → Fin S4x1x128.rank)
  reducesTo_S4x1x128_S_d0_1_2 : S4x1x128.ReducesTo [0, 1, 2] S_
  bcast_S_S1 : S_.BroadcastsInDim S1 (![] : Fin 0 → Fin S1.rank)
  reducesTo_S1_S_d0 : S1.ReducesTo [0] S_

variable [Facts]

def fn_part4 {F : FTy → Type} [FloatOps F] (main_arg11 : FVec F S128 .f32) (main_v67 : IVec S_ 1) : IVec S_ 1 :=
  let main_cst_26 : FVec F S_ .f32 := constant S_ .f32 0x00000000#32
  let main_v68 : FVec F S128 .f32 := broadcastInDim S128 ![] bcast_S_S128 main_cst_26
  let main_v69 : IVec S128 1 := cmpf .oge main_arg11 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v67 main_v70
  main_v71

def fn_part3 {F : FTy → Type} [FloatOps F] (main_arg5 : FVec F S67 .f32) (main_arg11 : FVec F S128 .f32) (main_arg12 : FVec F S4x1x128 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S4x1x128 .f32 := Host.absf main_arg12
  let main_cst_20 : FVec F S_ .f32 := constant S_ .f32 0x7F800000#32
  let main_v55 : FVec F S4x1x128 .f32 := broadcastInDim S4x1x128 ![] bcast_S_S4x1x128 main_cst_20
  let main_v56 : IVec S4x1x128 1 := cmpf .olt main_v54 main_v55
  let main_c_21 : IVec S_ 1 := constantI S_ 1 1#1
  let main_v57 : IVec S_ 1 := (fun x v => Host.reduce IntOp.andi x v reducesTo_S4x1x128_S_d0_1_2 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_cst_24 : FVec F S_ .f32 := constant S_ .f32 0x00000000#32
  let main_v64 : FVec F S67 .f32 := broadcastInDim S67 ![] bcast_S_S67 main_cst_24
  let main_v65 : IVec S67 1 := cmpf .oge main_arg5 main_v64
  let main_c_25 : IVec S_ 1 := constantI S_ 1 1#1
  let main_v66 : IVec S_ 1 := (fun x v => Host.reduce IntOp.andi x v reducesTo_S67_S_d0 h_S_) main_v65 main_c_25
  let main_v67 : IVec S_ 1 := andi main_v63 main_v66
  fn_part4 (F := F) main_arg11 main_v67

def fn_part2 {F : FTy → Type} [FloatOps F] (main_arg5 : FVec F S67 .f32) (main_arg8 : FVec F S128 .f32) (main_arg9 : FVec F S128 .f32) (main_arg10 : FVec F S128 .f32) (main_arg11 : FVec F S128 .f32) (main_arg12 : FVec F S4x1x128 .f32) (main_arg13 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg5 main_arg11 main_arg12 main_arg13 main_v48 main_v49 main_v50

def fn_part1 {F : FTy → Type} [FloatOps F] (main_arg5 : FVec F S67 .f32) (main_arg6 : FVec F S4x128x67 .f32) (main_arg7 : FVec F S128 .f32) (main_arg8 : FVec F S128 .f32) (main_arg9 : FVec F S128 .f32) (main_arg10 : FVec F S128 .f32) (main_arg11 : FVec F S128 .f32) (main_arg12 : FVec F S4x1x128 .f32) (main_arg13 : FVec F S1 .f32) (main_v13 : IVec S_ 1) (main_v16 : IVec S67 1) : IVec S_ 1 :=
  let main_c_5 : IVec S_ 1 := constantI S_ 1 1#1
  let main_v17 : IVec S_ 1 := (fun x v => Host.reduce IntOp.andi x v reducesTo_S67_S_d0 h_S_) main_v16 main_c_5
  let main_v18 : IVec S_ 1 := andi main_v13 main_v17
  let main_v19 : FVec F S67 .f32 := Host.absf main_arg5
  let main_cst_6 : FVec F S_ .f32 := constant S_ .f32 0x7F800000#32
  let main_v20 : FVec F S67 .f32 := broadcastInDim S67 ![] bcast_S_S67 main_cst_6
  let main_v21 : IVec S67 1 := cmpf .olt main_v19 main_v20
  let main_c_7 : IVec S_ 1 := constantI S_ 1 1#1
  let main_v22 : IVec S_ 1 := (fun x v => Host.reduce IntOp.andi x v reducesTo_S67_S_d0 h_S_) main_v21 main_c_7
  let main_v23 : IVec S_ 1 := andi main_v18 main_v22
  let main_v24 : FVec F S4x128x67 .f32 := Host.absf main_arg6
  let main_cst_8 : FVec F S_ .f32 := constant S_ .f32 0x7F800000#32
  let main_v25 : FVec F S4x128x67 .f32 := broadcastInDim S4x128x67 ![] bcast_S_S4x128x67 main_cst_8
  let main_v26 : IVec S4x128x67 1 := cmpf .olt main_v24 main_v25
  let main_c_9 : IVec S_ 1 := constantI S_ 1 1#1
  let main_v27 : IVec S_ 1 := (fun x v => Host.reduce IntOp.andi x v reducesTo_S4x128x67_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg5 main_arg8 main_arg9 main_arg10 main_arg11 main_arg12 main_arg13 main_v33

def fn {F : FTy → Type} [FloatOps F] (main_arg0 : FVec F S100000x67 .f32) (main_arg1 : IVec S2x1600000 32) (main_arg2 : FVec F S67 .f32) (main_arg3 : FVec F S67 .f32) (main_arg4 : FVec F S67 .f32) (main_arg5 : FVec F S67 .f32) (main_arg6 : FVec F S4x128x67 .f32) (main_arg7 : FVec F S128 .f32) (main_arg8 : FVec F S128 .f32) (main_arg9 : FVec F S128 .f32) (main_arg10 : FVec F S128 .f32) (main_arg11 : FVec F S128 .f32) (main_arg12 : FVec F S4x1x128 .f32) (main_arg13 : FVec F S1 .f32) : IVec S_ 1 :=
  let main_v0 : FVec F S100000x67 .f32 := Host.absf main_arg0
  let main_cst : FVec F S_ .f32 := constant S_ .f32 0x7F800000#32
  let main_v1 : FVec F S100000x67 .f32 := broadcastInDim S100000x67 ![] bcast_S_S100000x67 main_cst
  let main_v2 : IVec S100000x67 1 := cmpf .olt main_v0 main_v1
  let main_c : IVec S_ 1 := constantI S_ 1 1#1
  let main_v3 : IVec S_ 1 := (fun x v => Host.reduce IntOp.andi x v reducesTo_S100000x67_S_d0_1 h_S_) main_v2 main_c
  let main_v4 : FVec F S67 .f32 := Host.absf main_arg2
  let main_cst_0 : FVec F S_ .f32 := constant S_ .f32 0x7F800000#32
  let main_v5 : FVec F S67 .f32 := broadcastInDim S67 ![] bcast_S_S67 main_cst_0
  let main_v6 : IVec S67 1 := cmpf .olt main_v4 main_v5
  let main_c_1 : IVec S_ 1 := constantI S_ 1 1#1
  let main_v7 : IVec S_ 1 := (fun x v => Host.reduce IntOp.andi x v reducesTo_S67_S_d0 h_S_) main_v6 main_c_1
  let main_v8 : IVec S_ 1 := andi main_v3 main_v7
  let main_v9 : FVec F S67 .f32 := Host.absf main_arg3
  let main_cst_2 : FVec F S_ .f32 := constant S_ .f32 0x7F800000#32
  let main_v10 : FVec F S67 .f32 := broadcastInDim S67 ![] bcast_S_S67 main_cst_2
  let main_v11 : IVec S67 1 := cmpf .olt main_v9 main_v10
  let main_c_3 : IVec S_ 1 := constantI S_ 1 1#1
  let main_v12 : IVec S_ 1 := (fun x v => Host.reduce IntOp.andi x v reducesTo_S67_S_d0 h_S_) main_v11 main_c_3
  let main_v13 : IVec S_ 1 := andi main_v8 main_v12
  let main_v14 : FVec F S67 .f32 := Host.absf main_arg4
  let main_cst_4 : FVec F S_ .f32 := constant S_ .f32 0x7F800000#32
  let main_v15 : FVec F S67 .f32 := broadcastInDim S67 ![] bcast_S_S67 main_cst_4
  let main_v16 : IVec S67 1 := cmpf .olt main_v14 main_v15
  fn_part1 (F := F) main_arg5 main_arg6 main_arg7 main_arg8 main_arg9 main_arg10 main_arg11 main_arg12 main_arg13 main_v13 main_v16
-- ==== Kernel.lean ====
abbrev S100000x67 : Shape := ⟨2, ![100000, 67]⟩
abbrev S2x1600000 : Shape := ⟨2, ![2, 1600000]⟩
abbrev S67 : Shape := ⟨1, ![67]⟩
abbrev S4x128x67 : Shape := ⟨3, ![4, 128, 67]⟩
abbrev S128 : Shape := ⟨1, ![128]⟩
abbrev S4x1x128 : Shape := ⟨3, ![4, 1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x67 : Shape := ⟨2, ![1, 67]⟩
abbrev S5000x67 : Shape := ⟨2, ![5000, 67]⟩
abbrev S1600000x67 : Shape := ⟨2, ![1600000, 67]⟩
abbrev S4x67x128 : Shape := ⟨3, ![4, 67, 128]⟩
abbrev S1x128 : Shape := ⟨2, ![1, 128]⟩
abbrev S1x67x128 : Shape := ⟨3, ![1, 67, 128]⟩
abbrev S67x128 : Shape := ⟨2, ![67, 128]⟩
abbrev S100000x128 : Shape := ⟨2, ![100000, 128]⟩
abbrev S5000x128 : Shape := ⟨2, ![5000, 128]⟩
abbrev S128x4x1 : Shape := ⟨3, ![128, 4, 1]⟩
abbrev S128x4 : Shape := ⟨2, ![128, 4]⟩
abbrev S100000x4 : Shape := ⟨2, ![100000, 4]⟩
abbrev S5000x4 : Shape := ⟨2, ![5000, 4]⟩
abbrev S100000x1 : Shape := ⟨2, ![100000, 1]⟩
abbrev S1x1 : Shape := ⟨2, ![1, 1]⟩

abbrev nBuf : Space → Nat
  | .hbm => 180
  | .vmem => 32
  | .smem => 0
  | _ => 0

abbrev hbmTy0_0 (i : Nat) : BufTy := match i % 128 with
  | 0 => ⟨S100000x67, .f32⟩
  | 1 => ⟨S2x1600000, .i32⟩
  | 2 => ⟨S67, .f32⟩
  | 3 => ⟨S67, .f32⟩
  | 4 => ⟨S67, .f32⟩
  | 5 => ⟨S67, .f32⟩
  | 6 => ⟨S4x128x67, .f32⟩
  | 7 => ⟨S128, .f32⟩
  | 8 => ⟨S128, .f32⟩
  | 9 => ⟨S128, .f32⟩
  | 10 => ⟨S128, .f32⟩
  | 11 => ⟨S128, .f32⟩
  | 12 => ⟨S4x1x128, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1x67, .f32⟩
  | 55 => ⟨S1x67, .f32⟩
  | 56 => ⟨S1x67, .f32⟩
  | 57 => ⟨S1x67, .f32⟩
  | 58 => ⟨S100000x67, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x67, .f32⟩
  | 68 => ⟨S1600000x1, .f32⟩
  | 69 => ⟨S1600000x67, .f32⟩
  | 70 => ⟨S1600000x67, .f32⟩
  | 71 => ⟨S_, .f32⟩
  | 72 => ⟨S100000x67, .f32⟩
  | 73 => ⟨S1600000x1, .i32⟩
  | 74 => ⟨S100000x67, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x67, .f32⟩
  | 84 => ⟨S1600000x1, .f32⟩
  | 85 => ⟨S1600000x67, .f32⟩
  | 86 => ⟨S1600000x67, .f32⟩
  | 87 => ⟨S_, .f32⟩
  | 88 => ⟨S100000x67, .f32⟩
  | 89 => ⟨S1600000x1, .i32⟩
  | 90 => ⟨S100000x67, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x67, .f32⟩
  | 100 => ⟨S1600000x1, .f32⟩
  | 101 => ⟨S1600000x67, .f32⟩
  | 102 => ⟨S1600000x67, .f32⟩
  | 103 => ⟨S_, .f32⟩
  | 104 => ⟨S100000x67, .f32⟩
  | 105 => ⟨S1600000x1, .i32⟩
  | 106 => ⟨S100000x67, .f32⟩
  | 107 => ⟨S4x67x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S1x67x128, .f32⟩
  | 114 => ⟨S67x128, .f32⟩
  | 115 => ⟨S1x67x128, .f32⟩
  | 116 => ⟨S67x128, .f32⟩
  | 117 => ⟨S1x67x128, .f32⟩
  | 118 => ⟨S67x128, .f32⟩
  | 119 => ⟨S1x67x128, .f32⟩
  | 120 => ⟨S67x128, .f32⟩
  | 121 => ⟨S100000x128, .f32⟩
  | 122 => ⟨S128x4x1, .f32⟩
  | 123 => ⟨S128x4, .f32⟩
  | 124 => ⟨S100000x4, .f32⟩
  | 125 => ⟨S100000x1, .f32⟩
  | 126 => ⟨S100000x1, .f32⟩
  | 127 => ⟨S100000x1, .f32⟩
  | _ => ⟨S100000x67, .f32⟩

abbrev hbmTy0_1 (i : Nat) : BufTy := match i % 128 with
  | 0 => ⟨S100000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x1, .f32⟩
  | 10 => ⟨S1600000x1, .f32⟩
  | 11 => ⟨S1600000x1, .f32⟩
  | 12 => ⟨S_, .f32⟩
  | 13 => ⟨S100000x1, .f32⟩
  | 14 => ⟨S1600000x1, .i32⟩
  | 15 => ⟨S100000x1, .f32⟩
  | 16 => ⟨S100000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x1, .f32⟩
  | 26 => ⟨S1600000x1, .f32⟩
  | 27 => ⟨S1600000x1, .f32⟩
  | 28 => ⟨S_, .f32⟩
  | 29 => ⟨S100000x1, .f32⟩
  | 30 => ⟨S1600000x1, .i32⟩
  | 31 => ⟨S100000x1, .f32⟩
  | 32 => ⟨S100000x1, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x1, .f32⟩
  | 42 => ⟨S1600000x1, .f32⟩
  | 43 => ⟨S1600000x1, .f32⟩
  | 44 => ⟨S_, .f32⟩
  | 45 => ⟨S100000x1, .f32⟩
  | 46 => ⟨S1600000x1, .i32⟩
  | 47 => ⟨S100000x1, .f32⟩
  | 48 => ⟨S100000x1, .f32⟩
  | 49 => ⟨S1x1, .f32⟩
  | 50 => ⟨S100000x1, .f32⟩
  | 51 => ⟨S100000x1, .f32⟩
  | _ => ⟨S100000x67, .f32⟩

abbrev hbmTy (i : Nat) : BufTy := match i / 128 with
  | 0 => hbmTy0_0 i
  | 1 => hbmTy0_1 i
  | _ => ⟨S100000x67, .f32⟩

abbrev bufTy : (tb : Table) → Fin (tcTables nBuf tb) → BufTy
  | .hbm, ⟨i, _⟩ => hbmTy i
  | .local _ .vmem, ⟨0, _⟩ => ⟨S5000x67, .f32⟩
  | .local _ .vmem, ⟨1, _⟩ => ⟨S5000x67, .f32⟩
  | .local _ .vmem, ⟨2, _⟩ => ⟨S1x67, .f32⟩
  | .local _ .vmem, ⟨3, _⟩ => ⟨S1x67, .f32⟩
  | .local _ .vmem, ⟨4, _⟩ => ⟨S1x67, .f32⟩
  | .local _ .vmem, ⟨5, _⟩ => ⟨S1x67, .f32⟩
  | .local _ .vmem, ⟨6, _⟩ => ⟨S5000x67, .f32⟩
  | .local _ .vmem, ⟨7, _⟩ => ⟨S5000x67, .f32⟩
  | .local _ .vmem, ⟨8, _⟩ => ⟨S5000x67, .f32⟩
  | .local _ .vmem, ⟨9, _⟩ => ⟨S5000x67, .f32⟩
  | .local _ .vmem, ⟨10, _⟩ => ⟨S5000x67, .f32⟩
  | .local _ .vmem, ⟨11, _⟩ => ⟨S5000x67, .f32⟩
  | .local _ .vmem, ⟨12, _⟩ => ⟨S5000x67, .f32⟩
  | .local _ .vmem, ⟨13, _⟩ => ⟨S5000x67, .f32⟩
  | .local _ .vmem, ⟨14, _⟩ => ⟨S5000x67, .f32⟩
  | .local _ .vmem, ⟨15, _⟩ => ⟨S5000x67, .f32⟩
  | .local _ .vmem, ⟨16, _⟩ => ⟨S67x128, .f32⟩
  | .local _ .vmem, ⟨17, _⟩ => ⟨S67x128, .f32⟩
  | .local _ .vmem, ⟨18, _⟩ => ⟨S67x128, .f32⟩
  | .local _ .vmem, ⟨19, _⟩ => ⟨S67x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x4, .f32⟩
  | .local _ .vmem, ⟨30, _⟩ => ⟨S5000x4, .f32⟩
  | .local _ .vmem, ⟨31, _⟩ => ⟨S5000x4, .f32⟩
  | _, _ => ⟨S100000x67, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_c_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_16 : Ref sig .tc := ⟨.hbm, 129, rfl⟩
abbrev main_v95 : Ref sig .tc := ⟨.hbm, 130, rfl⟩
abbrev main_v96 : Ref sig .tc := ⟨.hbm, 131, rfl⟩
abbrev main_c_17 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_19 : Ref sig .tc := ⟨.hbm, 145, rfl⟩
abbrev main_v108 : Ref sig .tc := ⟨.hbm, 146, rfl⟩
abbrev main_v109 : Ref sig .tc := ⟨.hbm, 147, rfl⟩
abbrev main_c_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_21 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_22 : Ref sig .tc := ⟨.hbm, 161, rfl⟩
abbrev main_v121 : Ref sig .tc := ⟨.hbm, 162, rfl⟩
abbrev main_v122 : Ref sig .tc := ⟨.hbm, 163, rfl⟩
abbrev main_c_23 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_24 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg13_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem13_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x67 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x67 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x67 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x67 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x67 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x67 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x67 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x67 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S67x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S67x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S67x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S67x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S67_S1x67 : S67.ShapeCasts S1x67
  inb_S5000x67_S5000x67_0_0 : ∀ a, (![0, 0] : Fin 2 → Nat) a + S5000x67.size a ≤ S5000x67.size a
  h_S5000x67 : 0 < S5000x67.numel
  inb_S1x67_S1x67_0_0 : ∀ a, (![0, 0] : Fin 2 → Nat) a + S1x67.size a ≤ S1x67.size a
  h_S1x67 : 0 < S1x67.numel
  shapeCasts_S1x67_S1x67 : S1x67.ShapeCasts S1x67
  broadcasts_S1x67_S5000x67 : S1x67.Broadcasts S5000x67
  bcast_S1600000x1_S1600000x67_0_1 : S1600000x1.BroadcastsInDim S1600000x67 (![0, 1] : Fin 2 → Fin S1600000x67.rank)
  bcast_S_S100000x67 : S_.BroadcastsInDim S100000x67 (![] : Fin 0 → Fin S100000x67.rank)
  transposes_S4x128x67_S4x67x128_0_2_1 : S4x128x67.Transposes [0, 2, 1] S4x67x128
  shapeCasts_S128_S1x128 : S128.ShapeCasts S1x128
  slices_S4x67x128_S1x67x128_0_0_0 : S4x67x128.Slices ![0, 0, 0] S1x67x128
  shapeCasts_S1x67x128_S67x128 : S1x67x128.ShapeCasts S67x128
  slices_S4x67x128_S1x67x128_1_0_0 : S4x67x128.Slices ![1, 0, 0] S1x67x128
  slices_S4x67x128_S1x67x128_2_0_0 : S4x67x128.Slices ![2, 0, 0] S1x67x128
  slices_S4x67x128_S1x67x128_3_0_0 : S4x67x128.Slices ![3, 0, 0] S1x67x128
  shapeCasts_S5000x67_S5000x67 : S5000x67.ShapeCasts S5000x67
  inb_S67x128_S67x128_0_0 : ∀ a, (![0, 0] : Fin 2 → Nat) a + S67x128.size a ≤ S67x128.size a
  h_S67x128 : 0 < S67x128.numel
  shapeCasts_S67x128_S67x128 : S67x128.ShapeCasts S67x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S4x1x128_S128x4x1_2_0_1 : S4x1x128.Transposes [2, 0, 1] S128x4x1
  shapeCasts_S128x4x1_S128x4 : S128x4x1.ShapeCasts S128x4
  shapeCasts_S5000x128_S5000x128 : S5000x128.ShapeCasts S5000x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S5000x4_S5000x4_0_0 : ∀ a, (![0, 0] : Fin 2 → Nat) a + S5000x4.size a ≤ S5000x4.size a
  h_S5000x4 : 0 < S5000x4.numel
  slices_S100000x4_S100000x1_0_0 : S100000x4.Slices ![0, 0] S100000x1
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x67_S1600000x1_S1600000x67_1_0_n_n_0_1_167_wf : GatherDims.WF S100000x67 S1600000x1 S1600000x67 [1] [0] [] [0] [] 1 ![1, 67]
  scatter_S100000x67_S1600000x1_S1600000x67_1_0_0_1_wf : ScatterDims.WF S100000x67 S1600000x1 S1600000x67 [1] [0] [0] 1
  dot_S5000x67_S67x128_S5000x128_1_0_0_1_n_n_wf : DotDims.WF S5000x67 S67x128 S5000x128 [1] [0] [0] [1] [] []
  dot_S5000x128_S128x4_S5000x4_1_0_0_1_n_n_wf : DotDims.WF S5000x128 S128x4 S5000x4 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x67.size a ≤ S100000x67.size a
  hwx0_0 : ∀ i : grid0.Coords, EltTy.bits .f32 = 32 ∨ (Rect.block (s := S100000x67) S5000x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x67.size a ≤ S1x67.size a
  hwx0_1 : ∀ i : grid0.Coords, EltTy.bits .f32 = 32 ∨ (Rect.block (s := S1x67) S1x67.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x67.size a ≤ S1x67.size a
  hwx0_2 : ∀ i : grid0.Coords, EltTy.bits .f32 = 32 ∨ (Rect.block (s := S1x67) S1x67.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x67.size a ≤ S1x67.size a
  hwx0_3 : ∀ i : grid0.Coords, EltTy.bits .f32 = 32 ∨ (Rect.block (s := S1x67) S1x67.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x67.size a ≤ S1x67.size a
  hwx0_4 : ∀ i : grid0.Coords, EltTy.bits .f32 = 32 ∨ (Rect.block (s := S1x67) S1x67.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x67.size a ≤ S100000x67.size a
  hwx0_5 : ∀ i : grid0.Coords, EltTy.bits .f32 = 32 ∨ (Rect.block (s := S100000x67) S5000x67.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x67.size a ≤ S100000x67.size a
  hwx1_0 : ∀ i : grid1.Coords, EltTy.bits .f32 = 32 ∨ (Rect.block (s := S100000x67) S5000x67.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x67.size a ≤ S100000x67.size a
  hwx1_1 : ∀ i : grid1.Coords, EltTy.bits .f32 = 32 ∨ (Rect.block (s := S100000x67) S5000x67.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x67.size a ≤ S100000x67.size a
  hwx1_2 : ∀ i : grid1.Coords, EltTy.bits .f32 = 32 ∨ (Rect.block (s := S100000x67) S5000x67.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x67.size a ≤ S100000x67.size a
  hwx1_3 : ∀ i : grid1.Coords, EltTy.bits .f32 = 32 ∨ (Rect.block (s := S100000x67) S5000x67.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S67x128.size a ≤ S67x128.size a
  hwx1_4 : ∀ i : grid1.Coords, EltTy.bits .f32 = 32 ∨ (Rect.block (s := S67x128) S67x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S67x128.size a ≤ S67x128.size a
  hwx1_5 : ∀ i : grid1.Coords, EltTy.bits .f32 = 32 ∨ (Rect.block (s := S67x128) S67x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S67x128.size a ≤ S67x128.size a
  hwx1_6 : ∀ i : grid1.Coords, EltTy.bits .f32 = 32 ∨ (Rect.block (s := S67x128) S67x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S67x128.size a ≤ S67x128.size a
  hwx1_7 : ∀ i : grid1.Coords, EltTy.bits .f32 = 32 ∨ (Rect.block (s := S67x128) S67x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x128.size a ≤ S100000x128.size a
  hwx1_13 : ∀ i : grid1.Coords, EltTy.bits .f32 = 32 ∨ (Rect.block (s := S100000x128) S5000x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4.size a ≤ S128x4.size a
  hwx2_1 : ∀ i : grid2.Coords, EltTy.bits .f32 = 32 ∨ (Rect.block (s := S128x4) S128x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x4.size a ≤ S100000x4.size a
  hwx2_2 : ∀ i : grid2.Coords, EltTy.bits .f32 = 32 ∨ (Rect.block (s := S100000x4) S5000x4.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x67_S1600000x1_S1600000x67_1_0_n_n_0_1_167 : GatherDims S100000x67 S1600000x1 S1600000x67 where
  offsetDims := [1]
  collapsedSliceDims := [0]
  operandBatchingDims := []
  startIndicesBatchingDims := []
  startIndexMap := [0]
  indexVectorDim := 1
  sliceSizes := ![1, 67]
  wf := gather_S100000x67_S1600000x1_S1600000x67_1_0_n_n_0_1_167_wf
def scatter_S100000x67_S1600000x1_S1600000x67_1_0_0_1 : ScatterDims S100000x67 S1600000x1 S1600000x67 where
  updateWindowDims := [1]
  insertedWindowDims := [0]
  scatterDimsToOperandDims := [0]
  indexVectorDim := 1
  wf := scatter_S100000x67_S1600000x1_S1600000x67_1_0_0_1_wf
def dot_S5000x67_S67x128_S5000x128_1_0_0_1_n_n : DotDims S5000x67 S67x128 S5000x128 where
  lhsContracting := [1]
  rhsContracting := [0]
  lhsNonContracting := [0]
  rhsNonContracting := [1]
  lhsBatch := []
  rhsBatch := []
  wf := dot_S5000x67_S67x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x67.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x67.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x67.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x67.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x67.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x67.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x67.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5000x67.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v72) S5000x67.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v80) S67x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v82) S67x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v84) S67x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v86) S67x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v74) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v75) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v76) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v77) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v78) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v87) S5000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S128x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v90) S5000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x67 : Shape := ⟨2, ![100000, 67]⟩
abbrev S2x1600000 : Shape := ⟨2, ![2, 1600000]⟩
abbrev S67 : Shape := ⟨1, ![67]⟩
abbrev S4x128x67 : Shape := ⟨3, ![4, 128, 67]⟩
abbrev S128 : Shape := ⟨1, ![128]⟩
abbrev S4x1x128 : Shape := ⟨3, ![4, 1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x67 : Shape := ⟨2, ![1, 67]⟩
abbrev S1x128x67 : Shape := ⟨3, ![1, 128, 67]⟩
abbrev S128x67 : Shape := ⟨2, ![128, 67]⟩
abbrev S100000x128 : Shape := ⟨2, ![100000, 128]⟩
abbrev S1600000x67 : Shape := ⟨2, ![1600000, 67]⟩
abbrev S1x128 : Shape := ⟨2, ![1, 128]⟩
abbrev S1x1x128 : Shape := ⟨3, ![1, 1, 128]⟩
abbrev S100000x1 : Shape := ⟨2, ![100000, 1]⟩
abbrev S1600000x128 : Shape := ⟨2, ![1600000, 128]⟩
abbrev S1x1 : Shape := ⟨2, ![1, 1]⟩

abbrev nBuf : Space → Nat
  | .hbm => 225
  | .vmem => 0
  | .smem => 0
  | _ => 0

abbrev hbmTy0_0 (i : Nat) : BufTy := match i % 128 with
  | 0 => ⟨S100000x67, .f32⟩
  | 1 => ⟨S2x1600000, .i32⟩
  | 2 => ⟨S67, .f32⟩
  | 3 => ⟨S67, .f32⟩
  | 4 => ⟨S67, .f32⟩
  | 5 => ⟨S67, .f32⟩
  | 6 => ⟨S4x128x67, .f32⟩
  | 7 => ⟨S128, .f32⟩
  | 8 => ⟨S128, .f32⟩
  | 9 => ⟨S128, .f32⟩
  | 10 => ⟨S128, .f32⟩
  | 11 => ⟨S128, .f32⟩
  | 12 => ⟨S4x1x128, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1x67, .f32⟩
  | 55 => ⟨S100000x67, .f32⟩
  | 56 => ⟨S100000x67, .f32⟩
  | 57 => ⟨S_, .f32⟩
  | 58 => ⟨S67, .f32⟩
  | 59 => ⟨S67, .f32⟩
  | 60 => ⟨S67, .f32⟩
  | 61 => ⟨S1x67, .f32⟩
  | 62 => ⟨S100000x67, .f32⟩
  | 63 => ⟨S100000x67, .f32⟩
  | 64 => ⟨S1x67, .f32⟩
  | 65 => ⟨S100000x67, .f32⟩
  | 66 => ⟨S100000x67, .f32⟩
  | 67 => ⟨S1x67, .f32⟩
  | 68 => ⟨S100000x67, .f32⟩
  | 69 => ⟨S100000x67, .f32⟩
  | 70 => ⟨S1x128x67, .f32⟩
  | 71 => ⟨S128x67, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x67, .f32⟩
  | 82 => ⟨S1600000x1, .f32⟩
  | 83 => ⟨S1600000x67, .f32⟩
  | 84 => ⟨S1600000x67, .f32⟩
  | 85 => ⟨S_, .f32⟩
  | 86 => ⟨S100000x67, .f32⟩
  | 87 => ⟨S1600000x1, .i32⟩
  | 88 => ⟨S100000x67, .f32⟩
  | 89 => ⟨S1x128x67, .f32⟩
  | 90 => ⟨S128x67, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x67, .f32⟩
  | 102 => ⟨S1600000x1, .f32⟩
  | 103 => ⟨S1600000x67, .f32⟩
  | 104 => ⟨S1600000x67, .f32⟩
  | 105 => ⟨S_, .f32⟩
  | 106 => ⟨S100000x67, .f32⟩
  | 107 => ⟨S1600000x1, .i32⟩
  | 108 => ⟨S100000x67, .f32⟩
  | 109 => ⟨S1x128x67, .f32⟩
  | 110 => ⟨S128x67, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x67, .f32⟩
  | 122 => ⟨S1600000x1, .f32⟩
  | 123 => ⟨S1600000x67, .f32⟩
  | 124 => ⟨S1600000x67, .f32⟩
  | 125 => ⟨S_, .f32⟩
  | 126 => ⟨S100000x67, .f32⟩
  | 127 => ⟨S1600000x1, .i32⟩
  | _ => ⟨S100000x67, .f32⟩

abbrev hbmTy0_1 (i : Nat) : BufTy := match i % 128 with
  | 0 => ⟨S100000x67, .f32⟩
  | 1 => ⟨S1x128x67, .f32⟩
  | 2 => ⟨S128x67, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .i1⟩
  | 27 => ⟨S_, .f32⟩
  | 28 => ⟨S100000x128, .f32⟩
  | 29 => ⟨S100000x128, .f32⟩
  | 30 => ⟨S100000x128, .f32⟩
  | 31 => ⟨S1x1x128, .f32⟩
  | 32 => ⟨S1x128, .f32⟩
  | 33 => ⟨S100000x1, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x1, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S1x1x128, .f32⟩
  | 51 => ⟨S1x128, .f32⟩
  | 52 => ⟨S100000x1, .f32⟩
  | 53 => ⟨S100000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x1, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x1x128, .f32⟩
  | 71 => ⟨S1x128, .f32⟩
  | 72 => ⟨S100000x1, .f32⟩
  | 73 => ⟨S100000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S1600000x1, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S1x1x128, .f32⟩
  | 91 => ⟨S1x128, .f32⟩
  | 92 => ⟨S100000x1, .f32⟩
  | 93 => ⟨S100000x1, .f32⟩
  | 94 => ⟨S1x1, .f32⟩
  | 95 => ⟨S100000x1, .f32⟩
  | 96 => ⟨S100000x1, .f32⟩
  | _ => ⟨S100000x67, .f32⟩

abbrev hbmTy (i : Nat) : BufTy := match i / 128 with
  | 0 => hbmTy0_0 i
  | 1 => hbmTy0_1 i
  | _ => ⟨S100000x67, .f32⟩

abbrev bufTy : (tb : Table) → Fin (tcTables nBuf tb) → BufTy
  | .hbm, ⟨i, _⟩ => hbmTy i
  | _, _ => ⟨S100000x67, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_c_15 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_17 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_18 : Ref sig .tc := ⟨.hbm, 152, rfl⟩
abbrev main_v116 : Ref sig .tc := ⟨.hbm, 153, rfl⟩
abbrev main_v117 : Ref sig .tc := ⟨.hbm, 154, rfl⟩
abbrev main_cst_19 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_20 : Ref sig .tc := ⟨.hbm, 162, rfl⟩
abbrev main_v124 : Ref sig .tc := ⟨.hbm, 163, rfl⟩
abbrev main_v125 : Ref sig .tc := ⟨.hbm, 164, rfl⟩
abbrev main_c_21 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_22 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_23 : Ref sig .tc := ⟨.hbm, 182, rfl⟩
abbrev main_v141 : Ref sig .tc := ⟨.hbm, 183, rfl⟩
abbrev main_v142 : Ref sig .tc := ⟨.hbm, 184, rfl⟩
abbrev main_c_24 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_25 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_c_26 : Ref sig .tc := ⟨.hbm, 202, rfl⟩
abbrev main_v158 : Ref sig .tc := ⟨.hbm, 203, rfl⟩
abbrev main_v159 : Ref sig .tc := ⟨.hbm, 204, rfl⟩
abbrev main_c_27 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_28 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S67_S1x67_1 : S67.BroadcastsInDim S1x67 (![1] : Fin 1 → Fin S1x67.rank)
  bcast_S1x67_S100000x67_0_1 : S1x67.BroadcastsInDim S100000x67 (![0, 1] : Fin 2 → Fin S100000x67.rank)
  bcast_S_S67 : S_.BroadcastsInDim S67 (![] : Fin 0 → Fin S67.rank)
  slices_S4x128x67_S1x128x67_0_0_0 : S4x128x67.Slices ![0, 0, 0] S1x128x67
  shapeCasts_S1x128x67_S128x67 : S1x128x67.ShapeCasts S128x67
  bcast_S1600000x1_S1600000x67_0_1 : S1600000x1.BroadcastsInDim S1600000x67 (![0, 1] : Fin 2 → Fin S1600000x67.rank)
  bcast_S_S100000x67 : S_.BroadcastsInDim S100000x67 (![] : Fin 0 → Fin S100000x67.rank)
  slices_S4x128x67_S1x128x67_1_0_0 : S4x128x67.Slices ![1, 0, 0] S1x128x67
  slices_S4x128x67_S1x128x67_2_0_0 : S4x128x67.Slices ![2, 0, 0] S1x128x67
  slices_S4x128x67_S1x128x67_3_0_0 : S4x128x67.Slices ![3, 0, 0] S1x128x67
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  slices_S4x1x128_S1x1x128_0_0_0 : S4x1x128.Slices ![0, 0, 0] S1x1x128
  shapeCasts_S1x1x128_S1x128 : S1x1x128.ShapeCasts S1x128
  bcast_S1600000x1_S1600000x128_0_1 : S1600000x1.BroadcastsInDim S1600000x128 (![0, 1] : Fin 2 → Fin S1600000x128.rank)
  slices_S4x1x128_S1x1x128_1_0_0 : S4x1x128.Slices ![1, 0, 0] S1x1x128
  slices_S4x1x128_S1x1x128_2_0_0 : S4x1x128.Slices ![2, 0, 0] S1x1x128
  slices_S4x1x128_S1x1x128_3_0_0 : S4x1x128.Slices ![3, 0, 0] S1x1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x67_S128x67_S100000x128_1_1_0_0_n_n_wf : DotDims.WF S100000x67 S128x67 S100000x128 [1] [1] [0] [0] [] []
  gather_S100000x67_S1600000x1_S1600000x67_1_0_n_n_0_1_167_wf : GatherDims.WF S100000x67 S1600000x1 S1600000x67 [1] [0] [] [0] [] 1 ![1, 67]
  scatter_S100000x67_S1600000x1_S1600000x67_1_0_0_1_wf : ScatterDims.WF S100000x67 S1600000x1 S1600000x67 [1] [0] [0] 1
  dot_S100000x128_S1x128_S100000x1_1_1_0_0_n_n_wf : DotDims.WF S100000x128 S1x128 S100000x1 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x67_S128x67_S100000x128_1_1_0_0_n_n : DotDims S100000x67 S128x67 S100000x128 where
  lhsContracting := [1]
  rhsContracting := [1]
  lhsNonContracting := [0]
  rhsNonContracting := [0]
  lhsBatch := []
  rhsBatch := []
  wf := dot_S100000x67_S128x67_S100000x128_1_1_0_0_n_n_wf
def gather_S100000x67_S1600000x1_S1600000x67_1_0_n_n_0_1_167 : GatherDims S100000x67 S1600000x1 S1600000x67 where
  offsetDims := [1]
  collapsedSliceDims := [0]
  operandBatchingDims := []
  startIndicesBatchingDims := []
  startIndexMap := [0]
  indexVectorDim := 1
  sliceSizes := ![1, 67]
  wf := gather_S100000x67_S1600000x1_S1600000x67_1_0_n_n_0_1_167_wf
def scatter_S100000x67_S1600000x1_S1600000x67_1_0_0_1 : ScatterDims S100000x67 S1600000x1 S1600000x67 where
  updateWindowDims := [1]
  insertedWindowDims := [0]
  scatterDimsToOperandDims := [0]
  indexVectorDim := 1
  wf := scatter_S100000x67_S1600000x1_S1600000x67_1_0_0_1_wf
def dot_S100000x128_S1x128_S100000x1_1_1_0_0_n_n : DotDims S100000x128 S1x128 S100000x1 where
  lhsContracting := [1]
  rhsContracting := [1]
  lhsNonContracting := [0]
  rhsNonContracting := [0]
  lhsBatch := []
  rhsBatch := []
  wf := dot_S100000x128_S1x128_S100000x1_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named. Every weakly fair execution of the three-region program
  terminates without a fault, leaves the fourteen argument arrays as launched, and leaves the result array
  holding what the last stretch of host operations computes from the contents left by the third region: the
  fold of buffer contents through the nine segments (three stretches of host operations, the batch
  normalisation region, the propagation stretch, the combine region, the weight re-layout, the projection
  region, and the final propagation stretch), read at the result buffer after the last segment.
-/
import proofs.«157029_j18502719111544_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the arguments unchanged, and the result buffer at the last boundary's contents. -/
theorem run_result : θ_run defs (onTc (τ := τ) (main (F := F))) ⟨m, fun _ => 0, ρ⟩ (fun r => ∀ c : Dev nD,
      r.2.mem ((c.tc : Thread nD τ).loc main_v136) = W9 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v136 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.ResultRun

end
-- ==== Proof.KernelTerms.lean ====
/-
  The host-side terms of the idealized kernel, named. An index vector with its negative entries wrapped by the node
  count; one propagation step  X ↦ scatter-add at the target index of (the rows of X gathered at the wrapped source
  index, each scaled by its edge weight), on arrays of 67 columns and of one column; the four single columns of the
  projected array; and the final stretch: the Horner recurrence  z₀ + P (z₁ + P (z₂ + P z₃))  plus the bias row.
-/
import proofs.«157029_j18502719111544_2_alg».proof.Proof.Gen.KernelIdeal
import Idealize.ShloMosaic.PureOps.Ideal

noncomputable section

namespace Cert.KernelIdeal.Terms

open Idealize.ShloMosaic Cert.KernelIdeal Cert.KernelIdeal.Facts₀ Cert.KernelIdeal.Facts

variable {F : FTy → Type} [FloatOps F]

/-- An edge index vector with each negative entry increased by the node count. -/
def wrapIdx (v : IVec S1600000 32) : IVec S1600000 32 :=
  select (cmpi CmpIPredicate.slt v (broadcastInDim S1600000 ![] bcast_S_S1600000 (constantI S_ 32 0#32)))
    (addi v (broadcastInDim S1600000 ![] bcast_S_S1600000 (constantI S_ 32 100000#32))) v

/-- One propagation step on an array of 67 columns. -/
def prop67 (row col : IVec S1600000 32) (ew : FVec F S1600000 .f32) (X : FVec F S100000x67 .f32) : FVec F S100000x67 .f32 :=
  Host.scatterAdd scatter_S100000x67_S1600000x1_S1600000x67_1_0_0_1
    (broadcastInDim S100000x67 ![] bcast_S_S100000x67 (constant S_ FTy.f32 0#32))
    (broadcastInDim S1600000x1 ![0] bcast_S1600000_S1600000x1_0 col)
    (mulf
      (Host.gather gather_S100000x67_S1600000x1_S1600000x67_1_0_n_n_0_1_167 X
        (broadcastInDim S1600000x1 ![0] bcast_S1600000_S1600000x1_0 (wrapIdx row)))
      (broadcastInDim S1600000x67 ![0, 1] bcast_S1600000x1_S1600000x67_0_1
        (broadcastInDim S1600000x1 ![0] bcast_S1600000_S1600000x1_0 ew)))

/-- One propagation step on a single-column array. -/
def prop1 (row col : IVec S1600000 32) (ew : FVec F S1600000 .f32) (X : FVec F S100000x1 .f32) : FVec F S100000x1 .f32 :=
  Host.scatterAdd scatter_S100000x1_S1600000x1_S1600000x1_1_0_0_1
    (broadcastInDim S100000x1 ![] bcast_S_S100000x1 (constant S_ FTy.f32 0#32))
    (broadcastInDim S1600000x1 ![0] bcast_S1600000_S1600000x1_0 col)
    (mulf
      (Host.gather gather_S100000x1_S1600000x1_S1600000x1_1_0_n_n_0_1_11 X
        (broadcastInDim S1600000x1 ![0] bcast_S1600000_S1600000x1_0 (wrapIdx row)))
      (broadcastInDim S1600000x1 ![0] bcast_S1600000_S1600000x1_0 ew))

/-- Column `k` of the projected array, as a single-column array. -/
def col0 (Z : FVec F S100000x4 .f32) : FVec F S100000x1 .f32 := extractStridedSlice S100000x1 ![0, 0] Z slices_S100000x4_S100000x1_0_0
def col1 (Z : FVec F S100000x4 .f32) : FVec F S100000x1 .f32 := extractStridedSlice S100000x1 ![0, 1] Z slices_S100000x4_S100000x1_0_1
def col2 (Z : FVec F S100000x4 .f32) : FVec F S100000x1 .f32 := extractStridedSlice S100000x1 ![0, 2] Z slices_S100000x4_S100000x1_0_2
def col3 (Z : FVec F S100000x4 .f32) : FVec F S100000x1 .f32 := extractStridedSlice S100000x1 ![0, 3] Z slices_S100000x4_S100000x1_0_3

/-- The last stretch: the Horner recurrence over the four columns, then the bias added to every row. -/
def tail (row col : IVec S1600000 32) (ew : FVec F S1600000 .f32) (Z : FVec F S100000x4 .f32) (bias : FVec F S1 .f32) :
    FVec F S100000x1 .f32 :=
  addf
    (addf (col0 Z)
      (prop1 row col ew (addf (col1 Z) (prop1 row col ew (addf (col2 Z) (prop1 row col ew (col3 Z)))))))
    (broadcastInDim S100000x1 ![0, 1] bcast_S1x1_S100000x1_0_1 fun i => shapeCast S1x1 bias shapeCasts_S1_S1x1 i)

end Cert.KernelIdeal.Terms

end
-- ==== Proof.KernelKeep.lean ====
/-
  Buffers that keep their contents. The edge source and target index vectors and the edge weights are computed once,
  before the first region, and read again by every later propagation step; the weight and bias arguments are read by
  the later stretches. No region has them among its arrays and no later host operation writes them, so at every later
  boundary they hold what they held when the first region was entered, and an argument holds its launch contents.
-/
import proofs.«157029_j18502719111544_2_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg11) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl

theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl

theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

theorem W4_main_v1 (c : Dev nD) : W4 m ρ c (Proc.devRef .tc main_v1) = W3 m ρ c (Proc.devRef .tc main_v1) := W4_of_ne m ρ c main_v1 (by decide)

theorem W4_main_v3 (c : Dev nD) : W4 m ρ c (Proc.devRef .tc main_v3) = W3 m ρ c (Proc.devRef .tc main_v3) := W4_of_ne m ρ c main_v3 (by decide)

theorem W4_main_v28 (c : Dev nD) : W4 m ρ c (Proc.devRef .tc main_v28) = W3 m ρ c (Proc.devRef .tc main_v28) := W4_of_ne m ρ c main_v28 (by decide)

theorem W4_main_arg6 (c : Dev nD) : W4 m ρ c (Proc.devRef .tc main_arg6) = W3 m ρ c (Proc.devRef .tc main_arg6) := W4_of_ne m ρ c main_arg6 (by decide)

theorem W4_main_arg7 (c : Dev nD) : W4 m ρ c (Proc.devRef .tc main_arg7) = W3 m ρ c (Proc.devRef .tc main_arg7) := W4_of_ne m ρ c main_arg7 (by decide)

theorem W4_main_arg8 (c : Dev nD) : W4 m ρ c (Proc.devRef .tc main_arg8) = W3 m ρ c (Proc.devRef .tc main_arg8) := W4_of_ne m ρ c main_arg8 (by decide)

theorem W4_main_arg9 (c : Dev nD) : W4 m ρ c (Proc.devRef .tc main_arg9) = W3 m ρ c (Proc.devRef .tc main_arg9) := W4_of_ne m ρ c main_arg9 (by decide)

theorem W4_main_arg10 (c : Dev nD) : W4 m ρ c (Proc.devRef .tc main_arg10) = W3 m ρ c (Proc.devRef .tc main_arg10) := W4_of_ne m ρ c main_arg10 (by decide)

theorem W4_main_arg11 (c : Dev nD) : W4 m ρ c (Proc.devRef .tc main_arg11) = W3 m ρ c (Proc.devRef .tc main_arg11) := W4_of_ne m ρ c main_arg11 (by decide)

theorem W4_main_arg12 (c : Dev nD) : W4 m ρ c (Proc.devRef .tc main_arg12) = W3 m ρ c (Proc.devRef .tc main_arg12) := W4_of_ne m ρ c main_arg12 (by decide)

theorem W4_main_arg13 (c : Dev nD) : W4 m ρ c (Proc.devRef .tc main_arg13) = W3 m ρ c (Proc.devRef .tc main_arg13) := W4_of_ne m ρ c main_arg13 (by decide)

theorem W8_main_v1 (c : Dev nD) : W8 m ρ c (Proc.devRef .tc main_v1) = W3 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v1) := W4_of_ne m ρ c main_v1 (by decide)

theorem W8_main_v3 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v3) := W4_of_ne m ρ c main_v3 (by decide)

theorem W8_main_v28 (c : Dev nD) : W8 m ρ c (Proc.devRef .tc main_v28) = W3 m ρ c (Proc.devRef .tc main_v28) :=
  calc W8 m ρ c (Proc.devRef .tc main_v28)
    _ = W7 m ρ c (Proc.devRef .tc main_v28) := W8_of_ne m ρ c main_v28 (by decide)
    _ = W6 m ρ c (Proc.devRef .tc main_v28) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v28) := W6_of_ne m ρ c main_v28 (by decide)
    _ = W4 m ρ c (Proc.devRef .tc main_v28) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v28) := W4_of_ne m ρ c main_v28 (by decide)

theorem W8_main_arg12 (c : Dev nD) : W8 m ρ c (Proc.devRef .tc main_arg12) = W3 m ρ c (Proc.devRef .tc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg12) := W4_of_ne m ρ c main_arg12 (by decide)

theorem W8_main_arg13 (c : Dev nD) : W8 m ρ c (Proc.devRef .tc main_arg13) = W3 m ρ c (Proc.devRef .tc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg13) := W4_of_ne m ρ c main_arg13 (by decide)

theorem W6_main_arg12 (c : Dev nD) : W6 m ρ c (Proc.devRef .tc main_arg12) = W3 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg12) := W4_of_ne m ρ c main_arg12 (by decide)

end Cert.KernelIdeal.Keep

end
-- ==== Proof.KernelHost.lean ====
/-
  What each stretch of host operations of the idealized kernel leaves in the buffers the regions and the later
  stretches read, as the named host terms of the contents at the stretch's entry: before the first region the four
  normalisation parameter rows (a vector of 67 entries re-laid as a 1×67 row); between the first and second regions the
  three propagation steps on 67 columns, the four 67×128 weight matrices (the 4×128×67 weight array transposed in its
  last two axes, one slab each) and the five 1×128 parameter rows; between the second and third regions the 128×4
  projection matrix (the 4×1×128 weight array with its last axis moved first); after the third region the result.
-/
import proofs.«157029_j18502719111544_2_alg».proof.Proof.KernelTerms
import proofs.«157029_j18502719111544_2_alg».proof.Proof.KernelKeep
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first region -/

/-- Parameter row: argument 2 as a 1×67 row. -/
theorem v29_eq (c : Dev nD) : W3 m ρ c (Proc.devRef .tc main_v29) = fun i => shapeCast S1x67 (W2 m ρ c (Proc.devRef .tc main_arg2)) shapeCasts_S67_S1x67 i := by
  show StableHlo.after hostOps0_2 (W2 m ρ c) (Proc.devRef .tc main_v29) = _
  after_results_simp
  rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- Parameter row: argument 3 as a 1×67 row. -/
theorem v30_eq (c : Dev nD) : W3 m ρ c (Proc.devRef .tc main_v30) = fun i => shapeCast S1x67 (W2 m ρ c (Proc.devRef .tc main_arg3)) shapeCasts_S67_S1x67 i := by
  show StableHlo.after hostOps0_2 (W2 m ρ c) (Proc.devRef .tc main_v30) = _
  after_results_simp
  rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- Parameter row: argument 4 as a 1×67 row. -/
theorem v31_eq (c : Dev nD) : W3 m ρ c (Proc.devRef .tc main_v31) = fun i => shapeCast S1x67 (W2 m ρ c (Proc.devRef .tc main_arg4)) shapeCasts_S67_S1x67 i := by
  show StableHlo.after hostOps0_2 (W2 m ρ c) (Proc.devRef .tc main_v31) = _
  after_results_simp
  rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- Parameter row: argument 5 as a 1×67 row. -/
theorem v32_eq (c : Dev nD) : W3 m ρ c (Proc.devRef .tc main_v32) = fun i => shapeCast S1x67 (W2 m ρ c (Proc.devRef .tc main_arg5)) shapeCasts_S67_S1x67 i := by
  show StableHlo.after hostOps0_2 (W2 m ρ c) (Proc.devRef .tc main_v32) = _
  after_results_simp
  rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-! ## Between the first and second regions -/

/-- The first region's output is not written by the stretch. -/
theorem v33_keep (c : Dev nD) : W5 m ρ c (Proc.devRef .tc main_v33) = W4 m ρ c (Proc.devRef .tc main_v33) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- One, two and three propagation steps of the first region's output. -/
theorem v46_eq (c : Dev nD) : W5 m ρ c (Proc.devRef .tc main_v46)
    = Terms.prop67 (W4 m ρ c (Proc.devRef .tc main_v1)) (W4 m ρ c (Proc.devRef .tc main_v3)) (W4 m ρ c (Proc.devRef .tc main_v28)) (W4 m ρ c (Proc.devRef .tc main_v33)) := by
  show StableHlo.after hostOps1 (W4 m ρ c) (Proc.devRef .tc main_v46) = _
  after_results_simp
  rfl
theorem v59_eq (c : Dev nD) : W5 m ρ c (Proc.devRef .tc main_v59)
    = Terms.prop67 (W4 m ρ c (Proc.devRef .tc main_v1)) (W4 m ρ c (Proc.devRef .tc main_v3)) (W4 m ρ c (Proc.devRef .tc main_v28))
        (Terms.prop67 (W4 m ρ c (Proc.devRef .tc main_v1)) (W4 m ρ c (Proc.devRef .tc main_v3)) (W4 m ρ c (Proc.devRef .tc main_v28)) (W4 m ρ c (Proc.devRef .tc main_v33))) := by
  show StableHlo.after hostOps1 (W4 m ρ c) (Proc.devRef .tc main_v59) = _
  after_results_simp
  rfl
theorem v72_eq (c : Dev nD) : W5 m ρ c (Proc.devRef .tc main_v72)
    = Terms.prop67 (W4 m ρ c (Proc.devRef .tc main_v1)) (W4 m ρ c (Proc.devRef .tc main_v3)) (W4 m ρ c (Proc.devRef .tc main_v28))
        (Terms.prop67 (W4 m ρ c (Proc.devRef .tc main_v1)) (W4 m ρ c (Proc.devRef .tc main_v3)) (W4 m ρ c (Proc.devRef .tc main_v28))
          (Terms.prop67 (W4 m ρ c (Proc.devRef .tc main_v1)) (W4 m ρ c (Proc.devRef .tc main_v3)) (W4 m ρ c (Proc.devRef .tc main_v28)) (W4 m ρ c (Proc.devRef .tc main_v33)))) := by
  show StableHlo.after hostOps1 (W4 m ρ c) (Proc.devRef .tc main_v72) = _
  after_results_simp
  rfl

/-- Weight matrix 0: slab 0 of the weight array transposed in its last two axes. -/
theorem v80_eq (c : Dev nD) : W5 m ρ c (Proc.devRef .tc main_v80) = fun i => shapeCast S67x128
      (extractStridedSlice S1x67x128 ![0, 0, 0] (transpose S4x67x128 [0, 2, 1] (W4 m ρ c (Proc.devRef .tc main_arg6)) transposes_S4x128x67_S4x67x128_0_2_1) slices_S4x67x128_S1x67x128_0_0_0)
      shapeCasts_S1x67x128_S67x128 i := by
  show StableHlo.after hostOps1 (W4 m ρ c) (Proc.devRef .tc main_v80) = _
  after_results_simp
  rfl

/-- Weight matrix 1: slab 1 of the weight array transposed in its last two axes. -/
theorem v82_eq (c : Dev nD) : W5 m ρ c (Proc.devRef .tc main_v82) = fun i => shapeCast S67x128
      (extractStridedSlice S1x67x128 ![1, 0, 0] (transpose S4x67x128 [0, 2, 1] (W4 m ρ c (Proc.devRef .tc main_arg6)) transposes_S4x128x67_S4x67x128_0_2_1) slices_S4x67x128_S1x67x128_1_0_0)
      shapeCasts_S1x67x128_S67x128 i := by
  show StableHlo.after hostOps1 (W4 m ρ c) (Proc.devRef .tc main_v82) = _
  after_results_simp
  rfl

/-- Weight matrix 2: slab 2 of the weight array transposed in its last two axes. -/
theorem v84_eq (c : Dev nD) : W5 m ρ c (Proc.devRef .tc main_v84) = fun i => shapeCast S67x128
      (extractStridedSlice S1x67x128 ![2, 0, 0] (transpose S4x67x128 [0, 2, 1] (W4 m ρ c (Proc.devRef .tc main_arg6)) transposes_S4x128x67_S4x67x128_0_2_1) slices_S4x67x128_S1x67x128_2_0_0)
      shapeCasts_S1x67x128_S67x128 i := by
  show StableHlo.after hostOps1 (W4 m ρ c) (Proc.devRef .tc main_v84) = _
  after_results_simp
  rfl

/-- Weight matrix 3: slab 3 of the weight array transposed in its last two axes. -/
theorem v86_eq (c : Dev nD) : W5 m ρ c (Proc.devRef .tc main_v86) = fun i => shapeCast S67x128
      (extractStridedSlice S1x67x128 ![3, 0, 0] (transpose S4x67x128 [0, 2, 1] (W4 m ρ c (Proc.devRef .tc main_arg6)) transposes_S4x128x67_S4x67x128_0_2_1) slices_S4x67x128_S1x67x128_3_0_0)
      shapeCasts_S1x67x128_S67x128 i := by
  show StableHlo.after hostOps1 (W4 m ρ c) (Proc.devRef .tc main_v86) = _
  after_results_simp
  rfl

/-- Parameter row: argument 7 as a 1×128 row. -/
theorem v74_eq (c : Dev nD) : W5 m ρ c (Proc.devRef .tc main_v74) = fun i => shapeCast S1x128 (W4 m ρ c (Proc.devRef .tc main_arg7)) shapeCasts_S128_S1x128 i := by
  show StableHlo.after hostOps1 (W4 m ρ c) (Proc.devRef .tc main_v74) = _
  after_results_simp
  rfl

/-- Parameter row: argument 8 as a 1×128 row. -/
theorem v75_eq (c : Dev nD) : W5 m ρ c (Proc.devRef .tc main_v75) = fun i => shapeCast S1x128 (W4 m ρ c (Proc.devRef .tc main_arg8)) shapeCasts_S128_S1x128 i := by
  show StableHlo.after hostOps1 (W4 m ρ c) (Proc.devRef .tc main_v75) = _
  after_results_simp
  rfl

/-- Parameter row: argument 9 as a 1×128 row. -/
theorem v76_eq (c : Dev nD) : W5 m ρ c (Proc.devRef .tc main_v76) = fun i => shapeCast S1x128 (W4 m ρ c (Proc.devRef .tc main_arg9)) shapeCasts_S128_S1x128 i := by
  show StableHlo.after hostOps1 (W4 m ρ c) (Proc.devRef .tc main_v76) = _
  after_results_simp
  rfl

/-- Parameter row: argument 10 as a 1×128 row. -/
theorem v77_eq (c : Dev nD) : W5 m ρ c (Proc.devRef .tc main_v77) = fun i => shapeCast S1x128 (W4 m ρ c (Proc.devRef .tc main_arg10)) shapeCasts_S128_S1x128 i := by
  show StableHlo.after hostOps1 (W4 m ρ c) (Proc.devRef .tc main_v77) = _
  after_results_simp
  rfl

/-- Parameter row: argument 11 as a 1×128 row. -/
theorem v78_eq (c : Dev nD) : W5 m ρ c (Proc.devRef .tc main_v78) = fun i => shapeCast S1x128 (W4 m ρ c (Proc.devRef .tc main_arg11)) shapeCasts_S128_S1x128 i := by
  show StableHlo.after hostOps1 (W4 m ρ c) (Proc.devRef .tc main_v78) = _
  after_results_simp
  rfl

/-! ## Between the second and third regions -/

/-- The second region's output is not written by the stretch. -/
theorem v87_keep (c : Dev nD) : W7 m ρ c (Proc.devRef .tc main_v87) = W6 m ρ c (Proc.devRef .tc main_v87) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The projection matrix: the 4×1×128 weight array with its last axis moved first, as a 128×4 matrix. -/
theorem v89_eq (c : Dev nD) : W7 m ρ c (Proc.devRef .tc main_v89) = fun i => shapeCast S128x4
      (transpose S128x4x1 [2, 0, 1] (W6 m ρ c (Proc.devRef .tc main_arg12)) transposes_S4x1x128_S128x4x1_2_0_1) shapeCasts_S128x4x1_S128x4 i := by
  show StableHlo.after hostOps2 (W6 m ρ c) (Proc.devRef .tc main_v89) = _
  after_results_simp
  rfl

/-! ## After the third region -/

/-- The result: the Horner recurrence over the projected array's four columns, plus the bias. -/
theorem v136_eq (c : Dev nD) : W9 m ρ c (Proc.devRef .tc main_v136)
    = Terms.tail (W8 m ρ c (Proc.devRef .tc main_v1)) (W8 m ρ c (Proc.devRef .tc main_v3)) (W8 m ρ c (Proc.devRef .tc main_v28)) (W8 m ρ c (Proc.devRef .tc main_v90)) (W8 m ρ c (Proc.devRef .tc main_arg13)) := by
  show StableHlo.after hostOps3 (W8 m ρ c) (Proc.devRef .tc main_v136) = _
  after_results_simp
  rfl

end Cert.KernelIdeal.Host

end
-- ==== Proof.KernelEdgeData.lean ====
/-
  The two programs compute the edge data by the same host operations of the same argument: the source index vector, the
  target index vector, and the edge weights  dis[source] · dis[target]  with  dis = 1/√deg  (zero where the degree is
  zero) and deg the number of edges arriving at a node. What the idealized kernel holds in those three buffers when its
  first region is entered is therefore the reference's own stage of the index argument.
-/
import proofs.«157029_j18502719111544_2_alg».proof.Proof.KernelKeep
import proofs.«157029_j18502719111544_2_alg».proof.Proof.RefRead
import Idealize.ShloMosaic.Lib.StableHlo.Run

set_option maxRecDepth 16384

noncomputable section

namespace Cert.KernelIdeal.EdgeData

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The source index vector. -/
theorem v1_ref (c : Dev nD) : W3 m ρ c (Proc.devRef .tc main_v1) = Cert.ReferenceIdeal.Read.val_main_v1 (F := F) (m ((c : Thread nD τ).loc main_arg1)) := by
  show StableHlo.after hostOps0_2 (StableHlo.after hostOps0_1 (StableHlo.after hostOps0 (W0 m ρ c))) (Proc.devRef .tc main_v1) = _
  after_results_simp
  rfl

/-- The target index vector. -/
theorem v3_ref (c : Dev nD) : W3 m ρ c (Proc.devRef .tc main_v3) = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The edge weights. -/
theorem v28_ref (c : Dev nD) : W3 m ρ c (Proc.devRef .tc main_v28) = Cert.ReferenceIdeal.Read.val_main_v28 (F := F) (m ((c : Thread nD τ).loc main_arg1)) := by
  show StableHlo.after hostOps0_2 (StableHlo.after hostOps0_1 (StableHlo.after hostOps0 (W0 m ρ c))) (Proc.devRef .tc main_v28) = _
  after_results_simp
  rfl

end Cert.KernelIdeal.EdgeData

end
-- ==== Proof.RegionNorm.lean ====
/- Region 0 (inference-time batch normalisation), read as one array.
   The region's 20 grid points each take a block of 5000 rows of the [100000, 67] input together with the four
   [1, 67] parameter rows (scale g, shift b, mean m, variance v) and store, for the whole block,
   ((x - m) * rsqrt (v + eps)) * g + b, the parameter rows repeated down the 5000 rows. The 20 blocks tile the
   100000 rows, so after the last point the output array holds, at row n and column d,
   ((X n d - M 0 d) * rsqrt (V 0 d + eps)) * G 0 d + B 0 d
   of the arrays X, G, B, M, V the region found on entry. -/
import proofs.«157029_j18502719111544_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RegionNorm

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-buffer access, as the constant function. -/
theorem zero_offsets : (![0, 0] : Fin 2 → Nat) = fun _ => 0 := funext fun a => by fin_cases a <;> rfl

/-! ## One entry, one block -/

/-- The normalisation of one entry: ((x - m) * rsqrt (v + eps)) * g + b, with eps the f32 word 0x3727C5AC. -/
def normEntry (x g b m v : EReal) : EReal :=
  ((x - m) * Ideal.rsqrt (v + Ideal.ofBits .f32 0x3727C5AC#32)) * g + b

/-- The normalised array: entry (n, d) is the normalisation of X n d by column d of the four parameter rows. -/
def normArr (X : S100000x67.Idx → EReal) (G B M Vr : S1x67.Idx → EReal) : S100000x67.Idx → EReal :=
  fun i => normEntry (X i) (G (ix2 (0 : Fin 1) (⟨(i 1).val, idx2_lt1 i⟩ : Fin 67))) (B (ix2 (0 : Fin 1) (⟨(i 1).val, idx2_lt1 i⟩ : Fin 67)))
    (M (ix2 (0 : Fin 1) (⟨(i 1).val, idx2_lt1 i⟩ : Fin 67))) (Vr (ix2 (0 : Fin 1) (⟨(i 1).val, idx2_lt1 i⟩ : Fin 67)))

/-- The normalised array at an index whose column is q. -/
theorem normArr_apply (X : S100000x67.Idx → EReal) (G B M Vr : S1x67.Idx → EReal) (k : S100000x67.Idx) (q : Fin 67)
    (hk : (k 1).val = q.val) :
    normArr X G B M Vr k = normEntry (X k) (G (ix2 (0 : Fin 1) q)) (B (ix2 (0 : Fin 1) q)) (M (ix2 (0 : Fin 1) q)) (Vr (ix2 (0 : Fin 1) q)) := by
  have hq : (⟨(k 1).val, idx2_lt1 k⟩ : Fin 67) = q := Fin.ext hk
  unfold normArr
  rw [hq]

/-- The normalised array at row n, column d, written out. -/
theorem normArr_ix2 (X : S100000x67.Idx → EReal) (G B M Vr : S1x67.Idx → EReal) (n : Fin 100000) (d : Fin 67) :
    normArr X G B M Vr (ix2 n d)
      = ((X (ix2 n d) - M (ix2 (0 : Fin 1) d)) * Ideal.rsqrt (Vr (ix2 (0 : Fin 1) d) + Ideal.ofBits .f32 0x3727C5AC#32))
          * G (ix2 (0 : Fin 1) d) + B (ix2 (0 : Fin 1) d) :=
  normArr_apply X G B M Vr (ix2 n d) d rfl

/-- The body's stored value at row p, column q of a block: the normalisation of the block's entry by the
    parameter rows' entries in column q. -/
theorem payload_apply (x0 : Vec Ideal S5000x67 .f32) (xm xv xg xb : Vec Ideal S1x67 .f32) (p : Fin 5000) (q : Fin 67) :
    k0_pay1 (F := Ideal) x0 xm xv xg xb (ix2 p q)
      = normEntry (x0 (ix2 p q)) (xg (ix2 (0 : Fin 1) q)) (xb (ix2 (0 : Fin 1) q)) (xm (ix2 (0 : Fin 1) q)) (xv (ix2 (0 : Fin 1) q)) := by
  unfold k0_pay1 normEntry
  simp only [addf_apply, mulf_apply, subf_apply, shapeCast_self, broadcastTo_1b_ab_apply]
  rfl

/-! ## The blocks the points read and write -/

/-- The printed index maps over the grid: the input's and the output's block index is (t, 0), each parameter
    row's is (0, 0). -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Entry
variable (V : (c : Dev nD) → (b : Ref sig .tc) → Buf (Elt Ideal) ((c : Thread nD τ).loc b))

/-- Block t of the input at (p, q) is the input array at row 5000 t + p, column q. -/
theorem xblk_apply (c : Dev nD) (t : Fin cfg0.N) (p : Fin 5000) (q : Fin 67) (k : S100000x67.Idx)
    (hk0 : (k 0).val = 5000 * t.val + p.val) (hk1 : (k 1).val = q.val) :
    (iblk0 V c 0 t : Vec Ideal S5000x67 .f32) (ix2 p q) = (V c (Pipeline.arrRef spec0 0) : S100000x67.Idx → EReal) k := by
  obtain ⟨e0, e1, -⟩ := idx_facts t
  unfold iblk0
  rw [View.read_apply]
  refine congrArg (V c (Pipeline.arrRef spec0 0) : S100000x67.Idx → EReal) (funext fun a => Fin.ext ?_)
  match a with
  | ⟨0, _⟩ => show win0_0.index t (0 : Fin 2) * 5000 + 1 * p.val = (k 0).val; rw [e0, hk0]; omega
  | ⟨1, _⟩ => show win0_0.index t (1 : Fin 2) * 67 + 1 * q.val = (k 1).val; rw [e1, hk1]; omega

/-- Block t of parameter row 1 at (0, q) is that row's array at (0, q): its block is the whole row at every point. -/
theorem prm1_apply (c : Dev nD) (t : Fin cfg0.N) (q : Fin 67) :
    (iblk0 V c 1 t : Vec Ideal S1x67 .f32) (ix2 (0 : Fin 1) q) = (V c (Pipeline.arrRef spec0 1) : S1x67.Idx → EReal) (ix2 (0 : Fin 1) q) := by
  obtain ⟨-, -, e0, e1, -⟩ := idx_facts t
  unfold iblk0
  rw [View.read_apply]
  refine congrArg (V c (Pipeline.arrRef spec0 1) : S1x67.Idx → EReal) (funext fun a => Fin.ext ?_)
  match a with
  | ⟨0, _⟩ => show win0_1.index t (0 : Fin 2) * 1 + 1 * 0 = 0; rw [e0]
  | ⟨1, _⟩ => show win0_1.index t (1 : Fin 2) * 67 + 1 * q.val = q.val; rw [e1]; omega

/-- Block t of parameter row 2 at (0, q) is that row's array at (0, q): its block is the whole row at every point. -/
theorem prm2_apply (c : Dev nD) (t : Fin cfg0.N) (q : Fin 67) :
    (iblk0 V c 2 t : Vec Ideal S1x67 .f32) (ix2 (0 : Fin 1) q) = (V c (Pipeline.arrRef spec0 2) : S1x67.Idx → EReal) (ix2 (0 : Fin 1) q) := by
  obtain ⟨-, -, -, -, e0, e1, -⟩ := idx_facts t
  unfold iblk0
  rw [View.read_apply]
  refine congrArg (V c (Pipeline.arrRef spec0 2) : S1x67.Idx → EReal) (funext fun a => Fin.ext ?_)
  match a with
  | ⟨0, _⟩ => show win0_2.index t (0 : Fin 2) * 1 + 1 * 0 = 0; rw [e0]
  | ⟨1, _⟩ => show win0_2.index t (1 : Fin 2) * 67 + 1 * q.val = q.val; rw [e1]; omega

/-- Block t of parameter row 3 at (0, q) is that row's array at (0, q): its block is the whole row at every point. -/
theorem prm3_apply (c : Dev nD) (t : Fin cfg0.N) (q : Fin 67) :
    (iblk0 V c 3 t : Vec Ideal S1x67 .f32) (ix2 (0 : Fin 1) q) = (V c (Pipeline.arrRef spec0 3) : S1x67.Idx → EReal) (ix2 (0 : Fin 1) q) := by
  obtain ⟨-, -, -, -, -, -, e0, e1, -⟩ := idx_facts t
  unfold iblk0
  rw [View.read_apply]
  refine congrArg (V c (Pipeline.arrRef spec0 3) : S1x67.Idx → EReal) (funext fun a => Fin.ext ?_)
  match a with
  | ⟨0, _⟩ => show win0_3.index t (0 : Fin 2) * 1 + 1 * 0 = 0; rw [e0]
  | ⟨1, _⟩ => show win0_3.index t (1 : Fin 2) * 67 + 1 * q.val = q.val; rw [e1]; omega

/-- Block t of parameter row 4 at (0, q) is that row's array at (0, q): its block is the whole row at every point. -/
theorem prm4_apply (c : Dev nD) (t : Fin cfg0.N) (q : Fin 67) :
    (iblk0 V c 4 t : Vec Ideal S1x67 .f32) (ix2 (0 : Fin 1) q) = (V c (Pipeline.arrRef spec0 4) : S1x67.Idx → EReal) (ix2 (0 : Fin 1) q) := by
  obtain ⟨-, -, -, -, -, -, -, -, e0, e1, -⟩ := idx_facts t
  unfold iblk0
  rw [View.read_apply]
  refine congrArg (V c (Pipeline.arrRef spec0 4) : S1x67.Idx → EReal) (funext fun a => Fin.ext ?_)
  match a with
  | ⟨0, _⟩ => show win0_4.index t (0 : Fin 2) * 1 + 1 * 0 = 0; rw [e0]
  | ⟨1, _⟩ => show win0_4.index t (1 : Fin 2) * 67 + 1 * q.val = q.val; rw [e1]; omega

/-- What point t writes back is block t of the normalised array of the arrays the region found on entry. -/
theorem flushed_eq (c : Dev nD) (t : Fin cfg0.N) :
    (dat0 V c).flushed 5 t = ((cfg0.win 5).blk t).view.read (Elt Ideal)
      (normArr (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero zero_offsets]
  simp only [View.ld_unit_zero (S := S5000x67) zero_offsets, View.ld_unit_zero (S := S1x67) zero_offsets]
  refine funext fun (j : S5000x67.Idx) => ?_
  obtain ⟨p, q, rfl⟩ : ∃ (p : Fin 5000) (q : Fin 67), j = ix2 p q := ⟨j 0, j 1, eq_ix2 j⟩
  refine (payload_apply (iblk0 V c 0 t) (iblk0 V c 3 t) (iblk0 V c 4 t) (iblk0 V c 1 t) (iblk0 V c 2 t) p q).trans ?_
  obtain ⟨-, -, -, -, -, -, -, -, -, -, e0, e1⟩ := idx_facts t
  show _ = normArr (V c (Pipeline.arrRef spec0 0)) (V c (Pipeline.arrRef spec0 1)) (V c (Pipeline.arrRef spec0 2))
    (V c (Pipeline.arrRef spec0 3)) (V c (Pipeline.arrRef spec0 4)) (((cfg0.win 5).blk t).view.emb (ix2 p q))
  refine Eq.trans ?_ (normArr_apply _ _ _ _ _ (((cfg0.win 5).blk t).view.emb (ix2 p q)) q
    (by show win0_5.index t (1 : Fin 2) * 67 + 1 * q.val = q.val; rw [e1]; omega)).symm
  rw [prm1_apply V c t q, prm2_apply V c t q, prm3_apply V c t q, prm4_apply V c t q,
    xblk_apply V c t p q (((cfg0.win 5).blk t).view.emb (ix2 p q))
      (by show win0_5.index t (0 : Fin 2) * 5000 + 1 * p.val = _; rw [e0]; omega)
      (by show win0_5.index t (1 : Fin 2) * 67 + 1 * q.val = _; rw [e1]; omega)]

/-- An index of the output array is in point t's block iff each coordinate is in the block's range on its axis. -/
theorem mem_blk (t : Fin cfg0.N) (i : S100000x67.Idx) :
    i ∈ ((cfg0.win 5).blk t).view.set ↔ ∀ a : Fin 2, win0_5.index t a * S5000x67.size a ≤ (i a).val ∧ (i a).val < win0_5.index t a * S5000x67.size a + S5000x67.size a := by
  show i ∈ ((View.whole main_v33).slice (win0_5.rect t)).set ↔ _
  rw [View.set_slice_whole, Rect.mem_set_unit]
  exact Iff.rfl

/-- Row n of the output lies in the block of point n / 5000: the 20 blocks of 5000 rows tile the 100000 rows. -/
theorem cover (i : S100000x67.Idx) :
    ∃ t : Fin cfg0.N, (cfg0.win 5).flush t = true ∧ i ∈ ((cfg0.win 5).blk t).view.set := by
  have hi0 : (i 0).val < 100000 := (i 0).isLt
  have hi1 : (i 1).val < 67 := (i 1).isLt
  have hN : cfg0.N = 20 := N_0
  have ht : (i 0).val / 5000 < cfg0.N := by rw [hN]; omega
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 67 ≤ (i 1).val ∧ (i 1).val < win0_5.index ⟨(i 0).val / 5000, ht⟩ (1 : Fin 2) * 67 + 67
    rw [e1]; omega

/-! ## The array after the region -/

/-- After all 20 points the output array is the normalised array of the arrays the region found on entry. -/
theorem arr_eq (c : Dev nD) :
    (dat0 V c).arrAt 5 cfg0.N
      = normArr (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 _ (fun t _ => flushed_eq V c t) cover

/-- Entry by entry: with X, G, B, M, Vr the five arrays the region found on entry, row n, column d of the output is
    ((X n d - M 0 d) * rsqrt (Vr 0 d + eps)) * G 0 d + B 0 d. -/
theorem arr_apply (c : Dev nD) (X : S100000x67.Idx → EReal) (G B M Vr : S1x67.Idx → EReal)
    (hX : X = V c (Pipeline.arrRef spec0 0)) (hG : G = V c (Pipeline.arrRef spec0 1)) (hB : B = V c (Pipeline.arrRef spec0 2))
    (hM : M = V c (Pipeline.arrRef spec0 3)) (hV : Vr = V c (Pipeline.arrRef spec0 4)) (n : Fin 100000) (d : Fin 67) :
    ((dat0 V c).arrAt 5 cfg0.N : S100000x67.Idx → EReal) (ix2 n d)
      = ((X (ix2 n d) - M (ix2 (0 : Fin 1) d)) * Ideal.rsqrt (Vr (ix2 (0 : Fin 1) d) + Ideal.ofBits .f32 0x3727C5AC#32))
          * G (ix2 (0 : Fin 1) d) + B (ix2 (0 : Fin 1) d) := by
  subst hX hG hB hM hV
  rw [arr_eq V c]
  exact normArr_ix2 _ _ _ _ _ n d

end Entry

end Cert.KernelIdeal.RegionNorm

end
-- ==== Proof.BridgeNorm.lean ====
/- The kernel's normalised array is the reference's normalisation stage.
   The kernel reads the four parameter vectors g, b, m, v (each of 67 entries) as rows [1, 67] (a reshape) and
   normalises entry (n, d) of the input X to ((X n d - m d) * rsqrt (v d + eps)) * g d + b d. The reference
   repeats each vector down the 100000 rows ([67] to [1, 67] to [100000, 67]) and computes
   ((X - m) * rsqrt (v + eps)) * g + b entry by entry. Both read, at (n, d), entry d of each vector, so the two
   arrays are equal. -/
import proofs.«157029_j18502719111544_2_alg».proof.Proof.RegionNorm
import proofs.«157029_j18502719111544_2_alg».proof.Proof.RefRead

noncomputable section

namespace Cert.BridgeNorm

open Cert.KernelIdeal Cert.KernelIdeal.Facts₀ Idealize.ShloMosaic
open Idealize.ShloMosaic.ValueIdx
open Cert.KernelIdeal.RegionNorm

/-- A vector of 67 entries laid as one row [1, 67], read at (0, d), is the vector at d. -/
theorem row_apply (a : S67.Idx → EReal) (h : S67.ShapeCasts S1x67) (d : Fin 67) :
    shapeCast S1x67 a h (ix2 (0 : Fin 1) d) = a (ix1 d) :=
  shapeCast_a_1a_apply a h 0 d

/-- The reference's normalisation stage at row n, column d: ((X n d - m d) * rsqrt (v d + eps)) * g d + b d. -/
theorem ref_apply (X : S100000x67.Idx → EReal) (a2 a3 a4 a5 : S67.Idx → EReal) (n : Fin 100000) (d : Fin 67) :
    Cert.ReferenceIdeal.Read.val_main_v43 (F := Ideal) X a2 a3 a4 a5 (ix2 n d)
      = ((X (ix2 n d) - a4 (ix1 d)) * Ideal.rsqrt (a5 (ix1 d) + Ideal.ofBits .f32 0x3727C5AC#32)) * a2 (ix1 d) + a3 (ix1 d) := by
  have h4 : Cert.ReferenceIdeal.Read.idx_main_v29 (Cert.ReferenceIdeal.Read.idx_main_v30 (ix2 n d)) = ix1 d :=
    funext fun a => match a with | ⟨0, _⟩ => rfl
  have h5 : Cert.ReferenceIdeal.Read.idx_main_v35 (Cert.ReferenceIdeal.Read.idx_main_v36 (ix2 n d)) = ix1 d :=
    funext fun a => match a with | ⟨0, _⟩ => rfl
  have h2 : Cert.ReferenceIdeal.Read.idx_main_v38 (Cert.ReferenceIdeal.Read.idx_main_v39 (ix2 n d)) = ix1 d :=
    funext fun a => match a with | ⟨0, _⟩ => rfl
  have h3 : Cert.ReferenceIdeal.Read.idx_main_v41 (Cert.ReferenceIdeal.Read.idx_main_v42 (ix2 n d)) = ix1 d :=
    funext fun a => match a with | ⟨0, _⟩ => rfl
  rw [Cert.ReferenceIdeal.Read.val_main_v43_apply, Cert.ReferenceIdeal.Read.val_main_v40_apply,
    Cert.ReferenceIdeal.Read.val_main_v37_apply, Cert.ReferenceIdeal.Read.val_main_v31_apply,
    Cert.ReferenceIdeal.Read.val_main_v30_apply, Cert.ReferenceIdeal.Read.val_main_v29_apply,
    Cert.ReferenceIdeal.Read.val_main_v36_apply, Cert.ReferenceIdeal.Read.val_main_v35_apply,
    Cert.ReferenceIdeal.Read.val_main_v34_apply, Cert.ReferenceIdeal.Read.val_main_v33_apply,
    Cert.ReferenceIdeal.Read.val_main_v32_apply, Cert.ReferenceIdeal.Read.val_main_cst_7_apply,
    Cert.ReferenceIdeal.Read.val_main_v39_apply, Cert.ReferenceIdeal.Read.val_main_v38_apply,
    Cert.ReferenceIdeal.Read.val_main_v42_apply, Cert.ReferenceIdeal.Read.val_main_v41_apply,
    h4, h5, h2, h3]
  simp only [Ideal.addf_def, Ideal.subf_def, Ideal.mulf_def, Ideal.hostUnary_rsqrt_def, Ideal.ofBits_def]

/-- The kernel's normalised array, its parameter rows the four vectors laid as rows by any reshape
    [67] to [1, 67], is the reference's normalisation stage of the same input and vectors. -/
theorem normArr_eq_ref_of (X : S100000x67.Idx → EReal) (a2 a3 a4 a5 : S67.Idx → EReal)
    (k2 k3 k4 k5 : S67.ShapeCasts S1x67) :
    normArr X (fun i => shapeCast S1x67 a2 k2 i) (fun i => shapeCast S1x67 a3 k3 i)
        (fun i => shapeCast S1x67 a4 k4 i) (fun i => shapeCast S1x67 a5 k5 i)
      = Cert.ReferenceIdeal.Read.val_main_v43 (F := Ideal) X a2 a3 a4 a5 := by
  funext i
  obtain ⟨n, d, rfl⟩ : ∃ (n : Fin 100000) (d : Fin 67), i = ix2 n d := ⟨i 0, i 1, eq_ix2 i⟩
  rw [normArr_ix2, ref_apply]
  show ((X (ix2 n d) - shapeCast S1x67 a4 k4 (ix2 (0 : Fin 1) d))
        * Ideal.rsqrt (shapeCast S1x67 a5 k5 (ix2 (0 : Fin 1) d) + Ideal.ofBits .f32 0x3727C5AC#32))
        * shapeCast S1x67 a2 k2 (ix2 (0 : Fin 1) d) + shapeCast S1x67 a3 k3 (ix2 (0 : Fin 1) d) = _
  rw [row_apply a4 k4 d, row_apply a5 k5 d, row_apply a2 k2 d, row_apply a3 k3 d]

/-- The same with the kernel program's own reshape fact. -/
theorem normArr_eq_ref (X : S100000x67.Idx → EReal) (a2 a3 a4 a5 : S67.Idx → EReal) :
    normArr X (fun i => shapeCast S1x67 a2 shapeCasts_S67_S1x67 i) (fun i => shapeCast S1x67 a3 shapeCasts_S67_S1x67 i)
        (fun i => shapeCast S1x67 a4 shapeCasts_S67_S1x67 i) (fun i => shapeCast S1x67 a5 shapeCasts_S67_S1x67 i)
      = Cert.ReferenceIdeal.Read.val_main_v43 (F := Ideal) X a2 a3 a4 a5 :=
  normArr_eq_ref_of X a2 a3 a4 a5 _ _ _ _

end Cert.BridgeNorm

end
-- ==== Proof.BridgeHops.lean ====
/-
  The three propagation steps on 67 columns. Both programs apply the same host operations — gather the rows at the
  wrapped source index, scale each by its edge weight, scatter-add at the target index — to the same arrays, so the
  kernel's step applied to a stage of the reference is the reference's next stage.
-/
import proofs.«157029_j18502719111544_2_alg».proof.Proof.KernelTerms
import proofs.«157029_j18502719111544_2_alg».proof.Proof.RefRead

set_option maxRecDepth 16384

noncomputable section

namespace Cert.BridgeHops

open Idealize.ShloMosaic
open Cert.KernelIdeal

variable (x0 : S100000x67.Idx → EReal) (x1 : IVec S2x1600000 32) (x2 x3 x4 x5 : S67.Idx → EReal)

/-- One step from the normalised features. -/
theorem hop1_ref : Terms.prop67 (F := Ideal) (Cert.ReferenceIdeal.Read.val_main_v1 (F := Ideal) x1) (Cert.ReferenceIdeal.Read.val_main_v3 (F := Ideal) x1) (Cert.ReferenceIdeal.Read.val_main_v28 (F := Ideal) x1)
      (Cert.ReferenceIdeal.Read.val_main_v43 (F := Ideal) x0 x2 x3 x4 x5)
    = Cert.ReferenceIdeal.Read.val_main_v59 (F := Ideal) x0 x1 x2 x3 x4 x5 := rfl

/-- Two steps. -/
theorem hop2_ref : Terms.prop67 (F := Ideal) (Cert.ReferenceIdeal.Read.val_main_v1 (F := Ideal) x1) (Cert.ReferenceIdeal.Read.val_main_v3 (F := Ideal) x1) (Cert.ReferenceIdeal.Read.val_main_v28 (F := Ideal) x1)
      (Cert.ReferenceIdeal.Read.val_main_v59 (F := Ideal) x0 x1 x2 x3 x4 x5)
    = Cert.ReferenceIdeal.Read.val_main_v76 (F := Ideal) x0 x1 x2 x3 x4 x5 := rfl

/-- Three steps. -/
theorem hop3_ref : Terms.prop67 (F := Ideal) (Cert.ReferenceIdeal.Read.val_main_v1 (F := Ideal) x1) (Cert.ReferenceIdeal.Read.val_main_v3 (F := Ideal) x1) (Cert.ReferenceIdeal.Read.val_main_v28 (F := Ideal) x1)
      (Cert.ReferenceIdeal.Read.val_main_v76 (F := Ideal) x0 x1 x2 x3 x4 x5)
    = Cert.ReferenceIdeal.Read.val_main_v93 (F := Ideal) x0 x1 x2 x3 x4 x5 := rfl

end Cert.BridgeHops

end
-- ==== Proof.Stage1.lean ====
/-
  The idealized kernel up to its second region, stage by stage against the reference. The first region's output array
  is the reference's normalised feature array (the same normalisation entry by entry, the parameter rows re-laid
  instead of broadcast); the three arrays the next stretch propagates from it are the reference's features after one,
  two and three propagation steps (the same host operations on equal arrays).
-/
import proofs.«157029_j18502719111544_2_alg».proof.Proof.KernelHost
import proofs.«157029_j18502719111544_2_alg».proof.Proof.KernelEdgeData
import proofs.«157029_j18502719111544_2_alg».proof.Proof.BridgeNorm
import proofs.«157029_j18502719111544_2_alg».proof.Proof.BridgeHops

set_option maxRecDepth 16384

noncomputable section

namespace Cert.Stage1

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)
abbrev arg4 (c : Dev nD) := m ((c : Thread nD τ).loc main_arg4)
abbrev arg5 (c : Dev nD) := m ((c : Thread nD τ).loc main_arg5)
abbrev arg6 (c : Dev nD) := m ((c : Thread nD τ).loc main_arg6)
abbrev arg7 (c : Dev nD) := m ((c : Thread nD τ).loc main_arg7)
abbrev arg8 (c : Dev nD) := m ((c : Thread nD τ).loc main_arg8)
abbrev arg9 (c : Dev nD) := m ((c : Thread nD τ).loc main_arg9)
abbrev arg10 (c : Dev nD) := m ((c : Thread nD τ).loc main_arg10)
abbrev arg11 (c : Dev nD) := m ((c : Thread nD τ).loc main_arg11)
abbrev arg12 (c : Dev nD) := m ((c : Thread nD τ).loc main_arg12)
abbrev arg13 (c : Dev nD) := m ((c : Thread nD τ).loc main_arg13)

/-- The edge data at the first region's exit, as the reference's stages of the index argument. -/
theorem v1_at4 (c : Dev nD) : W4 m ρ c (Proc.devRef .tc main_v1) = Cert.ReferenceIdeal.Read.val_main_v1 (F := Ideal) (arg1 m c) :=
  (Keep.W4_main_v1 m ρ c).trans (EdgeData.v1_ref m ρ c)
theorem v3_at4 (c : Dev nD) : W4 m ρ c (Proc.devRef .tc main_v3) = Cert.ReferenceIdeal.Read.val_main_v3 (F := Ideal) (arg1 m c) :=
  (Keep.W4_main_v3 m ρ c).trans (EdgeData.v3_ref m ρ c)
theorem v28_at4 (c : Dev nD) : W4 m ρ c (Proc.devRef .tc main_v28) = Cert.ReferenceIdeal.Read.val_main_v28 (F := Ideal) (arg1 m c) :=
  (Keep.W4_main_v28 m ρ c).trans (EdgeData.v28_ref m ρ c)

/-- The first region's output array is the reference's normalised features. -/
theorem norm_stage (c : Dev nD) : W4 m ρ c (Proc.devRef .tc main_v33)
    = Cert.ReferenceIdeal.Read.val_main_v43 (F := Ideal) (arg0 m c) (arg2 m c) (arg3 m c) (arg4 m c) (arg5 m c) := by
  have h1 : W4 m ρ c (Proc.devRef .tc main_v33) = (dat0 (V3 m ρ) c).arrAt 5 cfg0.N := W4_arr m ρ c 5
  have e0 : (arg0 m c : S100000x67.Idx → EReal) = V3 m ρ c (Pipeline.arrRef spec0 0) := (Keep.W3_main_arg0 m ρ c).symm
  have e1 : (fun i => shapeCast S1x67 (arg2 m c) shapeCasts_S67_S1x67 i : S1x67.Idx → EReal) = V3 m ρ c (Pipeline.arrRef spec0 1) :=
    ((Host.v29_eq m ρ c).trans (by rw [Host.W2_main_arg2])).symm
  have e2 : (fun i => shapeCast S1x67 (arg3 m c) shapeCasts_S67_S1x67 i : S1x67.Idx → EReal) = V3 m ρ c (Pipeline.arrRef spec0 2) :=
    ((Host.v30_eq m ρ c).trans (by rw [Host.W2_main_arg3])).symm
  have e3 : (fun i => shapeCast S1x67 (arg4 m c) shapeCasts_S67_S1x67 i : S1x67.Idx → EReal) = V3 m ρ c (Pipeline.arrRef spec0 3) :=
    ((Host.v31_eq m ρ c).trans (by rw [Host.W2_main_arg4])).symm
  have e4 : (fun i => shapeCast S1x67 (arg5 m c) shapeCasts_S67_S1x67 i : S1x67.Idx → EReal) = V3 m ρ c (Pipeline.arrRef spec0 4) :=
    ((Host.v32_eq m ρ c).trans (by rw [Host.W2_main_arg5])).symm
  rw [h1]
  funext i
  obtain ⟨n, d, rfl⟩ : ∃ (n : Fin 100000) (d : Fin 67), i = ix2 n d := ⟨i 0, i 1, eq_ix2 i⟩
  rw [RegionNorm.arr_apply (V3 m ρ) c _ _ _ _ _ e0 e1 e2 e3 e4 n d, ← RegionNorm.normArr_ix2,
    BridgeNorm.normArr_eq_ref_of]

/-- The arrays the second region reads as its four feature operands. -/
theorem feat0 (c : Dev nD) : W5 m ρ c (Proc.devRef .tc main_v33)
    = Cert.ReferenceIdeal.Read.val_main_v43 (F := Ideal) (arg0 m c) (arg2 m c) (arg3 m c) (arg4 m c) (arg5 m c) :=
  (Host.v33_keep m ρ c).trans (norm_stage m ρ c)
theorem feat1 (c : Dev nD) : W5 m ρ c (Proc.devRef .tc main_v46)
    = Cert.ReferenceIdeal.Read.val_main_v59 (F := Ideal) (arg0 m c) (arg1 m c) (arg2 m c) (arg3 m c) (arg4 m c) (arg5 m c) := by
  rw [Host.v46_eq, v1_at4, v3_at4, v28_at4, norm_stage, BridgeHops.hop1_ref]
theorem feat2 (c : Dev nD) : W5 m ρ c (Proc.devRef .tc main_v59)
    = Cert.ReferenceIdeal.Read.val_main_v76 (F := Ideal) (arg0 m c) (arg1 m c) (arg2 m c) (arg3 m c) (arg4 m c) (arg5 m c) := by
  rw [Host.v59_eq, v1_at4, v3_at4, v28_at4, norm_stage, BridgeHops.hop1_ref, BridgeHops.hop2_ref]
theorem feat3 (c : Dev nD) : W5 m ρ c (Proc.devRef .tc main_v72)
    = Cert.ReferenceIdeal.Read.val_main_v93 (F := Ideal) (arg0 m c) (arg1 m c) (arg2 m c) (arg3 m c) (arg4 m c) (arg5 m c) := by
  rw [Host.v72_eq, v1_at4, v3_at4, v28_at4, norm_stage, BridgeHops.hop1_ref, BridgeHops.hop2_ref, BridgeHops.hop3_ref]

end Cert.Stage1

end
-- ==== Proof.RegionCombinePayload.lean ====
/- The body of the combine / batch-norm / leaky-ReLU kernel, read at ONE element of its row block.
   A row block of the four feature matrices h0..h3 (5000 x 67 each) is multiplied into the four weight
   matrices w0..w3 (67 x 128 each); the four products are added, in order, onto a zero block; the bias row is
   added; the running mean is subtracted; the result is scaled by the reciprocal square root of the running
   variance plus a small constant and by the scale row, shifted by the shift row, and passed through the leaky
   rectifier (the value where it is positive, a small multiple of it elsewhere). At row p and column o this is
   a function of row p of each feature block, column o of each weight matrix and column o of each row vector:
   each product is the sum over the 67 contracted positions, every other step acts element by element, and a
   one-row array broadcast down the rows reads its one row. -/
import proofs.«157029_j18502719111544_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionCombine

open Cert.KernelIdeal Cert.KernelIdeal.Gen Idealize.ShloMosaic Idealize.ShloMosaic.ValueIdx

/-- The batch-norm and leaky-rectifier tail on one element: from the accumulated sum acc, the mean mm, the
    variance vv, the scale g and the shift b. The small constant added to the variance, the zero compared
    against and the slope are kept as their 32-bit words. -/
def bnLeaky (acc mm vv g b : EReal) : EReal :=
  Scalar.select
    (Ideal.cmp .ogt (((acc - mm) * Ideal.rsqrt (vv + Ideal.ofBits .f32 0x3727C5AC#32)) * g + b) (Ideal.ofBits .f32 0x00000000#32))
    (((acc - mm) * Ideal.rsqrt (vv + Ideal.ofBits .f32 0x3727C5AC#32)) * g + b)
    (Ideal.ofBits .f32 0x3C23D70A#32 * (((acc - mm) * Ideal.rsqrt (vv + Ideal.ofBits .f32 0x3727C5AC#32)) * g + b))

/-- The accumulated sum on one element: the four products' sums added in order onto the zero word, then the bias. -/
def combineAcc (s0 s1 s2 s3 bias : EReal) : EReal :=
  ((((Ideal.ofBits .f32 0x00000000#32 + s0) + s1) + s2) + s3) + bias

/-- The row coordinate of the left operand's index is the output's row coordinate. -/
theorem lhs_row (i : S5000x128.Idx) (q : dot_S5000x67_S67x128_S5000x128_1_0_0_1_n_n.contr.Idx) :
    (dot_S5000x67_S67x128_S5000x128_1_0_0_1_n_n.lhsIdx i q 0).val = (i 0).val := by
  unfold DotDims.lhsIdx
  rw [dif_neg (show ¬(0 : Fin S5000x67.rank) ∈ dot_S5000x67_S67x128_S5000x128_1_0_0_1_n_n.lhsBatch by decide), dif_pos (show (0 : Fin S5000x67.rank) ∈ dot_S5000x67_S67x128_S5000x128_1_0_0_1_n_n.lhsNonContracting by decide)]
  rfl

/-- The column coordinate of the right operand's index is the output's column coordinate. -/
theorem rhs_col (i : S5000x128.Idx) (q : dot_S5000x67_S67x128_S5000x128_1_0_0_1_n_n.contr.Idx) :
    (dot_S5000x67_S67x128_S5000x128_1_0_0_1_n_n.rhsIdx i q 1).val = (i 1).val := by
  unfold DotDims.rhsIdx
  rw [dif_neg (show ¬(1 : Fin S67x128.rank) ∈ dot_S5000x67_S67x128_S5000x128_1_0_0_1_n_n.rhsBatch by decide), dif_pos (show (1 : Fin S67x128.rank) ∈ dot_S5000x67_S67x128_S5000x128_1_0_0_1_n_n.rhsNonContracting by decide)]
  rfl

/-- A 5000 x 67 block times a 67 x 128 matrix into the zero block, at row p and column o: the sum over the 67
    contracted positions k of the block's (p, k) entry times the matrix's (k, o) entry. -/
theorem matmul_at (a : FVec Ideal S5000x67 .f32) (w : FVec Ideal S67x128 .f32) (p : Fin 5000) (o : Fin 128) :
    FloatOps.matmul dot_S5000x67_S67x128_S5000x128_1_0_0_1_n_n none a w (constant (F := Ideal) S5000x128 .f32 0x00000000#32) (ix2 p o)
      = ∑ k : Fin 67, a (ix2 p k) * w (ix2 k o) := by
  rw [Ideal.matmul_constant_zero_apply, ← Equiv.sum_comp (contrEquiv1 dot_S5000x67_S67x128_S5000x128_1_0_0_1_n_n 67 rfl rfl).symm]
  refine Finset.sum_congr rfl fun k _ => ?_
  have hk := contrEquiv1_symm_val dot_S5000x67_S67x128_S5000x128_1_0_0_1_n_n 67 rfl rfl k
  have el : dot_S5000x67_S67x128_S5000x128_1_0_0_1_n_n.lhsIdx (ix2 p o) ((contrEquiv1 dot_S5000x67_S67x128_S5000x128_1_0_0_1_n_n 67 rfl rfl).symm k) = ix2 p k := funext fun ax => Fin.ext (by
    match ax with
    | ⟨0, _⟩ => exact lhs_row _ _
    | ⟨1, _⟩ => exact (dot_S5000x67_S67x128_S5000x128_1_0_0_1_n_n.lhsIdx_val_of_single rfl (ix2 p o) _).trans hk)
  have er : dot_S5000x67_S67x128_S5000x128_1_0_0_1_n_n.rhsIdx (ix2 p o) ((contrEquiv1 dot_S5000x67_S67x128_S5000x128_1_0_0_1_n_n 67 rfl rfl).symm k) = ix2 k o := funext fun ax => Fin.ext (by
    match ax with
    | ⟨0, _⟩ => exact (dot_S5000x67_S67x128_S5000x128_1_0_0_1_n_n.rhsIdx_val_of_single rfl (ix2 p o) _).trans hk
    | ⟨1, _⟩ => exact rhs_col _ _)
  rw [el, er]

/-- The accumulating half of the body at row p, column o. -/
theorem pay2_at (x0 x1 x2 x3 : Vec Ideal S5000x67 .f32) (x4 x5 x6 x7 : Vec Ideal S67x128 .f32) (x8 x11 : Vec Ideal S1x128 .f32)
    (p : Fin 5000) (o : Fin 128) :
    k1_pay2 (F := Ideal) x0 x4 x1 x5 x2 x6 x3 x7 x8 x11 (ix2 p o)
      = combineAcc (∑ k : Fin 67, x0 (ix2 p k) * x4 (ix2 k o)) (∑ k : Fin 67, x1 (ix2 p k) * x5 (ix2 k o))
          (∑ k : Fin 67, x2 (ix2 p k) * x6 (ix2 k o)) (∑ k : Fin 67, x3 (ix2 p k) * x7 (ix2 k o)) (x8 (ix2 (0 : Fin 1) o))
        - x11 (ix2 (0 : Fin 1) o) := by
  unfold k1_pay2 combineAcc
  simp only [shapeCast_self]
  rw [subf_apply, addf_apply, addf_apply, addf_apply, addf_apply, addf_apply, broadcast_apply,
    broadcastTo_1b_ab_apply, broadcastTo_1b_ab_apply]
  simp only [matmul]
  rw [matmul_at, matmul_at, matmul_at, matmul_at]
  rfl

/-- The whole body at row p, column o. -/
theorem pay_at (x0 x1 x2 x3 : Vec Ideal S5000x67 .f32) (x4 x5 x6 x7 : Vec Ideal S67x128 .f32) (x8 x9 x10 x11 x12 : Vec Ideal S1x128 .f32)
    (p : Fin 5000) (o : Fin 128) :
    k1_pay1 (F := Ideal) (k1_pay2 (F := Ideal) x0 x4 x1 x5 x2 x6 x3 x7 x8 x11) x12 x9 x10 (ix2 p o)
      = bnLeaky (combineAcc (∑ k : Fin 67, x0 (ix2 p k) * x4 (ix2 k o)) (∑ k : Fin 67, x1 (ix2 p k) * x5 (ix2 k o))
          (∑ k : Fin 67, x2 (ix2 p k) * x6 (ix2 k o)) (∑ k : Fin 67, x3 (ix2 p k) * x7 (ix2 k o)) (x8 (ix2 (0 : Fin 1) o)))
          (x11 (ix2 (0 : Fin 1) o)) (x12 (ix2 (0 : Fin 1) o)) (x9 (ix2 (0 : Fin 1) o)) (x10 (ix2 (0 : Fin 1) o)) := by
  generalize hacc : k1_pay2 (F := Ideal) x0 x4 x1 x5 x2 x6 x3 x7 x8 x11 = acc
  have hp := pay2_at x0 x1 x2 x3 x4 x5 x6 x7 x8 x11 p o
  rw [hacc] at hp
  unfold k1_pay1 bnLeaky
  simp only [shapeCast_self]
  simp only [select_apply, cmpf_apply, addf_apply, mulf_apply, broadcast_apply, broadcastTo_1b_ab_apply, hp]
  rfl

end Cert.KernelIdeal.RegionCombine

end
-- ==== Proof.RegionCombineBlocks.lean ====
/- The combine / batch-norm / leaky-ReLU region: its result as ONE function of the arrays it reads, and how the
   region's blocks sit in those arrays.
   The region walks 20 row blocks of 5000 rows. At block t it reads rows 5000 t .. 5000 t + 4999 of the four
   100000 x 67 feature arrays, all of the four 67 x 128 weight matrices and of the five 1 x 128 row vectors, and
   writes rows 5000 t .. 5000 t + 4999 of the 100000 x 128 output. Entry (n, o) of the result is the leaky
   rectifier of the normalised, scaled and shifted sum  bias(o) + sum over the four pairs of
   sum_k h(n, k) w(k, o): it depends on row n of each feature array only. Proved here: one block's body at (p, o)
   is that function at (n, o) once the block's rows are the arrays' rows; row p of a feature block at point t is
   row 5000 t + p of its array; an unblocked window's block is its array; and the 20 output blocks cover the
   output array (row n lies in block n / 5000). -/
import proofs.«157029_j18502719111544_2_alg».proof.Proof.Gen.KernelIdeal.Frame
import proofs.«157029_j18502719111544_2_alg».proof.Proof.RegionCombinePayload
import Idealize.ShloMosaic.Lib.Pipeline.Value

noncomputable section

namespace Cert.KernelIdeal.RegionCombine

open Cert.KernelIdeal Cert.KernelIdeal.Gen Idealize.ShloMosaic Idealize.ShloMosaic.TcCoe Idealize.SL.Sem
open Idealize.ShloMosaic.ValueIdx
open Idealize.ShloMosaic.Pipeline (Dat)

/-- Entry (n, o) of the region's result, from the feature arrays H0..H3, the weight matrices W0..W3 and the
    row vectors (bias, scale G, shift B, mean Mm, variance Vv). -/
def combineAt (H0 H1 H2 H3 : S100000x67.Idx → EReal) (W0 W1 W2 W3 : S67x128.Idx → EReal)
    (Bias G B Mm Vv : S1x128.Idx → EReal) (n : Fin 100000) (o : Fin 128) : EReal :=
  bnLeaky (combineAcc (∑ k : Fin 67, H0 (ix2 n k) * W0 (ix2 k o)) (∑ k : Fin 67, H1 (ix2 n k) * W1 (ix2 k o))
      (∑ k : Fin 67, H2 (ix2 n k) * W2 (ix2 k o)) (∑ k : Fin 67, H3 (ix2 n k) * W3 (ix2 k o)) (Bias (ix2 (0 : Fin 1) o)))
    (Mm (ix2 (0 : Fin 1) o)) (Vv (ix2 (0 : Fin 1) o)) (G (ix2 (0 : Fin 1) o)) (B (ix2 (0 : Fin 1) o))

/-- The region's result as a whole array. -/
def combineG (H0 H1 H2 H3 : S100000x67.Idx → EReal) (W0 W1 W2 W3 : S67x128.Idx → EReal)
    (Bias G B Mm Vv : S1x128.Idx → EReal) : S100000x128.Idx → EReal :=
  fun i => combineAt H0 H1 H2 H3 W0 W1 W2 W3 Bias G B Mm Vv ⟨(i 0).val, (i 0).isLt⟩ ⟨(i 1).val, (i 1).isLt⟩

theorem combineG_apply (H0 H1 H2 H3 : S100000x67.Idx → EReal) (W0 W1 W2 W3 : S67x128.Idx → EReal)
    (Bias G B Mm Vv : S1x128.Idx → EReal) (n : Fin 100000) (o : Fin 128) :
    combineG H0 H1 H2 H3 W0 W1 W2 W3 Bias G B Mm Vv (ix2 n o) = combineAt H0 H1 H2 H3 W0 W1 W2 W3 Bias G B Mm Vv n o := rfl

/-- One block's body at (p, o) is the whole-array function at (n, o), when the block's feature rows p are the
    arrays' rows n and its matrices and row vectors are the arrays'. -/
theorem block_at (x0 x1 x2 x3 : Vec Ideal S5000x67 .f32) (x4 x5 x6 x7 : Vec Ideal S67x128 .f32) (x8 x9 x10 x11 x12 : Vec Ideal S1x128 .f32)
    (H0 H1 H2 H3 : S100000x67.Idx → EReal) (W0 W1 W2 W3 : S67x128.Idx → EReal) (Bias G B Mm Vv : S1x128.Idx → EReal)
    (p : Fin 5000) (o : Fin 128) (n : Fin 100000)
    (h0 : ∀ k : Fin 67, x0 (ix2 p k) = H0 (ix2 n k)) (h1 : ∀ k : Fin 67, x1 (ix2 p k) = H1 (ix2 n k))
    (h2 : ∀ k : Fin 67, x2 (ix2 p k) = H2 (ix2 n k)) (h3 : ∀ k : Fin 67, x3 (ix2 p k) = H3 (ix2 n k))
    (h4 : x4 = W0) (h5 : x5 = W1) (h6 : x6 = W2) (h7 : x7 = W3)
    (h8 : x8 = Bias) (h9 : x9 = G) (h10 : x10 = B) (h11 : x11 = Mm) (h12 : x12 = Vv) :
    k1_pay1 (F := Ideal) (k1_pay2 (F := Ideal) x0 x4 x1 x5 x2 x6 x3 x7 x8 x11) x12 x9 x10 (ix2 p o)
      = combineAt H0 H1 H2 H3 W0 W1 W2 W3 Bias G B Mm Vv n o := by
  rw [pay_at]
  subst h4 h5 h6 h7 h8 h9 h10 h11 h12
  unfold combineAt
  simp only [h0, h1, h2, h3]

section Region
variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 20 grid points: the row-blocked windows sit at block (t, 0), the
    whole windows at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_13.index t (0 : Fin 2) = t.val ∧ win1_13.index t (1 : Fin 2) = 0) :=
  (by decide +kernel : ∀ t : Fin grid1.N, _)

theorem idx_whole : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0) :=
  (by decide +kernel : ∀ t : Fin grid1.N, _)

/-- Row p of feature window 0's block at point t is row 5000 t + p of its array. -/
theorem iblk_0 (c : Dev nD) (t : Fin cfg1.N) (p : Fin 5000) (k : Fin 67) (n : Fin 100000) (hn : n.val = t.val * 5000 + p.val) :
    (iblk1 V c 0 t : Vec Ideal S5000x67 .f32) (ix2 p k) = (V c (Pipeline.arrRef spec1 0) : S100000x67.Idx → EReal) (ix2 n k) := by
  obtain ⟨⟨r0, r1⟩, -, -, -, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = n.val; rw [r0, hn]; omega
  | ⟨1, _⟩ => show win1_0.index t (1 : Fin 2) * 67 + 1 * k.val = k.val; rw [r1]; omega

/-- Row p of feature window 1's block at point t is row 5000 t + p of its array. -/
theorem iblk_1 (c : Dev nD) (t : Fin cfg1.N) (p : Fin 5000) (k : Fin 67) (n : Fin 100000) (hn : n.val = t.val * 5000 + p.val) :
    (iblk1 V c 1 t : Vec Ideal S5000x67 .f32) (ix2 p k) = (V c (Pipeline.arrRef spec1 1) : S100000x67.Idx → EReal) (ix2 n k) := by
  obtain ⟨-, ⟨r0, r1⟩, -, -, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = n.val; rw [r0, hn]; omega
  | ⟨1, _⟩ => show win1_1.index t (1 : Fin 2) * 67 + 1 * k.val = k.val; rw [r1]; omega

/-- Row p of feature window 2's block at point t is row 5000 t + p of its array. -/
theorem iblk_2 (c : Dev nD) (t : Fin cfg1.N) (p : Fin 5000) (k : Fin 67) (n : Fin 100000) (hn : n.val = t.val * 5000 + p.val) :
    (iblk1 V c 2 t : Vec Ideal S5000x67 .f32) (ix2 p k) = (V c (Pipeline.arrRef spec1 2) : S100000x67.Idx → EReal) (ix2 n k) := by
  obtain ⟨-, -, ⟨r0, r1⟩, -, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 5000 + 1 * p.val = n.val; rw [r0, hn]; omega
  | ⟨1, _⟩ => show win1_2.index t (1 : Fin 2) * 67 + 1 * k.val = k.val; rw [r1]; omega

/-- Row p of feature window 3's block at point t is row 5000 t + p of its array. -/
theorem iblk_3 (c : Dev nD) (t : Fin cfg1.N) (p : Fin 5000) (k : Fin 67) (n : Fin 100000) (hn : n.val = t.val * 5000 + p.val) :
    (iblk1 V c 3 t : Vec Ideal S5000x67 .f32) (ix2 p k) = (V c (Pipeline.arrRef spec1 3) : S100000x67.Idx → EReal) (ix2 n k) := by
  obtain ⟨-, -, -, ⟨r0, r1⟩, -⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 5000 + 1 * p.val = n.val; rw [r0, hn]; omega
  | ⟨1, _⟩ => show win1_3.index t (1 : Fin 2) * 67 + 1 * k.val = k.val; rw [r1]; omega

/-- Window 4 is not blocked: its block at every point is its array. -/
theorem iblk_4 (c : Dev nD) (t : Fin cfg1.N) :
    (iblk1 V c 4 t : Vec Ideal S67x128 .f32) = (V c (Pipeline.arrRef spec1 4) : S67x128.Idx → EReal) := by
  obtain ⟨⟨r0, r1⟩, -, -, -, -, -, -, -, -⟩ := idx_whole t
  funext y
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 67 + 1 * (y 0).val = (y 0).val; rw [r0]; omega
  | ⟨1, _⟩ => show win1_4.index t (1 : Fin 2) * 128 + 1 * (y 1).val = (y 1).val; rw [r1]; omega

/-- Window 5 is not blocked: its block at every point is its array. -/
theorem iblk_5 (c : Dev nD) (t : Fin cfg1.N) :
    (iblk1 V c 5 t : Vec Ideal S67x128 .f32) = (V c (Pipeline.arrRef spec1 5) : S67x128.Idx → EReal) := by
  obtain ⟨-, ⟨r0, r1⟩, -, -, -, -, -, -, -⟩ := idx_whole t
  funext y
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 67 + 1 * (y 0).val = (y 0).val; rw [r0]; omega
  | ⟨1, _⟩ => show win1_5.index t (1 : Fin 2) * 128 + 1 * (y 1).val = (y 1).val; rw [r1]; omega

/-- Window 6 is not blocked: its block at every point is its array. -/
theorem iblk_6 (c : Dev nD) (t : Fin cfg1.N) :
    (iblk1 V c 6 t : Vec Ideal S67x128 .f32) = (V c (Pipeline.arrRef spec1 6) : S67x128.Idx → EReal) := by
  obtain ⟨-, -, ⟨r0, r1⟩, -, -, -, -, -, -⟩ := idx_whole t
  funext y
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 67 + 1 * (y 0).val = (y 0).val; rw [r0]; omega
  | ⟨1, _⟩ => show win1_6.index t (1 : Fin 2) * 128 + 1 * (y 1).val = (y 1).val; rw [r1]; omega

/-- Window 7 is not blocked: its block at every point is its array. -/
theorem iblk_7 (c : Dev nD) (t : Fin cfg1.N) :
    (iblk1 V c 7 t : Vec Ideal S67x128 .f32) = (V c (Pipeline.arrRef spec1 7) : S67x128.Idx → EReal) := by
  obtain ⟨-, -, -, ⟨r0, r1⟩, -, -, -, -, -⟩ := idx_whole t
  funext y
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 67 + 1 * (y 0).val = (y 0).val; rw [r0]; omega
  | ⟨1, _⟩ => show win1_7.index t (1 : Fin 2) * 128 + 1 * (y 1).val = (y 1).val; rw [r1]; omega

/-- Window 8 is not blocked: its block at every point is its array. -/
theorem iblk_8 (c : Dev nD) (t : Fin cfg1.N) :
    (iblk1 V c 8 t : Vec Ideal S1x128 .f32) = (V c (Pipeline.arrRef spec1 8) : S1x128.Idx → EReal) := by
  obtain ⟨-, -, -, -, ⟨r0, r1⟩, -, -, -, -⟩ := idx_whole t
  funext y
  unfold iblk1
  rw [View.read_apply]
  show V c (Pipeline.arrRef spec1 8) _ = V c (Pipeline.arrRef spec1 8) _
  congr 1
  funext a
  apply Fin.ext
  match a with
  | ⟨0, _⟩ => show win1_8.index t (0 : Fin 2) * 1 + 1 * (y 0).val = (y 0).val; rw [r0]; omega
  | ⟨1, _⟩ => show win1_8.index t (1 : Fin 2) * 128 + 1 * (y 1).val = (y 1).val; rw [r1]; omega

/-- Window 9 is not blocked: its block at every point is its array. -/
theorem iblk_9 (c : Dev nD) (t : Fin cfg1.N) :
    (iblk1 V c 9 t : Vec Ideal S1x128 .f32) = (V c (Pipeline.arrRef spec1 9) : S1x128.Idx → EReal) := by
  obtain ⟨-, -, -, -, -, ⟨r0, r1⟩, -, -, -⟩ := idx_whole t
  funext y
  unfold iblk1
  rw [View.read_apply]
  show V c (Pipeline.arrRef spec1 9) _ = V c (Pipeline.arrRef spec1 9) _
  congr 1
  funext a
  apply Fin.ext
  match a with
  | ⟨0, _⟩ => show win1_9.index t (0 : Fin 2) * 1 + 1 * (y 0).val = (y 0).val; rw [r0]; omega
  | ⟨1, _⟩ => show win1_9.index t (1 : Fin 2) * 128 + 1 * (y 1).val = (y 1).val; rw [r1]; omega

/-- Window 10 is not blocked: its block at every point is its array. -/
theorem iblk_10 (c : Dev nD) (t : Fin cfg1.N) :
    (iblk1 V c 10 t : Vec Ideal S1x128 .f32) = (V c (Pipeline.arrRef spec1 10) : S1x128.Idx → EReal) := by
  obtain ⟨-, -, -, -, -, -, ⟨r0, r1⟩, -, -⟩ := idx_whole t
  funext y
  unfold iblk1
  rw [View.read_apply]
  show V c (Pipeline.arrRef spec1 10) _ = V c (Pipeline.arrRef spec1 10) _
  congr 1
  funext a
  apply Fin.ext
  match a with
  | ⟨0, _⟩ => show win1_10.index t (0 : Fin 2) * 1 + 1 * (y 0).val = (y 0).val; rw [r0]; omega
  | ⟨1, _⟩ => show win1_10.index t (1 : Fin 2) * 128 + 1 * (y 1).val = (y 1).val; rw [r1]; omega

/-- Window 11 is not blocked: its block at every point is its array. -/
theorem iblk_11 (c : Dev nD) (t : Fin cfg1.N) :
    (iblk1 V c 11 t : Vec Ideal S1x128 .f32) = (V c (Pipeline.arrRef spec1 11) : S1x128.Idx → EReal) := by
  obtain ⟨-, -, -, -, -, -, -, ⟨r0, r1⟩, -⟩ := idx_whole t
  funext y
  unfold iblk1
  rw [View.read_apply]
  show V c (Pipeline.arrRef spec1 11) _ = V c (Pipeline.arrRef spec1 11) _
  congr 1
  funext a
  apply Fin.ext
  match a with
  | ⟨0, _⟩ => show win1_11.index t (0 : Fin 2) * 1 + 1 * (y 0).val = (y 0).val; rw [r0]; omega
  | ⟨1, _⟩ => show win1_11.index t (1 : Fin 2) * 128 + 1 * (y 1).val = (y 1).val; rw [r1]; omega

/-- Window 12 is not blocked: its block at every point is its array. -/
theorem iblk_12 (c : Dev nD) (t : Fin cfg1.N) :
    (iblk1 V c 12 t : Vec Ideal S1x128 .f32) = (V c (Pipeline.arrRef spec1 12) : S1x128.Idx → EReal) := by
  obtain ⟨-, -, -, -, -, -, -, -, ⟨r0, r1⟩⟩ := idx_whole t
  funext y
  unfold iblk1
  rw [View.read_apply]
  show V c (Pipeline.arrRef spec1 12) _ = V c (Pipeline.arrRef spec1 12) _
  congr 1
  funext a
  apply Fin.ext
  match a with
  | ⟨0, _⟩ => show win1_12.index t (0 : Fin 2) * 1 + 1 * (y 0).val = (y 0).val; rw [r0]; omega
  | ⟨1, _⟩ => show win1_12.index t (1 : Fin 2) * 128 + 1 * (y 1).val = (y 1).val; rw [r1]; omega

/-- The region's result from the arrays as the region finds them: features = windows 0..3, weights = windows
    4..7, bias = window 8, scale = window 9, shift = window 10, mean = window 11, variance = window 12. -/
abbrev combineOf (c : Dev nD) : S100000x128.Idx → EReal :=
  combineG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12))

/-- An index of the output array is in point t's block iff each coordinate is in the block's range. -/
theorem mem_blk (t : Fin cfg1.N) (i : S100000x128.Idx) :
    i ∈ ((cfg1.win 13).blk t).view.set ↔ ∀ a : Fin 2, win1_13.index t a * S5000x128.size a ≤ (i a).val ∧ (i a).val < win1_13.index t a * S5000x128.size a + S5000x128.size a := by
  show i ∈ ((View.whole main_v87).slice (win1_13.rect t)).set ↔ _
  rw [View.set_slice_whole, Rect.mem_set_unit]
  exact Iff.rfl

/-- The 20 row blocks cover the output array: row r lies in block r / 5000. -/
theorem cover (i : S100000x128.Idx) : ∃ t : Fin cfg1.N, (cfg1.win 13).flush t = true ∧ i ∈ ((cfg1.win 13).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; omega
  obtain ⟨-, -, -, -, ⟨o0, o1⟩⟩ := idx_facts ⟨(i 0).val / 5000, ht⟩
  refine ⟨⟨(i 0).val / 5000, ht⟩, flush1_13 _, ?_⟩
  rw [mem_blk]
  intro a
  match a with
  | ⟨0, _⟩ => show win1_13.index ⟨(i 0).val / 5000, ht⟩ (0 : Fin 2) * 5000 ≤ (i 0).val ∧ (i 0).val < win1_13.index ⟨(i 0).val / 5000, ht⟩ (0 : Fin 2) * 5000 + 5000; rw [o0]; show (i 0).val / 5000 * 5000 ≤ (i 0).val ∧ (i 0).val < (i 0).val / 5000 * 5000 + 5000; omega
  | ⟨1, _⟩ => show win1_13.index ⟨(i 0).val / 5000, ht⟩ (1 : Fin 2) * 128 ≤ (i 1).val ∧ (i 1).val < win1_13.index ⟨(i 0).val / 5000, ht⟩ (1 : Fin 2) * 128 + 128; rw [o1]; omega

end Region

end Cert.KernelIdeal.RegionCombine

end
-- ==== Proof.RegionCombine.lean ====
/- The combine / batch-norm / leaky-ReLU region, from blocks to the array.
   What grid point t writes back to the 100000 x 128 output array is block t (rows 5000 t .. 5000 t + 4999) of
   ONE whole-array function of the arrays the region reads: the body's value at (p, o) of the block is that
   function at (5000 t + p, o), because the feature blocks are the arrays' rows 5000 t + p and the weight
   matrices and row vectors are read whole. The 20 blocks cover the output array, so after the region the
   output array IS that function. -/
import proofs.«157029_j18502719111544_2_alg».proof.Proof.Gen.KernelIdeal.Frame
import proofs.«157029_j18502719111544_2_alg».proof.Proof.RegionCombineBlocks
import Idealize.ShloMosaic.Lib.Pipeline.Value

noncomputable section

namespace Cert.KernelIdeal.RegionCombine

open Cert.KernelIdeal Cert.KernelIdeal.Gen Idealize.ShloMosaic Idealize.ShloMosaic.TcCoe Idealize.SL.Sem
open Idealize.ShloMosaic.ValueIdx
open Idealize.ShloMosaic.Pipeline (Dat)

section Region
variable (V : (c : Dev nD) → (b : Ref sig .tc) → Buf (Elt Ideal) ((c : Thread nD τ).loc b))

set_option maxHeartbeats 1000000 in
/-- What point t writes back to the output array is block t of the whole-array function. -/
theorem flushed_eq (c : Dev nD) (t : Fin cfg1.N) :
    (dat1 (F := Ideal) V c).flushed 13 t = ((cfg1.win 13).blk t).view.read (Elt Ideal) (combineOf V c) := by
  show (cfg1.win 13).cut (grid1.coords t) ((dat1 (F := Ideal) V c).after 13 t) = _
  rw [after1_13]
  unfold out1_13
  rw [View.canon_unit_zero hz]
  simp only [View.ld_unit_zero (S := S5000x67) hz, View.ld_unit_zero (S := S67x128) hz, View.ld_unit_zero (S := S1x128) hz]
  funext j
  have hj0 : (j 0).val < 5000 := (j 0).isLt
  have hj1 : (j 1).val < 128 := (j 1).isLt
  have ht : t.val < grid1.N := t.isLt
  rw [N_1] at ht
  obtain ⟨-, -, -, -, ⟨o0, o1⟩⟩ := idx_facts t
  obtain ⟨p, hp⟩ : ∃ p : Fin 5000, p.val = (j 0).val := ⟨⟨_, hj0⟩, rfl⟩
  obtain ⟨o, ho⟩ : ∃ o : Fin 128, o.val = (j 1).val := ⟨⟨_, hj1⟩, rfl⟩
  obtain ⟨n, hn⟩ : ∃ n : Fin 100000, n.val = t.val * 5000 + p.val := ⟨⟨t.val * 5000 + p.val, by have := p.isLt; omega⟩, rfl⟩
  have hy : (cfg1.win 13).xinj (grid1.coords t) j = ix2 p o :=
    funext fun a => Fin.ext (by match a with | ⟨0, _⟩ => exact hp.symm | ⟨1, _⟩ => exact ho.symm)
  have hi : ((cfg1.win 13).blk t).view.emb j = ix2 n o :=
    funext fun a => Fin.ext (by
      match a with
      | ⟨0, _⟩ => show win1_13.index t (0 : Fin 2) * 5000 + 1 * (j 0).val = n.val; rw [o0, hn, hp]; omega
      | ⟨1, _⟩ => show win1_13.index t (1 : Fin 2) * 128 + 1 * (j 1).val = o.val; rw [o1, ho]; omega)
  show k1_pay1 (F := Ideal) _ _ _ _ ((cfg1.win 13).xinj (grid1.coords t) j) = combineOf V c (((cfg1.win 13).blk t).view.emb j)
  rw [hy, hi]
  have h0 : ∀ k : Fin 67, (iblk1 V c 0 t : Vec Ideal S5000x67 .f32) (ix2 p k) = (V c (Pipeline.arrRef spec1 0) : S100000x67.Idx → EReal) (ix2 n k) := fun k => iblk_0 V c t p k n hn
  have h1 : ∀ k : Fin 67, (iblk1 V c 1 t : Vec Ideal S5000x67 .f32) (ix2 p k) = (V c (Pipeline.arrRef spec1 1) : S100000x67.Idx → EReal) (ix2 n k) := fun k => iblk_1 V c t p k n hn
  have h2 : ∀ k : Fin 67, (iblk1 V c 2 t : Vec Ideal S5000x67 .f32) (ix2 p k) = (V c (Pipeline.arrRef spec1 2) : S100000x67.Idx → EReal) (ix2 n k) := fun k => iblk_2 V c t p k n hn
  have h3 : ∀ k : Fin 67, (iblk1 V c 3 t : Vec Ideal S5000x67 .f32) (ix2 p k) = (V c (Pipeline.arrRef spec1 3) : S100000x67.Idx → EReal) (ix2 n k) := fun k => iblk_3 V c t p k n hn
  exact block_at _ _ _ _ _ _ _ _ _ _ _ _ _ _ _ _ _ _ _ _ _ _ _ _ _ _ p o n h0 h1 h2 h3
    (iblk_4 V c t) (iblk_5 V c t) (iblk_6 V c t) (iblk_7 V c t) (iblk_8 V c t) (iblk_9 V c t) (iblk_10 V c t) (iblk_11 V c t) (iblk_12 V c t)

/-- After the region the output array is the whole-array function of the arrays the region read. -/
theorem arr13_eq (c : Dev nD) : (dat1 (F := Ideal) V c).arrAt 13 cfg1.N = combineOf V c :=
  (dat1 (F := Ideal) V c).arrAt_eq_of_cover 13 (combineOf V c) (fun t _ => flushed_eq V c t) cover

/-- The same read at row n, column o. -/
theorem arr13_apply (c : Dev nD) (n : Fin 100000) (o : Fin 128) :
    (dat1 (F := Ideal) V c).arrAt 13 cfg1.N (ix2 n o)
      = combineAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) n o := by
  rw [arr13_eq]
  rfl

end Region

end Cert.KernelIdeal.RegionCombine

end
-- ==== Proof.BridgeCombine.lean ====
/- The second region's entry formula is the reference's feature stage. At row n and column o the kernel's region
   computes  L (Y)  with  Y = ((A − μ_o) · rsqrt (σ²_o + ε)) · γ_o + β_o,  L (y) = y if y > 0 and slope · y otherwise, and
   A = ((((0 + S_0) + S_1) + S_2) + S_3) + bias_o,  S_j = ∑_k H_j (n, k) · W_j (k, o),  where H_j is the feature array
   after j propagation steps and W_j (k, o) = w (j, o, k) is slab j of the weight array with its last two axes exchanged.
   The reference computes the same: its four products contract H_j with slab j of w along both second axes, are added
   left to right, the bias row is added, then the batch normalisation with the same ε and the leaky rectifier with the
   same slope. The leading zero adds nothing, and a one-row array read at row 0 is the vector it was reshaped from. -/
import proofs.«157029_j18502719111544_2_alg».proof.Proof.RegionCombinePayload
import proofs.«157029_j18502719111544_2_alg».proof.Proof.RefRead
import proofs.«157029_j18502719111544_2_alg».proof.Proof.Gen.KernelIdeal
import Idealize.ShloMosaic.Lib.Pipeline.Value
import Idealize.ShloMosaic.Lib.ValueIdx
import Idealize.ShloMosaic.PureOps.Ideal.Laws

noncomputable section

namespace Cert.BridgeCombine

open Idealize.ShloMosaic Idealize.ShloMosaic.ValueIdx
open scoped BigOperators

/-! ## The kernel's operands at an entry -/

section KernelSide
open Cert.KernelIdeal Cert.KernelIdeal.Facts₀ Cert.KernelIdeal.Facts

/-- Slab 0 of the weight array with its last two axes exchanged, as a [67,128] matrix. -/
def wmat0 (x6 : FVec Ideal S4x128x67 .f32) : S67x128.Idx → EReal := fun i =>
  shapeCast S67x128 (extractStridedSlice S1x67x128 ![0, 0, 0] (transpose S4x67x128 [0, 2, 1] x6 transposes_S4x128x67_S4x67x128_0_2_1) slices_S4x67x128_S1x67x128_0_0_0) shapeCasts_S1x67x128_S67x128 i

/-- Its entry (k, o) is entry (0, o, k) of the weight array. -/
theorem wmat0_apply (x6 : FVec Ideal S4x128x67 .f32) (k : Fin 67) (o : Fin 128) :
    wmat0 x6 (ix2 k o) = x6 (ix3 (0 : Fin 4) o k) := by
  unfold wmat0
  refine (shapeCast_apply _ shapeCasts_S1x67x128_S67x128 (ix2 k o) (ix3 (0 : Fin 1) k o) ?_).trans ?_
  · rewrite [Shape.rowMajor_val_three, Shape.rowMajor_val_two]
    show (0 * 67 + k.val) * 128 + o.val = k.val * 128 + o.val
    omega
  refine (extractStridedSlice_apply ![0, 0, 0] _ slices_S4x67x128_S1x67x128_0_0_0 (ix3 (0 : Fin 1) k o) (ix3 (0 : Fin 4) k o) (fun a => ?_)).trans ?_
  · match a with
    | ⟨0, _⟩ => rfl
    | ⟨1, _⟩ => show k.val = 0 + k.val; omega
    | ⟨2, _⟩ => show o.val = 0 + o.val; omega
  exact transpose_apply [0, 2, 1] x6 transposes_S4x128x67_S4x67x128_0_2_1 (ix3 (0 : Fin 4) k o) (ix3 (0 : Fin 4) o k) (fun b => by
    match b with
    | ⟨0, _⟩ => rfl
    | ⟨1, _⟩ => rfl
    | ⟨2, _⟩ => rfl)

/-- Slab 1 of the weight array with its last two axes exchanged, as a [67,128] matrix. -/
def wmat1 (x6 : FVec Ideal S4x128x67 .f32) : S67x128.Idx → EReal := fun i =>
  shapeCast S67x128 (extractStridedSlice S1x67x128 ![1, 0, 0] (transpose S4x67x128 [0, 2, 1] x6 transposes_S4x128x67_S4x67x128_0_2_1) slices_S4x67x128_S1x67x128_1_0_0) shapeCasts_S1x67x128_S67x128 i

/-- Its entry (k, o) is entry (1, o, k) of the weight array. -/
theorem wmat1_apply (x6 : FVec Ideal S4x128x67 .f32) (k : Fin 67) (o : Fin 128) :
    wmat1 x6 (ix2 k o) = x6 (ix3 (1 : Fin 4) o k) := by
  unfold wmat1
  refine (shapeCast_apply _ shapeCasts_S1x67x128_S67x128 (ix2 k o) (ix3 (0 : Fin 1) k o) ?_).trans ?_
  · rewrite [Shape.rowMajor_val_three, Shape.rowMajor_val_two]
    show (0 * 67 + k.val) * 128 + o.val = k.val * 128 + o.val
    omega
  refine (extractStridedSlice_apply ![1, 0, 0] _ slices_S4x67x128_S1x67x128_1_0_0 (ix3 (0 : Fin 1) k o) (ix3 (1 : Fin 4) k o) (fun a => ?_)).trans ?_
  · match a with
    | ⟨0, _⟩ => rfl
    | ⟨1, _⟩ => show k.val = 0 + k.val; omega
    | ⟨2, _⟩ => show o.val = 0 + o.val; omega
  exact transpose_apply [0, 2, 1] x6 transposes_S4x128x67_S4x67x128_0_2_1 (ix3 (1 : Fin 4) k o) (ix3 (1 : Fin 4) o k) (fun b => by
    match b with
    | ⟨0, _⟩ => rfl
    | ⟨1, _⟩ => rfl
    | ⟨2, _⟩ => rfl)

/-- Slab 2 of the weight array with its last two axes exchanged, as a [67,128] matrix. -/
def wmat2 (x6 : FVec Ideal S4x128x67 .f32) : S67x128.Idx → EReal := fun i =>
  shapeCast S67x128 (extractStridedSlice S1x67x128 ![2, 0, 0] (transpose S4x67x128 [0, 2, 1] x6 transposes_S4x128x67_S4x67x128_0_2_1) slices_S4x67x128_S1x67x128_2_0_0) shapeCasts_S1x67x128_S67x128 i

/-- Its entry (k, o) is entry (2, o, k) of the weight array. -/
theorem wmat2_apply (x6 : FVec Ideal S4x128x67 .f32) (k : Fin 67) (o : Fin 128) :
    wmat2 x6 (ix2 k o) = x6 (ix3 (2 : Fin 4) o k) := by
  unfold wmat2
  refine (shapeCast_apply _ shapeCasts_S1x67x128_S67x128 (ix2 k o) (ix3 (0 : Fin 1) k o) ?_).trans ?_
  · rewrite [Shape.rowMajor_val_three, Shape.rowMajor_val_two]
    show (0 * 67 + k.val) * 128 + o.val = k.val * 128 + o.val
    omega
  refine (extractStridedSlice_apply ![2, 0, 0] _ slices_S4x67x128_S1x67x128_2_0_0 (ix3 (0 : Fin 1) k o) (ix3 (2 : Fin 4) k o) (fun a => ?_)).trans ?_
  · match a with
    | ⟨0, _⟩ => rfl
    | ⟨1, _⟩ => show k.val = 0 + k.val; omega
    | ⟨2, _⟩ => show o.val = 0 + o.val; omega
  exact transpose_apply [0, 2, 1] x6 transposes_S4x128x67_S4x67x128_0_2_1 (ix3 (2 : Fin 4) k o) (ix3 (2 : Fin 4) o k) (fun b => by
    match b with
    | ⟨0, _⟩ => rfl
    | ⟨1, _⟩ => rfl
    | ⟨2, _⟩ => rfl)

/-- Slab 3 of the weight array with its last two axes exchanged, as a [67,128] matrix. -/
def wmat3 (x6 : FVec Ideal S4x128x67 .f32) : S67x128.Idx → EReal := fun i =>
  shapeCast S67x128 (extractStridedSlice S1x67x128 ![3, 0, 0] (transpose S4x67x128 [0, 2, 1] x6 transposes_S4x128x67_S4x67x128_0_2_1) slices_S4x67x128_S1x67x128_3_0_0) shapeCasts_S1x67x128_S67x128 i

/-- Its entry (k, o) is entry (3, o, k) of the weight array. -/
theorem wmat3_apply (x6 : FVec Ideal S4x128x67 .f32) (k : Fin 67) (o : Fin 128) :
    wmat3 x6 (ix2 k o) = x6 (ix3 (3 : Fin 4) o k) := by
  unfold wmat3
  refine (shapeCast_apply _ shapeCasts_S1x67x128_S67x128 (ix2 k o) (ix3 (0 : Fin 1) k o) ?_).trans ?_
  · rewrite [Shape.rowMajor_val_three, Shape.rowMajor_val_two]
    show (0 * 67 + k.val) * 128 + o.val = k.val * 128 + o.val
    omega
  refine (extractStridedSlice_apply ![3, 0, 0] _ slices_S4x67x128_S1x67x128_3_0_0 (ix3 (0 : Fin 1) k o) (ix3 (3 : Fin 4) k o) (fun a => ?_)).trans ?_
  · match a with
    | ⟨0, _⟩ => rfl
    | ⟨1, _⟩ => show k.val = 0 + k.val; omega
    | ⟨2, _⟩ => show o.val = 0 + o.val; omega
  exact transpose_apply [0, 2, 1] x6 transposes_S4x128x67_S4x67x128_0_2_1 (ix3 (3 : Fin 4) k o) (ix3 (3 : Fin 4) o k) (fun b => by
    match b with
    | ⟨0, _⟩ => rfl
    | ⟨1, _⟩ => rfl
    | ⟨2, _⟩ => rfl)

/-- A vector of 128 entries as a one-row array. -/
def row128 (a : FVec Ideal S128 .f32) : S1x128.Idx → EReal := fun i => shapeCast S1x128 a shapeCasts_S128_S1x128 i

/-- Its entry (0, o) is entry o of the vector. -/
theorem row128_apply (a : FVec Ideal S128 .f32) (o : Fin 128) : row128 a (ix2 (0 : Fin 1) o) = a (ix1 o) := by
  unfold row128
  refine (shapeCast_apply a shapeCasts_S128_S1x128 (ix2 (0 : Fin 1) o) (ix1 o) ?_).trans rfl
  rewrite [Shape.rowMajor_val_one, Shape.rowMajor_val_two]
  show o.val = 0 * 128 + o.val
  omega

end KernelSide

/-! ## The reference's stages at an entry -/

section RefSide
open Cert.ReferenceIdeal Cert.ReferenceIdeal.Read
open Cert.KernelIdeal.RegionCombine (bnLeaky combineAcc)

variable (x0 : (⟨S100000x67, .f32⟩ : BufTy).Contents (Elt Ideal)) (x1 : (⟨S2x1600000, .i32⟩ : BufTy).Contents (Elt Ideal))
  (x2 x3 x4 x5 : (⟨S67, .f32⟩ : BufTy).Contents (Elt Ideal)) (x6 : (⟨S4x128x67, .f32⟩ : BufTy).Contents (Elt Ideal))
  (x7 x8 x9 x10 x11 : (⟨S128, .f32⟩ : BufTy).Contents (Elt Ideal))

/-- The reference's product of the features after 0 propagation steps with slab 0 of the weights, at (n, o). -/
theorem ref_dot0 (n : Fin 100000) (o : Fin 128) :
    val_main_v46 (F := Ideal) x0 x2 x3 x4 x5 x6 (ix2 n o) = ∑ k : Fin 67, val_main_v43 (F := Ideal) x0 x2 x3 x4 x5 (ix2 n k) * x6 (ix3 (0 : Fin 4) o k) := by
  rw [val_main_v46_apply]
  refine Finset.sum_congr rfl fun k _ => ?_
  have hl : lidx_main_v46 (ix2 n o) k = ix2 n k := funext fun a => by
    match a with
    | ⟨0, _⟩ => rfl
    | ⟨1, _⟩ => rfl
  have hr : val_main_v45 (F := Ideal) x6 (ridx_main_v46 (ix2 n o) k) = x6 (ix3 (0 : Fin 4) o k) := by
    rw [val_main_v45_apply, val_main_v44_apply]
    refine congrArg x6 (funext fun a => Fin.ext ?_)
    have ho : o.val < 128 := o.isLt
    have hk : k.val < 67 := k.isLt
    match a with
    | ⟨0, _⟩ => rfl
    | ⟨1, _⟩ => show (o.val * 67 + k.val) / 67 % 128 = o.val; omega
    | ⟨2, _⟩ => show (o.val * 67 + k.val) % 67 = k.val; omega
  rw [hl, hr]

/-- The reference's product of the features after 1 propagation steps with slab 1 of the weights, at (n, o). -/
theorem ref_dot1 (n : Fin 100000) (o : Fin 128) :
    val_main_v62 (F := Ideal) x0 x1 x2 x3 x4 x5 x6 (ix2 n o) = ∑ k : Fin 67, val_main_v59 (F := Ideal) x0 x1 x2 x3 x4 x5 (ix2 n k) * x6 (ix3 (1 : Fin 4) o k) := by
  rw [val_main_v62_apply]
  refine Finset.sum_congr rfl fun k _ => ?_
  have hl : lidx_main_v62 (ix2 n o) k = ix2 n k := funext fun a => by
    match a with
    | ⟨0, _⟩ => rfl
    | ⟨1, _⟩ => rfl
  have hr : val_main_v61 (F := Ideal) x6 (ridx_main_v62 (ix2 n o) k) = x6 (ix3 (1 : Fin 4) o k) := by
    rw [val_main_v61_apply, val_main_v60_apply]
    refine congrArg x6 (funext fun a => Fin.ext ?_)
    have ho : o.val < 128 := o.isLt
    have hk : k.val < 67 := k.isLt
    match a with
    | ⟨0, _⟩ => rfl
    | ⟨1, _⟩ => show (o.val * 67 + k.val) / 67 % 128 = o.val; omega
    | ⟨2, _⟩ => show (o.val * 67 + k.val) % 67 = k.val; omega
  rw [hl, hr]

/-- The reference's product of the features after 2 propagation steps with slab 2 of the weights, at (n, o). -/
theorem ref_dot2 (n : Fin 100000) (o : Fin 128) :
    val_main_v79 (F := Ideal) x0 x1 x2 x3 x4 x5 x6 (ix2 n o) = ∑ k : Fin 67, val_main_v76 (F := Ideal) x0 x1 x2 x3 x4 x5 (ix2 n k) * x6 (ix3 (2 : Fin 4) o k) := by
  rw [val_main_v79_apply]
  refine Finset.sum_congr rfl fun k _ => ?_
  have hl : lidx_main_v79 (ix2 n o) k = ix2 n k := funext fun a => by
    match a with
    | ⟨0, _⟩ => rfl
    | ⟨1, _⟩ => rfl
  have hr : val_main_v78 (F := Ideal) x6 (ridx_main_v79 (ix2 n o) k) = x6 (ix3 (2 : Fin 4) o k) := by
    rw [val_main_v78_apply, val_main_v77_apply]
    refine congrArg x6 (funext fun a => Fin.ext ?_)
    have ho : o.val < 128 := o.isLt
    have hk : k.val < 67 := k.isLt
    match a with
    | ⟨0, _⟩ => rfl
    | ⟨1, _⟩ => show (o.val * 67 + k.val) / 67 % 128 = o.val; omega
    | ⟨2, _⟩ => show (o.val * 67 + k.val) % 67 = k.val; omega
  rw [hl, hr]

/-- The reference's product of the features after 3 propagation steps with slab 3 of the weights, at (n, o). -/
theorem ref_dot3 (n : Fin 100000) (o : Fin 128) :
    val_main_v96 (F := Ideal) x0 x1 x2 x3 x4 x5 x6 (ix2 n o) = ∑ k : Fin 67, val_main_v93 (F := Ideal) x0 x1 x2 x3 x4 x5 (ix2 n k) * x6 (ix3 (3 : Fin 4) o k) := by
  rw [val_main_v96_apply]
  refine Finset.sum_congr rfl fun k _ => ?_
  have hl : lidx_main_v96 (ix2 n o) k = ix2 n k := funext fun a => by
    match a with
    | ⟨0, _⟩ => rfl
    | ⟨1, _⟩ => rfl
  have hr : val_main_v95 (F := Ideal) x6 (ridx_main_v96 (ix2 n o) k) = x6 (ix3 (3 : Fin 4) o k) := by
    rw [val_main_v95_apply, val_main_v94_apply]
    refine congrArg x6 (funext fun a => Fin.ext ?_)
    have ho : o.val < 128 := o.isLt
    have hk : k.val < 67 := k.isLt
    match a with
    | ⟨0, _⟩ => rfl
    | ⟨1, _⟩ => show (o.val * 67 + k.val) / 67 % 128 = o.val; omega
    | ⟨2, _⟩ => show (o.val * 67 + k.val) % 67 = k.val; omega
  rw [hl, hr]

/-- The bias row broadcast down the rows, at (n, o). -/
theorem ref_bias (x7 : (⟨S128, .f32⟩ : BufTy).Contents (Elt Ideal)) (n : Fin 100000) (o : Fin 128) :
    val_main_v99 (F := Ideal) x7 (ix2 n o) = x7 (ix1 o) := by
  rw [val_main_v99_apply, val_main_v98_apply]
  exact congrArg x7 (funext fun a => by
    match a with
    | ⟨0, _⟩ => rfl)

/-- The mean row broadcast down the rows, at (n, o). -/
theorem ref_mean (x10 : (⟨S128, .f32⟩ : BufTy).Contents (Elt Ideal)) (n : Fin 100000) (o : Fin 128) :
    val_main_v102 (F := Ideal) x10 (ix2 n o) = x10 (ix1 o) := by
  rw [val_main_v102_apply, val_main_v101_apply]
  exact congrArg x10 (funext fun a => by
    match a with
    | ⟨0, _⟩ => rfl)

/-- The scale row broadcast down the rows, at (n, o). -/
theorem ref_scale (x8 : (⟨S128, .f32⟩ : BufTy).Contents (Elt Ideal)) (n : Fin 100000) (o : Fin 128) :
    val_main_v111 (F := Ideal) x8 (ix2 n o) = x8 (ix1 o) := by
  rw [val_main_v111_apply, val_main_v110_apply]
  exact congrArg x8 (funext fun a => by
    match a with
    | ⟨0, _⟩ => rfl)

/-- The shift row broadcast down the rows, at (n, o). -/
theorem ref_shift (x9 : (⟨S128, .f32⟩ : BufTy).Contents (Elt Ideal)) (n : Fin 100000) (o : Fin 128) :
    val_main_v114 (F := Ideal) x9 (ix2 n o) = x9 (ix1 o) := by
  rw [val_main_v114_apply, val_main_v113_apply]
  exact congrArg x9 (funext fun a => by
    match a with
    | ⟨0, _⟩ => rfl)

/-- The reciprocal square root of the variance plus ε, broadcast down the rows, at (n, o). -/
theorem ref_rstd (x11 : (⟨S128, .f32⟩ : BufTy).Contents (Elt Ideal)) (n : Fin 100000) (o : Fin 128) :
    val_main_v108 (F := Ideal) x11 (ix2 n o) = Ideal.rsqrt (x11 (ix1 o) + Ideal.ofBits .f32 0x3727C5AC#32) := by
  rw [val_main_v108_apply, val_main_v107_apply, val_main_v106_apply, val_main_v105_apply, val_main_v104_apply]
  have hi : idx_main_v107 (idx_main_v108 (ix2 n o)) = ix1 o := funext fun a => by
    match a with
    | ⟨0, _⟩ => rfl
  rw [hi]
  rfl

/-- The accumulated sum: the leading zero word adds nothing. -/
theorem combineAcc_eq (s0 s1 s2 s3 b : EReal) : combineAcc s0 s1 s2 s3 b = (((s0 + s1) + s2) + s3) + b := by
  unfold combineAcc
  rw [Ideal.ofBits_zero_f32, zero_add]

/-- THE SECOND REGION'S ENTRY IS THE REFERENCE'S FEATURE STAGE, at every row n and column o. -/
theorem combine_eq_ref (n : Fin 100000) (o : Fin 128) :
    bnLeaky
        (combineAcc (∑ k : Fin 67, val_main_v43 (F := Ideal) x0 x2 x3 x4 x5 (ix2 n k) * wmat0 x6 (ix2 k o))
          (∑ k : Fin 67, val_main_v59 (F := Ideal) x0 x1 x2 x3 x4 x5 (ix2 n k) * wmat1 x6 (ix2 k o))
          (∑ k : Fin 67, val_main_v76 (F := Ideal) x0 x1 x2 x3 x4 x5 (ix2 n k) * wmat2 x6 (ix2 k o))
          (∑ k : Fin 67, val_main_v93 (F := Ideal) x0 x1 x2 x3 x4 x5 (ix2 n k) * wmat3 x6 (ix2 k o))
          (row128 x7 (ix2 (0 : Fin 1) o)))
        (row128 x10 (ix2 (0 : Fin 1) o)) (row128 x11 (ix2 (0 : Fin 1) o)) (row128 x8 (ix2 (0 : Fin 1) o))
        (row128 x9 (ix2 (0 : Fin 1) o))
      = val_main_v120 (F := Ideal) x0 x1 x2 x3 x4 x5 x6 x7 x8 x9 x10 x11 (ix2 n o) := by
  simp only [wmat0_apply, wmat1_apply, wmat2_apply, wmat3_apply, row128_apply]
  rw [val_main_v120_apply, val_main_v117_apply, val_main_v119_apply, val_main_v116_apply, val_main_v118_apply,
    val_main_v115_apply, val_main_v112_apply, val_main_v109_apply, val_main_v103_apply, val_main_v100_apply,
    val_main_v97_apply, val_main_v80_apply, val_main_v63_apply,
    ref_dot0, ref_dot1, ref_dot2, ref_dot3, ref_bias, ref_mean, ref_scale, ref_shift, ref_rstd]
  rw [combineAcc_eq]
  unfold bnLeaky
  rfl

end RefSide

end Cert.BridgeCombine

end
-- ==== Proof.Stage2.lean ====
/-
  The second region against the reference. The region reads the four feature arrays (the reference's features after
  zero to three propagation steps), the four 67×128 weight slabs, the bias row and the four normalisation rows; its
  output at row n, column o is the leaky rectifier of the normalised sum of the four contractions plus the bias — which
  is the reference's feature array entering the last layer, entry by entry.
-/
import proofs.«157029_j18502719111544_2_alg».proof.Proof.Stage1
import proofs.«157029_j18502719111544_2_alg».proof.Proof.RegionCombine
import proofs.«157029_j18502719111544_2_alg».proof.Proof.BridgeCombine

set_option maxRecDepth 16384

noncomputable section

namespace Cert.Stage2

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

set_option maxHeartbeats 4000000 in
/-- The second region's output array is the reference's feature array entering the last layer. -/
theorem feat_stage (c : Dev nD) : W6 m ρ c (Proc.devRef .tc main_v87)
    = Cert.ReferenceIdeal.Read.val_main_v120 (F := Ideal) (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c) := by
  have h1 : W6 m ρ c (Proc.devRef .tc main_v87) = (dat1 (V5 m ρ) c).arrAt 13 cfg1.N := W6_arr m ρ c 13
  have e0 : V5 m ρ c (Pipeline.arrRef spec1 0) = Cert.ReferenceIdeal.Read.val_main_v43 (F := Ideal) (Stage1.arg0 m c) (Stage1.arg2 m c) (Stage1.arg3 m c) (Stage1.arg4 m c) (Stage1.arg5 m c) := Stage1.feat0 m ρ c
  have e1 : V5 m ρ c (Pipeline.arrRef spec1 1) = Cert.ReferenceIdeal.Read.val_main_v59 (F := Ideal) (Stage1.arg0 m c) (Stage1.arg1 m c) (Stage1.arg2 m c) (Stage1.arg3 m c) (Stage1.arg4 m c) (Stage1.arg5 m c) := Stage1.feat1 m ρ c
  have e2 : V5 m ρ c (Pipeline.arrRef spec1 2) = Cert.ReferenceIdeal.Read.val_main_v76 (F := Ideal) (Stage1.arg0 m c) (Stage1.arg1 m c) (Stage1.arg2 m c) (Stage1.arg3 m c) (Stage1.arg4 m c) (Stage1.arg5 m c) := Stage1.feat2 m ρ c
  have e3 : V5 m ρ c (Pipeline.arrRef spec1 3) = Cert.ReferenceIdeal.Read.val_main_v93 (F := Ideal) (Stage1.arg0 m c) (Stage1.arg1 m c) (Stage1.arg2 m c) (Stage1.arg3 m c) (Stage1.arg4 m c) (Stage1.arg5 m c) := Stage1.feat3 m ρ c
  have e4 : V5 m ρ c (Pipeline.arrRef spec1 4) = BridgeCombine.wmat0 (Stage1.arg6 m c) :=
    (Host.v80_eq m ρ c).trans (by rw [Keep.W4_main_arg6, Keep.W3_main_arg6]; rfl)
  have e5 : V5 m ρ c (Pipeline.arrRef spec1 5) = BridgeCombine.wmat1 (Stage1.arg6 m c) :=
    (Host.v82_eq m ρ c).trans (by rw [Keep.W4_main_arg6, Keep.W3_main_arg6]; rfl)
  have e6 : V5 m ρ c (Pipeline.arrRef spec1 6) = BridgeCombine.wmat2 (Stage1.arg6 m c) :=
    (Host.v84_eq m ρ c).trans (by rw [Keep.W4_main_arg6, Keep.W3_main_arg6]; rfl)
  have e7 : V5 m ρ c (Pipeline.arrRef spec1 7) = BridgeCombine.wmat3 (Stage1.arg6 m c) :=
    (Host.v86_eq m ρ c).trans (by rw [Keep.W4_main_arg6, Keep.W3_main_arg6]; rfl)
  have e8 : V5 m ρ c (Pipeline.arrRef spec1 8) = BridgeCombine.row128 (Stage1.arg7 m c) :=
    (Host.v74_eq m ρ c).trans (by rw [Keep.W4_main_arg7, Keep.W3_main_arg7]; rfl)
  have e9 : V5 m ρ c (Pipeline.arrRef spec1 9) = BridgeCombine.row128 (Stage1.arg8 m c) :=
    (Host.v75_eq m ρ c).trans (by rw [Keep.W4_main_arg8, Keep.W3_main_arg8]; rfl)
  have e10 : V5 m ρ c (Pipeline.arrRef spec1 10) = BridgeCombine.row128 (Stage1.arg9 m c) :=
    (Host.v76_eq m ρ c).trans (by rw [Keep.W4_main_arg9, Keep.W3_main_arg9]; rfl)
  have e11 : V5 m ρ c (Pipeline.arrRef spec1 11) = BridgeCombine.row128 (Stage1.arg10 m c) :=
    (Host.v77_eq m ρ c).trans (by rw [Keep.W4_main_arg10, Keep.W3_main_arg10]; rfl)
  have e12 : V5 m ρ c (Pipeline.arrRef spec1 12) = BridgeCombine.row128 (Stage1.arg11 m c) :=
    (Host.v78_eq m ρ c).trans (by rw [Keep.W4_main_arg11, Keep.W3_main_arg11]; rfl)
  rw [h1]
  funext i
  obtain ⟨n, o, rfl⟩ : ∃ (n : Fin 100000) (o : Fin 128), i = ix2 n o := ⟨i 0, i 1, eq_ix2 i⟩
  rw [RegionCombine.arr13_apply (V5 m ρ) c n o, e0, e1, e2, e3, e4, e5, e6, e7, e8, e9, e10, e11, e12]
  unfold RegionCombine.combineAt
  exact BridgeCombine.combine_eq_ref _ _ _ _ _ _ _ _ _ _ _ _ n o

end Cert.Stage2

end
-- ==== Proof.RegionProject.lean ====
/- The third region of the kernel multiplies the node features by the projection matrix, 5000 rows at a time.
   At each of the 20 grid points t the body computes, for the block of rows 5000 t … 5000 t + 4999 of the
   [100000,128] array H and the whole [128,4] array W, the product block with a zero accumulator:
   entry (p, q) of the block is the sum over d < 128 of H (5000 t + p, d) * W (d, q).
   The 20 blocks tile the [100000,4] output, so after the region the output array holds, at (n, k),
   the sum over d < 128 of H (n, d) * W (d, k): the matrix product H · W over the extended reals. -/
import proofs.«157029_j18502719111544_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionProject

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The matrix product of a [100000,128] array by a [128,4] array, entry by entry. -/
def matProd (H : S100000x128.Idx → EReal) (W : S128x4.Idx → EReal) : S100000x4.Idx → EReal :=
  fun i => ∑ d : Fin 128, H (ix2 (i 0) d) * W (ix2 d (i 1))

theorem matProd_apply (H : S100000x128.Idx → EReal) (W : S128x4.Idx → EReal) (n : Fin 100000) (k : Fin 4) :
    matProd H W (ix2 n k) = ∑ d : Fin 128, H (ix2 n d) * W (ix2 d k) := rfl

/-- The body's product block at an entry: the contraction over the 128 shared coordinates, the zero
    accumulator adding nothing. -/
theorem pay_apply (x0 : Vec Ideal S5000x128 .f32) (x1 : Vec Ideal S128x4 .f32) (p : Fin 5000) (q : Fin 4) :
    k2_pay1 (F := Ideal) x0 x1 (ix2 p q) = ∑ d : Fin 128, x0 (ix2 p d) * x1 (ix2 d q) := by
  unfold k2_pay1
  simp only [shapeCast_self, matmul]
  rw [Ideal.matmul_constant_zero_apply,
    ← Equiv.sum_comp (contrEquiv1 dot_S5000x128_S128x4_S5000x4_1_0_0_1_n_n 128 rfl rfl).symm]
  refine Finset.sum_congr rfl fun d _ => ?_
  have hd := contrEquiv1_symm_val dot_S5000x128_S128x4_S5000x4_1_0_0_1_n_n 128 rfl rfl d
  have el : dot_S5000x128_S128x4_S5000x4_1_0_0_1_n_n.lhsIdx (ix2 p q)
      ((contrEquiv1 dot_S5000x128_S128x4_S5000x4_1_0_0_1_n_n 128 rfl rfl).symm d) = ix2 p d :=
    funext fun a => Fin.ext (by
      match a with
      | ⟨0, _⟩ =>
        show (dot_S5000x128_S128x4_S5000x4_1_0_0_1_n_n.lhsIdx (ix2 p q) _ (0 : Fin S5000x128.rank)).val = p.val
        unfold DotDims.lhsIdx
        rw [dif_neg (show ¬(0 : Fin S5000x128.rank) ∈ dot_S5000x128_S128x4_S5000x4_1_0_0_1_n_n.lhsBatch by decide),
          dif_pos (show (0 : Fin S5000x128.rank) ∈ dot_S5000x128_S128x4_S5000x4_1_0_0_1_n_n.lhsNonContracting by decide)]
        rfl
      | ⟨1, _⟩ => exact (dot_S5000x128_S128x4_S5000x4_1_0_0_1_n_n.lhsIdx_val_of_single rfl (ix2 p q) _).trans hd)
  have er : dot_S5000x128_S128x4_S5000x4_1_0_0_1_n_n.rhsIdx (ix2 p q)
      ((contrEquiv1 dot_S5000x128_S128x4_S5000x4_1_0_0_1_n_n 128 rfl rfl).symm d) = ix2 d q :=
    funext fun a => Fin.ext (by
      match a with
      | ⟨0, _⟩ => exact (dot_S5000x128_S128x4_S5000x4_1_0_0_1_n_n.rhsIdx_val_of_single rfl (ix2 p q) _).trans hd
      | ⟨1, _⟩ =>
        show (dot_S5000x128_S128x4_S5000x4_1_0_0_1_n_n.rhsIdx (ix2 p q) _ (1 : Fin S128x4.rank)).val = q.val
        unfold DotDims.rhsIdx
        rw [dif_neg (show ¬(1 : Fin S128x4.rank) ∈ dot_S5000x128_S128x4_S5000x4_1_0_0_1_n_n.rhsBatch by decide),
          dif_pos (show (1 : Fin S128x4.rank) ∈ dot_S5000x128_S128x4_S5000x4_1_0_0_1_n_n.rhsNonContracting by decide)]
        rfl)
  rw [el, er]

/-! ## From the blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the 20 grid points: the row-block index of the feature window and of the
    output window is the point's number, every column-block index is 0, and the matrix window stays at block (0, 0). -/
theorem block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- A block entry against the whole arrays: when row p of the feature block is row (i 0) of the array H and
    column q of the matrix block is column (i 1) of the array W, entry (p, q) of the product block is entry i
    of the product of the arrays. -/
theorem block_entry (H : S100000x128.Idx → EReal) (W : S128x4.Idx → EReal)
    (x0 : Vec Ideal S5000x128 .f32) (x1 : Vec Ideal S128x4 .f32) (i : S100000x4.Idx) (p : Fin 5000) (q : Fin 4)
    (h0 : ∀ d : Fin 128, x0 (ix2 p d) = H (ix2 (i 0) d))
    (h1 : ∀ d : Fin 128, x1 (ix2 d q) = W (ix2 d (i 1))) :
    k2_pay1 (F := Ideal) x0 x1 (ix2 p q) = matProd H W i := by
  rw [pay_apply]
  unfold matProd
  exact Finset.sum_congr rfl fun d _ => by rw [h0 d, h1 d]

/-- Row p of point `t`'s feature block is the array's row with the number of row p of the output block. -/
theorem emb_feature (t : Fin cfg2.N) (p : Fin 5000) (q : Fin 4) (d : Fin 128) :
    ((cfg2.win 0).blk t).view.emb (ix2 p d) = ix2 ((((cfg2.win 2).blk t).view.emb (ix2 p q)) 0) d := by
  obtain ⟨e0, e1, e2, e3, e4, e5⟩ := block_indices t
  funext a; apply Fin.ext
  match a with
  | ⟨0, _⟩ => show win2_0.index t (0 : Fin 2) * 5000 + 1 * p.val = win2_2.index t (0 : Fin 2) * 5000 + 1 * p.val; omega
  | ⟨1, _⟩ => show win2_0.index t (1 : Fin 2) * 128 + 1 * d.val = d.val; omega

/-- Column q of the matrix block is the array's column with the number of column q of the output block. -/
theorem emb_matrix (t : Fin cfg2.N) (p : Fin 5000) (q : Fin 4) (d : Fin 128) :
    ((cfg2.win 1).blk t).view.emb (ix2 d q) = ix2 d ((((cfg2.win 2).blk t).view.emb (ix2 p q)) 1) := by
  obtain ⟨e0, e1, e2, e3, e4, e5⟩ := block_indices t
  funext a; apply Fin.ext
  match a with
  | ⟨0, _⟩ => show win2_1.index t (0 : Fin 2) * 128 + 1 * d.val = d.val; omega
  | ⟨1, _⟩ => show win2_1.index t (1 : Fin 2) * 4 + 1 * q.val = win2_2.index t (1 : Fin 2) * 4 + 1 * q.val; omega

set_option maxHeartbeats 2000000 in
/-- What grid point `t` writes back is block `t` of the matrix product of the two arrays as the region finds them. -/
theorem flushed_eq (c : Dev nD) (t : Fin cfg2.N) :
    (dat2 (F := Ideal) V c).flushed 2 t
      = ((cfg2.win 2).blk t).view.read (Elt Ideal) (matProd (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_off]
  simp only [View.ld_unit_zero (S := S5000x128) zero_off, View.ld_unit_zero (S := S128x4) zero_off]
  funext j
  obtain ⟨p, q, rfl⟩ : ∃ (p : Fin 5000) (q : Fin 4), j = ix2 p q := ⟨j 0, j 1, eq_ix2 j⟩
  exact block_entry (V c (Pipeline.arrRef spec2 0)) (V c (Pipeline.arrRef spec2 1)) (iblk2 V c 0 t) (iblk2 V c 1 t)
    (((cfg2.win 2).blk t).view.emb (ix2 p q)) p q
    (fun d => congrArg (V c (Pipeline.arrRef spec2 0)) (emb_feature t p q d))
    (fun d => congrArg (V c (Pipeline.arrRef spec2 1)) (emb_matrix t p q d))

/-- An index of the output array is in point `t`'s block iff each coordinate is in the block's range on its axis. -/
theorem mem_block (t : Fin cfg2.N) (i : S100000x4.Idx) :
    i ∈ ((cfg2.win 2).blk t).view.set ↔ ∀ a : Fin 2, win2_2.index t a * S5000x4.size a ≤ (i a).val ∧ (i a).val < win2_2.index t a * S5000x4.size a + S5000x4.size a := by
  show i ∈ ((View.whole main_v90).slice (win2_2.rect t)).set ↔ _
  rw [View.set_slice_whole, Rect.mem_set_unit]
  exact Iff.rfl

/-- Row n of the output lies in the block of point n / 5000: the 20 blocks of 5000 rows tile the 100000 rows. -/
theorem covered (i : S100000x4.Idx) :
    ∃ t : Fin cfg2.N, (cfg2.win 2).flush t = true ∧ i ∈ ((cfg2.win 2).blk t).view.set := by
  have hi0 : (i 0).val < 100000 := (i 0).isLt
  have hi1 : (i 1).val < 4 := (i 1).isLt
  have hN : cfg2.N = 20 := N_2
  let t : Fin cfg2.N := ⟨(i 0).val / 5000, by rw [hN]; omega⟩
  refine ⟨t, flush2_2 t, ?_⟩
  obtain ⟨e0, e1, e2, e3, e4, e5⟩ := block_indices t
  have ht : t.val = (i 0).val / 5000 := rfl
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 4 ≤ (i 1).val ∧ (i 1).val < win2_2.index t (1 : Fin 2) * 4 + 4; omega

/-- The output array after the region is the matrix product of the two arrays as the region finds them. -/
theorem array_eq (c : Dev nD) :
    (dat2 (F := Ideal) V c).arrAt 2 cfg2.N = matProd (V c (Pipeline.arrRef spec2 0)) (V c (Pipeline.arrRef spec2 1)) :=
  (dat2 (F := Ideal) V c).arrAt_eq_of_cover 2 _ (fun t _ => flushed_eq V c t) covered

/-- The feature array H and the projection matrix W as the region finds them, at their literal index types. -/
abbrev featArr (c : Dev nD) : S100000x128.Idx → EReal := V c (Pipeline.arrRef spec2 0)
abbrev projArr (c : Dev nD) : S128x4.Idx → EReal := V c (Pipeline.arrRef spec2 1)
/-- The output array after the region, at its literal index type. -/
abbrev outArr (c : Dev nD) : S100000x4.Idx → EReal := (dat2 (F := Ideal) V c).arrAt 2 cfg2.N

/-- Entry (n, k) of the output array after the region: the sum over d < 128 of H (n, d) * W (d, k). -/
theorem array_apply (c : Dev nD) (n : Fin 100000) (k : Fin 4) :
    outArr V c (ix2 n k) = ∑ d : Fin 128, featArr V c (ix2 n d) * projArr V c (ix2 d k) := by
  show (dat2 (F := Ideal) V c).arrAt 2 cfg2.N (ix2 n k) = _
  rw [array_eq]
  rfl

end Cert.KernelIdeal.RegionProject

end
-- ==== Proof.LibRowPropagate.lean ====
/-
  ROW PROPAGATION ON THE EXTENDED REALS.

  A graph propagation step on an array of rows: gather the rows of X : [N, D] at a source index per edge, scale each
  gathered row by its edge's weight, and add the scaled rows into the rows of the result at a target index per edge,
  (prop X) (n, c) = ∑ over the edges e with target n of X (src e, c) · w e.
  When every entry of X, every weight and every entry of a column vector ω is a REAL number (not ±∞), this step is
  additive in X and COMMUTES with contracting the column axis against ω:
  ∑_c (prop X) (n, c) · ω c = ∑ over the edges e with target n of (∑_c X (src e, c) · ω c) · w e.
  (On the extended reals multiplication does not distribute over addition in general, so the laws are stated for real
  data and proved on the reals.)

  The file has four parts: the predicate IsReal and its closure under the field operations, finite sums, maximum and the
  reciprocal square root of a positive number, with four binary32 words read as reals; the propagation step and its three
  laws; stablehlo's scatter with the dimension numbers that add rows of [E, D] into rows of [N, D], read at an index; and
  stablehlo's gather with the dimension numbers that take rows of [N, D] into [E, D], read at an index.
-/
import Idealize.ShloMosaic.Lib.ValueIdx
import Idealize.ShloMosaic.Lib.IdealHost
import Idealize.ShloMosaic.PureOps.Ideal.Laws

noncomputable section

open scoped BigOperators

namespace Idealize.ShloMosaic.RowPropagate

open Idealize.ShloMosaic Idealize.ShloMosaic.ValueIdx

/-! ## Extended reals that are real numbers -/

/-- An extended real is REAL when it is the image of a real number (neither `⊤` nor `⊥`). -/
def IsReal (x : EReal) : Prop := ∃ r : ℝ, x = (r : EReal)

/-- The image of a real number is real. -/
theorem isReal_coe (r : ℝ) : IsReal (r : EReal) := ⟨r, rfl⟩
/-- Zero is real. -/
theorem isReal_zero : IsReal (0 : EReal) := ⟨0, EReal.coe_zero.symm⟩
/-- One is real. -/
theorem isReal_one : IsReal (1 : EReal) := ⟨1, EReal.coe_one.symm⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The negative of a real is real. -/
theorem IsReal.neg {x : EReal} (hx : IsReal x) : IsReal (-x) := by
  obtain ⟨a, rfl⟩ := hx; exact ⟨-a, (EReal.coe_neg a).symm⟩
/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- The maximum of two reals is real. -/
theorem IsReal.max {x y : EReal} (hx : IsReal x) (hy : IsReal y) : IsReal (max x y) := by
  rcases max_choice x y with h | h <;> rw [h] <;> assumption
/-- The minimum of two reals is real. -/
theorem IsReal.min {x y : EReal} (hx : IsReal x) (hy : IsReal y) : IsReal (min x y) := by
  rcases min_choice x y with h | h <;> rw [h] <;> assumption

/-- The inclusion of the reals in the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of reals is real. -/
theorem IsReal.sum {ι : Type*} (s : Finset ι) (f : ι → EReal) (h : ∀ i ∈ s, IsReal (f i)) :
    IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self a s)).add (ih fun i hi => h i (Finset.mem_insert_of_mem hi))

/-- A family of reals is the image of a family of real numbers. -/
theorem exists_real_fun {ι : Type*} {X : ι → EReal} (h : ∀ i, IsReal (X i)) :
    ∃ x : ι → ℝ, X = fun i => (x i : EReal) :=
  ⟨fun i => (h i).choose, funext fun i => (h i).choose_spec⟩

/-- The reciprocal square root of a positive real is real: `1 / √r`. -/
theorem IsReal.rsqrt {x : EReal} (hpos : 0 < x) (hx : IsReal x) : IsReal (Ideal.rsqrt x) := by
  obtain ⟨r, rfl⟩ := hx
  have hr : 0 < r := EReal.coe_pos.mp hpos
  rw [Ideal.rsqrt_coe, if_neg (not_lt.mpr hr.le), if_neg hr.ne']
  exact ⟨_, rfl⟩

/-- The reciprocal square root of a positive real is positive. -/
theorem rsqrt_pos {x : EReal} (hpos : 0 < x) (hx : IsReal x) : 0 < Ideal.rsqrt x := by
  obtain ⟨r, rfl⟩ := hx
  have hr : 0 < r := EReal.coe_pos.mp hpos
  rw [Ideal.rsqrt_coe, if_neg (not_lt.mpr hr.le), if_neg hr.ne']
  exact EReal.coe_pos.mpr (inv_pos.mpr (Real.sqrt_pos.mpr hr))

/-- A sum of a positive real and a nonnegative real is positive. -/
theorem add_pos_of_pos_of_nonneg {x y : EReal} (hx : 0 < x) (hy : 0 ≤ y) : 0 < x + y :=
  lt_of_lt_of_le hx (le_add_of_nonneg_right hy)

/-! ### Four binary32 words as reals -/

/-- The binary32 word `0x00000000` is zero, a real. -/
theorem isReal_ofBits_zero : IsReal (Ideal.ofBits .f32 0x00000000#32) := by
  rw [Ideal.ofBits_zero_f32]; exact isReal_zero
/-- The binary32 word `0x3F800000` is one, a real. -/
theorem isReal_ofBits_one : IsReal (Ideal.ofBits .f32 0x3F800000#32) := by
  rw [Ideal.ofBits_one_f32]; exact isReal_one
/-- The binary32 word `0x3727C5AC` (the float nearest 10⁻⁵) is the real `10995116 · 2⁻⁴⁰`. -/
theorem ofBits_3727C5AC : Ideal.ofBits .f32 0x3727C5AC#32 = (((10995116 : ℝ) * (2 : ℝ) ^ (-40 : ℤ) : ℝ) : EReal) := by
  simp [Ideal.ofBits, Ideal.ieee, -EReal.coe_mul]
/-- It is real … -/
theorem isReal_ofBits_3727C5AC : IsReal (Ideal.ofBits .f32 0x3727C5AC#32) := ⟨_, ofBits_3727C5AC⟩
/-- … and positive. -/
theorem ofBits_3727C5AC_pos : 0 < Ideal.ofBits .f32 0x3727C5AC#32 := by
  rw [ofBits_3727C5AC]; exact EReal.coe_pos.mpr (by positivity)
/-- The binary32 word `0x3C23D70A` (the float nearest 10⁻²) is the real `10737418 · 2⁻³⁰`. -/
theorem ofBits_3C23D70A : Ideal.ofBits .f32 0x3C23D70A#32 = (((10737418 : ℝ) * (2 : ℝ) ^ (-30 : ℤ) : ℝ) : EReal) := by
  simp [Ideal.ofBits, Ideal.ieee, -EReal.coe_mul]
/-- It is real … -/
theorem isReal_ofBits_3C23D70A : IsReal (Ideal.ofBits .f32 0x3C23D70A#32) := ⟨_, ofBits_3C23D70A⟩
/-- … and positive. -/
theorem ofBits_3C23D70A_pos : 0 < Ideal.ofBits .f32 0x3C23D70A#32 := by
  rw [ofBits_3C23D70A]; exact EReal.coe_pos.mpr (by positivity)

/-! ## The propagation step and its laws -/

section Step
variable {N E : Nat}

/-- ONE PROPAGATION STEP on an array of rows `X : [N, D]`, over edges `e : Fin E` with source row `src e`, target
    `tgt e` (an integer: an edge whose target is no row index contributes nowhere) and weight `w e`: entry `(n, c)`
    of the result is zero plus the sum, over the edges whose target is `n`, of `X (src e, c) · w e`. -/
def prop (src : Fin E → Fin N) (tgt : Fin E → ℤ) (w : Fin E → EReal) (D : Nat)
    (X : (⟨2, ![N, D]⟩ : Shape).Idx → EReal) : (⟨2, ![N, D]⟩ : Shape).Idx → EReal :=
  fun i => (0 : EReal) + ∑ e ∈ Finset.univ.filter (fun e : Fin E => tgt e = (((i 0 : Fin N) : ℕ) : ℤ)),
    X (ix2 (src e) (i 1 : Fin D)) * w e

variable (src : Fin E → Fin N) (tgt : Fin E → ℤ) (w : Fin E → EReal) {D : Nat}

/-- The step read at the index `(n, c)`. -/
theorem prop_apply (X : (⟨2, ![N, D]⟩ : Shape).Idx → EReal) (n : Fin N) (c : Fin D) :
    prop src tgt w D X (ix2 n c)
      = (0 : EReal) + ∑ e ∈ Finset.univ.filter (fun e : Fin E => tgt e = ((n : ℕ) : ℤ)), X (ix2 (src e) c) * w e := rfl

/-- CLOSURE: on real rows and real weights every entry of the step's result is real. -/
theorem prop_isReal {X : (⟨2, ![N, D]⟩ : Shape).Idx → EReal} (hX : ∀ i, IsReal (X i)) (hw : ∀ e, IsReal (w e))
    (i : (⟨2, ![N, D]⟩ : Shape).Idx) : IsReal (prop src tgt w D X i) :=
  isReal_zero.add (IsReal.sum _ _ fun e _ => (hX _).mul (hw e))

/-- ADDITIVITY: on real rows and real weights the step of an entrywise sum is the entrywise sum of the steps. -/
theorem prop_add {X Y : (⟨2, ![N, D]⟩ : Shape).Idx → EReal} (hX : ∀ i, IsReal (X i)) (hY : ∀ i, IsReal (Y i))
    (hw : ∀ e, IsReal (w e)) :
    prop src tgt w D (fun i => X i + Y i) = fun i => prop src tgt w D X i + prop src tgt w D Y i := by
  obtain ⟨x, rfl⟩ := exists_real_fun hX
  obtain ⟨y, rfl⟩ := exists_real_fun hY
  obtain ⟨v, rfl⟩ := exists_real_fun hw
  funext i
  simp only [prop, ← EReal.coe_add, ← EReal.coe_mul, ← coe_sum, zero_add]
  congr 1
  rw [← Finset.sum_add_distrib]
  exact Finset.sum_congr rfl fun e _ => by ring

/-- THE COMMUTING LAW: on real rows, real weights and a real column vector `ω`, contracting the step's result against
    `ω` along the column axis is the step applied to the contracted rows — for every row `n`,
    `∑_c (prop X) (n, c) · ω c = 0 + ∑ over the edges e with target n of (∑_c X (src e, c) · ω c) · w e`. -/
theorem sum_prop_mul {X : (⟨2, ![N, D]⟩ : Shape).Idx → EReal} {ω : Fin D → EReal} (hX : ∀ i, IsReal (X i))
    (hw : ∀ e, IsReal (w e)) (hω : ∀ c, IsReal (ω c)) (n : Fin N) :
    ∑ c : Fin D, prop src tgt w D X (ix2 n c) * ω c
      = (0 : EReal) + ∑ e ∈ Finset.univ.filter (fun e : Fin E => tgt e = ((n : ℕ) : ℤ)),
          (∑ c : Fin D, X (ix2 (src e) c) * ω c) * w e := by
  obtain ⟨x, rfl⟩ := exists_real_fun hX
  obtain ⟨v, rfl⟩ := exists_real_fun hw
  obtain ⟨o, rfl⟩ := exists_real_fun hω
  simp only [prop_apply, ← EReal.coe_add, ← EReal.coe_mul, ← coe_sum, zero_add]
  congr 1
  simp only [Finset.sum_mul]
  rw [Finset.sum_comm]
  refine Finset.sum_congr rfl fun e _ => Finset.sum_congr rfl fun c _ => by ring

end Step

/-! ## `stablehlo.scatter` adding rows of `[E, D]` into rows of `[N, D]`, read at an index

The dimension numbers update_window_dims `[1]`, inserted_window_dims `[0]`, scatter_dims_to_operand_dims `[0]` and
index_vector_dim `1` over scatter indices `[E, 1]`: update element `(e, c)` lands at row `idx[e, 0]` (read signed, not
clamped), column `c`, and is dropped when that row is outside `[0, N)`. -/

section RowAdd
variable {N E D w : Nat}

/-- Those dimension numbers for an operand `[N, D]`, scatter indices `[E, 1]` and updates `[E, D]`; their conditions
    `wf` are decided on a program's literal shapes. -/
abbrev rowAddDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1)

/-- Two rank-2 indices with the same two coordinates are equal. -/
theorem idx2_ext {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

/-- On the row axis the window of update `(e, c)` starts at the scatter index `idx[e, 0]`, read signed. -/
theorem rowAdd_start0 (idx : IVec ⟨2, ![E, 1]⟩ w) (e : Fin E) (c : Fin D) :
    (rowAddDims N E D wf).start (ix2 e c) idx 0 = (idx (ix2 e (0 : Fin 1))).toInt := by
  unfold ScatterDims.start
  rw [dif_pos (show (0 : Fin 2) ∈ (rowAddDims N E D wf).scatterDimsToOperandDims from List.mem_singleton.mpr rfl)]
  have hsi : (rowAddDims N E D wf).siIdx (ix2 e c) ⟨List.idxOf (0 : Fin 2) (rowAddDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero. -/
theorem rowAdd_start1 (idx : IVec ⟨2, ![E, 1]⟩ w) (j : (⟨2, ![E, D]⟩ : Shape).Idx) :
    (rowAddDims N E D wf).start j idx 1 = 0 := by
  unfold ScatterDims.start
  rw [dif_neg (show (1 : Fin 2) ∉ (rowAddDims N E D wf).scatterDimsToOperandDims from
    (show (1 : Fin 2) ∉ ([0] : List (Fin 2)) by decide))]

/-- The window has no extent along the row axis … -/
theorem rowAdd_window0 (j : (⟨2, ![E, D]⟩ : Shape).Idx) : (rowAddDims N E D wf).window j 0 = 0 := by
  unfold ScatterDims.window
  rw [dif_neg (show (0 : Fin 2) ∉ (rowAddDims N E D wf).sKept from (show (0 : Fin 2) ∉ ([1] : List (Fin 2)) by decide))]

/-- … and along the column axis its coordinate is the update's column. -/
theorem rowAdd_window1 (e : Fin E) (c : Fin D) : (rowAddDims N E D wf).window (ix2 e c) 1 = c.val := by
  unfold ScatterDims.window
  rw [dif_pos (show (1 : Fin 2) ∈ (rowAddDims N E D wf).sKept from (show (1 : Fin 2) ∈ ([1] : List (Fin 2)) by decide))]
  rfl

/-- THE RESULT INDEX of update `(e, c)`: row `idx[e, 0]` (read signed), column `c`, when the row is in `[0, N)`; none
    otherwise. -/
theorem resultIdx_row (idx : IVec ⟨2, ![E, 1]⟩ w) (e : Fin E) (c : Fin D) :
    (rowAddDims N E D wf).resultIdx? (ix2 e c) idx
      = if h : 0 ≤ (idx (ix2 e (0 : Fin 1))).toInt ∧ (idx (ix2 e (0 : Fin 1))).toInt < (N : ℤ) then
          some (ix2 ⟨(idx (ix2 e (0 : Fin 1))).toInt.toNat, by omega⟩ c)
        else none := by
  have h0 : (rowAddDims N E D wf).start (ix2 e c) idx 0 + ((rowAddDims N E D wf).window (ix2 e c) 0 : ℤ)
      = (idx (ix2 e (0 : Fin 1))).toInt := by
    rw [rowAdd_start0, rowAdd_window0]; simp
  have h1 : (rowAddDims N E D wf).start (ix2 e c) idx 1 + ((rowAddDims N E D wf).window (ix2 e c) 1 : ℤ)
      = (c.val : ℤ) := by
    rw [rowAdd_start1, rowAdd_window1]; simp
  unfold ScatterDims.resultIdx?
  by_cases ht : 0 ≤ (idx (ix2 e (0 : Fin 1))).toInt ∧ (idx (ix2 e (0 : Fin 1))).toInt < (N : ℤ)
  · have hall : ∀ a : Fin 2, 0 ≤ (rowAddDims N E D wf).start (ix2 e c) idx a + ((rowAddDims N E D wf).window (ix2 e c) a : ℤ)
        ∧ (rowAddDims N E D wf).start (ix2 e c) idx a + ((rowAddDims N E D wf).window (ix2 e c) a : ℤ)
          < ((⟨2, ![N, D]⟩ : Shape).size a : ℤ) := by
      intro a
      match a with
      | ⟨0, _⟩ => exact (show _ ∧ _ from by rw [show (⟨0, by decide⟩ : Fin 2) = 0 from rfl, h0]; exact ht)
      | ⟨1, _⟩ =>
        exact (show _ ∧ _ from by
          rw [show (⟨1, by decide⟩ : Fin 2) = 1 from rfl, h1]
          exact ⟨Int.natCast_nonneg _, by exact_mod_cast c.isLt⟩)
    rw [dif_pos hall, dif_pos ht]
    congr 1
    refine idx2_ext _ _ ?_ ?_
    · show ((rowAddDims N E D wf).start (ix2 e c) idx 0 + ((rowAddDims N E D wf).window (ix2 e c) 0 : ℤ)).toNat
        = (idx (ix2 e (0 : Fin 1))).toInt.toNat
      rw [h0]
    · show ((rowAddDims N E D wf).start (ix2 e c) idx 1 + ((rowAddDims N E D wf).window (ix2 e c) 1 : ℤ)).toNat = c.val
      rw [h1]; exact Int.toNat_natCast _
  · rw [dif_neg ht, dif_neg]
    intro hall
    have := hall 0
    rw [h0] at this
    exact ht this

end RowAdd

section RowAddSum
variable {N E D w : Nat} (wf : ScatterDims.WF ⟨2, ![N, D]⟩ ⟨2, ![E, 1]⟩ ⟨2, ![E, D]⟩ [1] [0] [0] 1)

/-- Update `(e, c')` lands at `(n, c)` exactly when its scatter index `idx[e, 0]`, read signed, is `n` and its column
    is `c`. -/
theorem resultIdx_row_eq_some (idx : IVec ⟨2, ![E, 1]⟩ w) (e : Fin E) (c' : Fin D) (n : Fin N) (c : Fin D) :
    (rowAddDims N E D wf).resultIdx? (ix2 e c') idx = some (ix2 n c)
      ↔ (idx (ix2 e (0 : Fin 1))).toInt = ((n : ℕ) : ℤ) ∧ c' = c := by
  rw [resultIdx_row]
  have hn := n.isLt
  constructor
  · intro h
    by_cases ht : 0 ≤ (idx (ix2 e (0 : Fin 1))).toInt ∧ (idx (ix2 e (0 : Fin 1))).toInt < (N : ℤ)
    · rw [dif_pos ht] at h
      have h' := Option.some.inj h
      have e0 : (idx (ix2 e (0 : Fin 1))).toInt.toNat = n.val := congrArg (fun i => (i 0).val) h'
      have e1 : c' = c := congrArg (fun i => i 1) h'
      exact ⟨by omega, e1⟩
    · rw [dif_neg ht] at h
      exact absurd h (by simp)
  · rintro ⟨ht, rfl⟩
    rw [dif_pos ⟨by omega, by omega⟩]
    congr 1
    exact idx2_ext _ _ (show (idx (ix2 e (0 : Fin 1))).toInt.toNat = n.val by omega) rfl

/-- THE ROW SCATTER-ADD READ AT `(n, c)`: the operand's entry plus the sum, over the edges `e` whose scatter index
    `idx[e, 0]` (read signed) is `n`, of the update's entry `(e, c)`. -/
theorem scatterAdd_row_apply (X0 : (⟨2, ![N, D]⟩ : Shape).Idx → EReal) (idx : IVec ⟨2, ![E, 1]⟩ w)
    (U : (⟨2, ![E, D]⟩ : Shape).Idx → EReal) (n : Fin N) (c : Fin D) :
    Ideal.hostScatterAdd (rowAddDims N E D wf) X0 idx U (ix2 n c)
      = X0 (ix2 n c) + ∑ e ∈ Finset.univ.filter
          (fun e : Fin E => (idx (ix2 e (0 : Fin 1))).toInt = ((n : ℕ) : ℤ)), U (ix2 e c) := by
  simp only [Ideal.hostScatterAdd]
  congr 1
  rw [Finset.sum_filter, sum_idx2, Finset.sum_filter]
  refine Finset.sum_congr rfl fun e _ => ?_
  simp only [resultIdx_row_eq_some]
  by_cases h : (idx (ix2 e (0 : Fin 1))).toInt = ((n : ℕ) : ℤ)
  · simp [h]
  · simp [h]

end RowAddSum

/-! ## `stablehlo.gather` taking rows of `[N, D]` into `[E, D]`, read at an index

The dimension numbers offset_dims `[1]`, collapsed_slice_dims `[0]`, start_index_map `[0]`, index_vector_dim `1` and
slice_sizes `[1, D]` over start indices `[E, 1]`: result element `(e, c)` is the operand at row `idx[e, 0]`, read
signed and clamped into `[0, N − 1]`, column `c`. -/

section RowTake
variable {N E D w : Nat}

/-- Those dimension numbers for an operand `[N, D]`, start indices `[E, 1]` and result `[E, D]`; their conditions
    `wf` are decided on a program's literal shapes. -/
abbrev rowTakeDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the operand at row `idx[e, 0]`, read signed and clamped into `[0, N − 1]`,
    column `c`. -/
theorem gather_row_apply {α : Type} (hN : 0 < N)
    (wf : GatherDims.WF ⟨2, ![N, D]⟩ ⟨2, ![E, 1]⟩ ⟨2, ![E, D]⟩ [1] [0] [] [0] [] 1 ![1, D])
    (X : (⟨2, ![N, D]⟩ : Shape).Idx → α) (idx : IVec ⟨2, ![E, 1]⟩ w) (e : Fin E) (c : Fin D) :
    Host.gather (rowTakeDims N E D wf) X idx (ix2 e c)
      = X (ix2 ⟨min (idx (ix2 e (0 : Fin 1))).toInt.toNat (N - 1), by omega⟩ c) := by
  unfold Host.gather
  congr 1
  refine idx2_ext _ _ ?_ ?_
  · show (rowTakeDims N E D wf).start (ix2 e c) idx 0 + (rowTakeDims N E D wf).batchCoord (ix2 e c) 0
        + (rowTakeDims N E D wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N E D wf).startIndexMap from List.mem_singleton.mpr rfl)]
    have hsi : (rowTakeDims N E D wf).siIdx (ix2 e c) ⟨List.idxOf (0 : Fin 2) (rowTakeDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · show (rowTakeDims N E D wf).start (ix2 e c) idx 1 + (rowTakeDims N E D wf).batchCoord (ix2 e c) 1
        + (rowTakeDims N E D wf).offCoord (ix2 e c) 1 = c.val
    have hs : (rowTakeDims N E D wf).start (ix2 e c) idx 1 = 0 := by
      unfold GatherDims.start
      rw [dif_neg (show (1 : Fin 2) ∉ (rowTakeDims N E D wf).startIndexMap from
        (show (1 : Fin 2) ∉ ([0] : List (Fin 2)) by decide))]
    have ho : (rowTakeDims N E D wf).offCoord (ix2 e c) 1 = c.val := by
      unfold GatherDims.offCoord
      rw [dif_pos (show (1 : Fin 2) ∈ (rowTakeDims N E D wf).sKept from
        (show (1 : Fin 2) ∈ ([1] : List (Fin 2)) by decide))]
      rfl
    rw [GatherDims.batchCoord_eq_zero _ _ _ List.not_mem_nil, hs, ho]
    simp

end RowTake

/-! ## Gather, scale and scatter-add together are the propagation step -/

section Bridge
variable {N E D w w' : Nat}

/-- The source row of edge `e`: the start index `idx[e, 0]`, read signed and clamped into `[0, N − 1]`. -/
def clampRow (hN : 0 < N) (idx : IVec ⟨2, ![E, 1]⟩ w) (e : Fin E) : Fin N :=
  ⟨min (idx (ix2 e (0 : Fin 1))).toInt.toNat (N - 1), by omega⟩

/-- The row gather read at `(e, c)` is the operand at the clamped source row of `e`, column `c`. -/
theorem gather_row_apply_clampRow {α : Type} (hN : 0 < N)
    (wf : GatherDims.WF ⟨2, ![N, D]⟩ ⟨2, ![E, 1]⟩ ⟨2, ![E, D]⟩ [1] [0] [] [0] [] 1 ![1, D])
    (X : (⟨2, ![N, D]⟩ : Shape).Idx → α) (idx : IVec ⟨2, ![E, 1]⟩ w) (e : Fin E) (c : Fin D) :
    Host.gather (rowTakeDims N E D wf) X idx (ix2 e c) = X (ix2 (clampRow hN idx e) c) :=
  gather_row_apply hN wf X idx e c

/-- GATHER, SCALE, SCATTER-ADD = ONE PROPAGATION STEP: when the updates `U` are the rows of `X` gathered at `srcIdx`
    with row `e` scaled by `wv e`, and the operand `X0` is zero everywhere, the row scatter-add of `U` at `tgtIdx` is
    the propagation step of `X` with the clamped start indices as sources and the signed scatter indices as targets. -/
theorem scatterAdd_gather_eq_prop (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (X0 X : (⟨2, ![N, D]⟩ : Shape).Idx → EReal) (srcIdx : IVec ⟨2, ![E, 1]⟩ w) (tgtIdx : IVec ⟨2, ![E, 1]⟩ w')
    (wv : Fin E → EReal) (U : (⟨2, ![E, D]⟩ : Shape).Idx → EReal) (hX0 : ∀ i, X0 i = 0)
    (hU : ∀ e c, U (ix2 e c) = Host.gather (rowTakeDims N E D wfG) X srcIdx (ix2 e c) * wv e) :
    Ideal.hostScatterAdd (rowAddDims N E D wfS) X0 tgtIdx U
      = prop (clampRow hN srcIdx) (fun e => (tgtIdx (ix2 e (0 : Fin 1))).toInt) wv D X := by
  funext i
  obtain ⟨n, c, rfl⟩ : ∃ n c, i = ix2 n c := ⟨i 0, i 1, eq_ix2 i⟩
  rw [scatterAdd_row_apply, prop_apply, hX0]
  congr 1
  refine Finset.sum_congr rfl fun e _ => ?_
  rw [hU, gather_row_apply_clampRow hN]

end Bridge

end Idealize.ShloMosaic.RowPropagate

end
-- ==== Proof.EdgeMaps.lean ====
/-
  The graph both programs propagate along, read off the reference's stages of the index argument: edge `e` goes from
  its source node (the source index with negative entries wrapped by the node count, clamped into the node range, as a
  gather reads it) to its target (the target index as a signed integer; a scatter drops an edge whose target is not a
  node), and carries the weight  dis[source] · dis[target].
-/
import proofs.«157029_j18502719111544_2_alg».proof.Proof.RefRead
import proofs.«157029_j18502719111544_2_alg».proof.Proof.LibRowPropagate

noncomputable section

namespace Cert.EdgeMaps

open Idealize.ShloMosaic Idealize.ShloMosaic.ValueIdx Idealize.ShloMosaic.RowPropagate
open Cert.ReferenceIdeal Cert.ReferenceIdeal.Read

/-- The node an edge's message is gathered from. -/
def src (x1 : (⟨S2x1600000, .i32⟩ : BufTy).Contents (Elt Ideal)) : Fin 1600000 → Fin 100000 :=
  clampRow (N := 100000) (by decide) (val_main_v129 (F := Ideal) x1)

/-- The node an edge's message is added at, as the signed integer the scatter reads. -/
def tgt (x1 : (⟨S2x1600000, .i32⟩ : BufTy).Contents (Elt Ideal)) : Fin 1600000 → ℤ :=
  fun e => (val_main_v135 (F := Ideal) x1 (ix2 e (0 : Fin 1))).toInt

/-- The edge's weight. -/
def wgt (x1 : (⟨S2x1600000, .i32⟩ : BufTy).Contents (Elt Ideal)) : Fin 1600000 → EReal :=
  fun e => val_main_v28 (F := Ideal) x1 (ix1 e)

/-- Row `k` of the last layer's weight array, as a vector over the 128 features. -/
def om (x12 : (⟨S4x1x128, .f32⟩ : BufTy).Contents (Elt Ideal)) (k : Fin 4) : Fin 128 → EReal :=
  fun c => x12 (ix3 k (0 : Fin 1) c)

end Cert.EdgeMaps

end
-- ==== Proof.LibHorner.lean ====
/-
  THE HORNER FORM OF A THREE-STEP ROW PROPAGATION, CONTRACTED.

  With P the propagation step of LibRowPropagate on arrays of D columns and Q the same step (same sources, targets and
  weights) on single-column arrays, and with the column contraction (dotc X ω) (n, 0) = ∑_c X (n, c) · ω c:
  on real data contraction commutes with the step, dotc (P X) ω = Q (dotc X ω); hence the four-term sum
  dotc H ω0 + dotc (P H) ω1 + dotc (P (P H)) ω2 + dotc (P (P (P H))) ω3, propagating in D columns and contracting last,
  equals the Horner recurrence that contracts first and propagates single columns,
  dotc H ω0 + Q (dotc H ω1 + Q (dotc H ω2 + Q (dotc H ω3))).
  Then closure lemmas: scatter-add, gather, select, the reciprocal square root of a maximum with one, a batch
  normalisation entry and two constants keep real data real.
-/
import proofs.«157029_j18502719111544_2_alg».proof.Proof.LibRowPropagate

noncomputable section

open scoped BigOperators

namespace Idealize.ShloMosaic.RowPropagate

open Idealize.ShloMosaic Idealize.ShloMosaic.ValueIdx

/-! ## Contracting the column axis -/

section Horner
variable {N E : Nat} (src : Fin E → Fin N) (tgt : Fin E → ℤ) (w : Fin E → EReal) {D : Nat}

/-- THE COLUMN CONTRACTION of an array of rows `X : [N, D]` against `ω : [D]`, as a single-column array `[N, 1]`:
    entry `(n, 0)` is `∑_c X (n, c) · ω c`. -/
def dotc (X : (⟨2, ![N, D]⟩ : Shape).Idx → EReal) (ω : Fin D → EReal) : (⟨2, ![N, 1]⟩ : Shape).Idx → EReal :=
  fun i => ∑ c : Fin D, X (ix2 (i 0 : Fin N) c) * ω c

/-- The contraction read at `(n, z)`. -/
theorem dotc_apply (X : (⟨2, ![N, D]⟩ : Shape).Idx → EReal) (ω : Fin D → EReal) (n : Fin N) (z : Fin 1) :
    dotc X ω (ix2 n z) = ∑ c : Fin D, X (ix2 n c) * ω c := rfl

/-- The contraction of real rows against a real vector is real. -/
theorem dotc_isReal {X : (⟨2, ![N, D]⟩ : Shape).Idx → EReal} {ω : Fin D → EReal} (hX : ∀ i, IsReal (X i))
    (hω : ∀ c, IsReal (ω c)) (i : (⟨2, ![N, 1]⟩ : Shape).Idx) : IsReal (dotc X ω i) :=
  IsReal.sum _ _ fun c _ => (hX _).mul (hω c)

/-- CONTRACTION COMMUTES WITH THE STEP: on real rows, weights and vector, contracting the propagated rows is
    propagating the contracted single column. -/
theorem dotc_prop {X : (⟨2, ![N, D]⟩ : Shape).Idx → EReal} {ω : Fin D → EReal} (hX : ∀ i, IsReal (X i))
    (hw : ∀ e, IsReal (w e)) (hω : ∀ c, IsReal (ω c)) :
    dotc (prop src tgt w D X) ω = prop src tgt w 1 (dotc X ω) := by
  funext i
  obtain ⟨n, z, rfl⟩ : ∃ n z, i = ix2 n z := ⟨i 0, i 1, eq_ix2 i⟩
  rw [dotc_apply, sum_prop_mul src tgt w hX hw hω, prop_apply]
  simp only [dotc_apply]

/-- The step of an entrywise sum, read at an index. -/
theorem prop_add_apply {X Y : (⟨2, ![N, D]⟩ : Shape).Idx → EReal} (hX : ∀ i, IsReal (X i)) (hY : ∀ i, IsReal (Y i))
    (hw : ∀ e, IsReal (w e)) (i : (⟨2, ![N, D]⟩ : Shape).Idx) :
    prop src tgt w D (fun j => X j + Y j) i = prop src tgt w D X i + prop src tgt w D Y i :=
  congrFun (prop_add src tgt w hX hY hw) i

/-- THE FOUR-TERM LAW: on real rows `H`, real weights and four real vectors, propagating `H` zero to three times in
    `D` columns, contracting each against its vector and summing left to right, is the Horner recurrence on single
    columns: contract first, then `a0 + Q (a1 + Q (a2 + Q a3))`. -/
theorem horner4 {H : (⟨2, ![N, D]⟩ : Shape).Idx → EReal} {ω0 ω1 ω2 ω3 : Fin D → EReal} (hH : ∀ i, IsReal (H i))
    (hw : ∀ e, IsReal (w e)) (h0 : ∀ c, IsReal (ω0 c)) (h1 : ∀ c, IsReal (ω1 c)) (h2 : ∀ c, IsReal (ω2 c))
    (h3 : ∀ c, IsReal (ω3 c)) (i : (⟨2, ![N, 1]⟩ : Shape).Idx) :
    ((dotc H ω0 i + dotc (prop src tgt w D H) ω1 i) + dotc (prop src tgt w D (prop src tgt w D H)) ω2 i)
        + dotc (prop src tgt w D (prop src tgt w D (prop src tgt w D H))) ω3 i
      = dotc H ω0 i + prop src tgt w 1 (fun j => dotc H ω1 j
          + prop src tgt w 1 (fun k => dotc H ω2 k + prop src tgt w 1 (dotc H ω3) k) j) i := by
  have hP1 : ∀ j, IsReal (prop src tgt w D H j) := prop_isReal src tgt w hH hw
  have hP2 : ∀ j, IsReal (prop src tgt w D (prop src tgt w D H) j) := prop_isReal src tgt w hP1 hw
  have a1 : ∀ j, IsReal (dotc H ω1 j) := dotc_isReal hH h1
  have a2 : ∀ j, IsReal (dotc H ω2 j) := dotc_isReal hH h2
  have a3 : ∀ j, IsReal (dotc H ω3 j) := dotc_isReal hH h3
  have q2 : ∀ j, IsReal (prop src tgt w 1 (dotc H ω2) j) := prop_isReal src tgt w a2 hw
  have q3 : ∀ j, IsReal (prop src tgt w 1 (dotc H ω3) j) := prop_isReal src tgt w a3 hw
  have qq3 : ∀ j, IsReal (prop src tgt w 1 (prop src tgt w 1 (dotc H ω3)) j) := prop_isReal src tgt w q3 hw
  -- the left side: contraction moves inside every step
  rw [dotc_prop src tgt w hH hw h1, dotc_prop src tgt w hP1 hw h2, dotc_prop src tgt w hH hw h2,
    dotc_prop src tgt w hP2 hw h3, dotc_prop src tgt w hP1 hw h3, dotc_prop src tgt w hH hw h3]
  -- the right side: the step distributes over the three sums
  have e3 : prop src tgt w 1 (fun k => dotc H ω2 k + prop src tgt w 1 (dotc H ω3) k)
      = fun k => prop src tgt w 1 (dotc H ω2) k + prop src tgt w 1 (prop src tgt w 1 (dotc H ω3)) k :=
    prop_add src tgt w a2 q3 hw
  have e5 : prop src tgt w 1 (fun k => prop src tgt w 1 (dotc H ω2) k + prop src tgt w 1 (prop src tgt w 1 (dotc H ω3)) k)
      = fun k => prop src tgt w 1 (prop src tgt w 1 (dotc H ω2)) k
          + prop src tgt w 1 (prop src tgt w 1 (prop src tgt w 1 (dotc H ω3))) k :=
    prop_add src tgt w q2 qq3 hw
  have e4 : prop src tgt w 1 (fun j => dotc H ω1 j
        + (prop src tgt w 1 (dotc H ω2) j + prop src tgt w 1 (prop src tgt w 1 (dotc H ω3)) j)) i
      = prop src tgt w 1 (dotc H ω1) i
        + prop src tgt w 1 (fun k => prop src tgt w 1 (dotc H ω2) k + prop src tgt w 1 (prop src tgt w 1 (dotc H ω3)) k) i :=
    prop_add_apply src tgt w a1 (fun j => (q2 j).add (qq3 j)) hw i
  rw [e3]
  beta_reduce
  rw [e4, e5]
  beta_reduce
  simp only [add_assoc]

end Horner

/-! ## Real data stays real -/

section Closure

/-- A scatter-add of real updates into a real operand is real, whatever the dimension numbers and the indices. -/
theorem hostScatterAdd_isReal {s si su : Shape} (d : ScatterDims s si su) {w : Nat} {x : s.Idx → EReal}
    (idx : IVec si w) {u : su.Idx → EReal} (hx : ∀ i, IsReal (x i)) (hu : ∀ j, IsReal (u j)) (i : s.Idx) :
    IsReal (Ideal.hostScatterAdd d x idx u i) :=
  show IsReal (x i + _) from (hx i).add (IsReal.sum _ _ fun j _ => hu j)

/-- A gather of a real operand is real, whatever the dimension numbers and the indices. -/
theorem gather_isReal {s si t : Shape} (d : GatherDims s si t) {w : Nat} {x : s.Idx → EReal} (idx : IVec si w)
    (hx : ∀ i, IsReal (x i)) (j : t.Idx) : IsReal (Host.gather d x idx j) :=
  hx _

/-- A selection between two reals is real. -/
theorem IsReal.select (b : BitVec 1) {x y : EReal} (hx : IsReal x) (hy : IsReal y) : IsReal (Scalar.select b x y) := by
  unfold Scalar.select; split <;> assumption

/-- The binary32 word `0x3F800000` is one. -/
theorem ofBits_one : Ideal.ofBits .f32 0x3F800000#32 = 1 := Ideal.ofBits_one_f32
/-- The binary32 word `0x00000000` is zero. -/
theorem ofBits_zero : Ideal.ofBits .f32 0x00000000#32 = 0 := Ideal.ofBits_zero_f32

/-- The maximum of anything with one is positive. -/
theorem max_one_pos (d : EReal) : 0 < max d (Ideal.ofBits .f32 0x3F800000#32) := by
  rw [ofBits_one]; exact lt_of_lt_of_le zero_lt_one (le_max_right _ _)

/-- The reciprocal square root of the maximum of a real with one is real (the maximum is at least one). -/
theorem isReal_rsqrt_max_one {d : EReal} (hd : IsReal d) :
    IsReal (Ideal.rsqrt (max d (Ideal.ofBits .f32 0x3F800000#32))) :=
  IsReal.rsqrt (max_one_pos d) (hd.max isReal_ofBits_one)

/-- … and positive. -/
theorem rsqrt_max_one_pos {d : EReal} (hd : IsReal d) : 0 < Ideal.rsqrt (max d (Ideal.ofBits .f32 0x3F800000#32)) :=
  rsqrt_pos (max_one_pos d) (hd.max isReal_ofBits_one)

/-- A nonnegative number plus the word `0x3727C5AC` (about 10⁻⁵) is positive. -/
theorem add_eps_pos {v : EReal} (h0 : 0 ≤ v) : 0 < v + Ideal.ofBits .f32 0x3727C5AC#32 := by
  rw [add_comm]; exact add_pos_of_pos_of_nonneg ofBits_3727C5AC_pos h0

/-- A BATCH-NORMALISATION ENTRY `(x − m) · rsqrt (v + ε) · g + b` of reals with `0 ≤ v` is real. -/
theorem isReal_batchNorm {x m v g b : EReal} (hx : IsReal x) (hm : IsReal m) (hv : IsReal v) (hg : IsReal g)
    (hb : IsReal b) (h0 : 0 ≤ v) :
    IsReal (((x - m) * Ideal.rsqrt (v + Ideal.ofBits .f32 0x3727C5AC#32)) * g + b) :=
  (((hx.sub hm).mul (IsReal.rsqrt (add_eps_pos h0) (hv.add isReal_ofBits_3727C5AC))).mul hg).add hb

/-- The word `0x3C23D70A` (about 10⁻²) times a real is real. -/
theorem isReal_ofBits_3C23D70A_mul {y : EReal} (hy : IsReal y) : IsReal (Ideal.ofBits .f32 0x3C23D70A#32 * y) :=
  isReal_ofBits_3C23D70A.mul hy

/-- The zero word plus a real is real. -/
theorem isReal_ofBits_zero_add {x : EReal} (hx : IsReal x) : IsReal (Ideal.ofBits .f32 0x00000000#32 + x) :=
  isReal_ofBits_zero.add hx

end Closure

end Idealize.ShloMosaic.RowPropagate

end
-- ==== Proof.BridgeTail.lean ====
/-
  The idealized kernel's last stretch read at a row. With H the feature array entering the third region, ω_k row k of the
  last layer's weights and P the propagation step along the graph's edges: column k of the projected array is the
  contraction of H with ω_k; a propagation step on a single-column array is the abstract step P on one column; so the
  result at node n is  (H·ω₀)(n) + P (H·ω₁ + P (H·ω₂ + P (H·ω₃))) (n)  plus the bias.
-/
import proofs.«157029_j18502719111544_2_alg».proof.Proof.KernelTerms
import proofs.«157029_j18502719111544_2_alg».proof.Proof.EdgeMaps
import proofs.«157029_j18502719111544_2_alg».proof.Proof.LibHorner
import Idealize.ShloMosaic.Lib.Pipeline.Value
import Idealize.ShloMosaic.Lib.ValueIdx

noncomputable section

namespace Cert.BridgeTail

open Idealize.ShloMosaic Idealize.ShloMosaic.ValueIdx Idealize.ShloMosaic.RowPropagate
open Cert.KernelIdeal Cert.KernelIdeal.Facts₀ Cert.KernelIdeal.Facts Cert.EdgeMaps

/-- The projection matrix as the third region finds it: the last layer's weight array with its feature axis first. -/
def projMat (a12 : S4x1x128.Idx → EReal) : S128x4.Idx → EReal :=
  fun i => shapeCast S128x4 (transpose S128x4x1 [2, 0, 1] a12 transposes_S4x1x128_S128x4x1_2_0_1) shapeCasts_S128x4x1_S128x4 i

/-- Entry (d, k) of the projection matrix is feature d of weight row k. -/
theorem projMat_apply (a12 : S4x1x128.Idx → EReal) (d : Fin 128) (k : Fin 4) : projMat a12 (ix2 d k) = om a12 k d := by
  unfold projMat om
  rw [shapeCast_apply _ shapeCasts_S128x4x1_S128x4 (ix2 d k) (ix3 d k (0 : Fin 1)) (by
        simp only [Shape.rowMajor_val_two, Shape.rowMajor_val_three]; simp [ix2, ix3])]
  exact transpose_apply [2, 0, 1] a12 transposes_S4x1x128_S128x4x1_2_0_1 (ix3 d k (0 : Fin 1)) (ix3 k (0 : Fin 1) d) (fun b => by
    match b with
    | ⟨0, _⟩ => rfl
    | ⟨1, _⟩ => rfl
    | ⟨2, _⟩ => rfl)

/-- The product of the feature array with the projection matrix. -/
def proj (H : S100000x128.Idx → EReal) (a12 : S4x1x128.Idx → EReal) : S100000x4.Idx → EReal :=
  fun i => ∑ d : Fin 128, H (ix2 (i 0) d) * projMat a12 (ix2 d (i 1))

/-- Column k of the projected array is the contraction of the feature array with weight row k. -/
theorem col0_eq (H : S100000x128.Idx → EReal) (a12 : S4x1x128.Idx → EReal) : Terms.col0 (F := Ideal) (proj H a12) = dotc H (om a12 0) := by
  funext i
  obtain ⟨n, z, rfl⟩ : ∃ (n : Fin 100000) (z : Fin 1), i = ix2 n z := ⟨i 0, i 1, eq_ix2 i⟩
  unfold Terms.col0
  rw [extractStridedSlice_apply ![0, 0] (proj H a12) slices_S100000x4_S100000x1_0_0 (ix2 n z) (ix2 n (0 : Fin 4)) (fun a => by
        match a with
        | ⟨0, _⟩ => simp [ix2]
        | ⟨1, _⟩ => simp [ix2])]
  show ∑ d : Fin 128, H (ix2 n d) * projMat a12 (ix2 d 0) = ∑ c : Fin 128, H (ix2 n c) * om a12 0 c
  exact Finset.sum_congr rfl fun d _ => by rw [projMat_apply]
theorem col1_eq (H : S100000x128.Idx → EReal) (a12 : S4x1x128.Idx → EReal) : Terms.col1 (F := Ideal) (proj H a12) = dotc H (om a12 1) := by
  funext i
  obtain ⟨n, z, rfl⟩ : ∃ (n : Fin 100000) (z : Fin 1), i = ix2 n z := ⟨i 0, i 1, eq_ix2 i⟩
  unfold Terms.col1
  rw [extractStridedSlice_apply ![0, 1] (proj H a12) slices_S100000x4_S100000x1_0_1 (ix2 n z) (ix2 n (1 : Fin 4)) (fun a => by
        match a with
        | ⟨0, _⟩ => simp [ix2]
        | ⟨1, _⟩ => simp [ix2])]
  show ∑ d : Fin 128, H (ix2 n d) * projMat a12 (ix2 d 1) = ∑ c : Fin 128, H (ix2 n c) * om a12 1 c
  exact Finset.sum_congr rfl fun d _ => by rw [projMat_apply]
theorem col2_eq (H : S100000x128.Idx → EReal) (a12 : S4x1x128.Idx → EReal) : Terms.col2 (F := Ideal) (proj H a12) = dotc H (om a12 2) := by
  funext i
  obtain ⟨n, z, rfl⟩ : ∃ (n : Fin 100000) (z : Fin 1), i = ix2 n z := ⟨i 0, i 1, eq_ix2 i⟩
  unfold Terms.col2
  rw [extractStridedSlice_apply ![0, 2] (proj H a12) slices_S100000x4_S100000x1_0_2 (ix2 n z) (ix2 n (2 : Fin 4)) (fun a => by
        match a with
        | ⟨0, _⟩ => simp [ix2]
        | ⟨1, _⟩ => simp [ix2])]
  show ∑ d : Fin 128, H (ix2 n d) * projMat a12 (ix2 d 2) = ∑ c : Fin 128, H (ix2 n c) * om a12 2 c
  exact Finset.sum_congr rfl fun d _ => by rw [projMat_apply]
theorem col3_eq (H : S100000x128.Idx → EReal) (a12 : S4x1x128.Idx → EReal) : Terms.col3 (F := Ideal) (proj H a12) = dotc H (om a12 3) := by
  funext i
  obtain ⟨n, z, rfl⟩ : ∃ (n : Fin 100000) (z : Fin 1), i = ix2 n z := ⟨i 0, i 1, eq_ix2 i⟩
  unfold Terms.col3
  rw [extractStridedSlice_apply ![0, 3] (proj H a12) slices_S100000x4_S100000x1_0_3 (ix2 n z) (ix2 n (3 : Fin 4)) (fun a => by
        match a with
        | ⟨0, _⟩ => simp [ix2]
        | ⟨1, _⟩ => simp [ix2])]
  show ∑ d : Fin 128, H (ix2 n d) * projMat a12 (ix2 d 3) = ∑ c : Fin 128, H (ix2 n c) * om a12 3 c
  exact Finset.sum_congr rfl fun d _ => by rw [projMat_apply]

/-- The kernel's wrapped source index vector is the reference's. -/
theorem wrap_eq (x1 : IVec S2x1600000 32) :
    Terms.wrapIdx (Cert.ReferenceIdeal.Read.val_main_v1 (F := Ideal) x1) = Cert.ReferenceIdeal.Read.val_main_v128 (F := Ideal) x1 := rfl

/-- As a column it is the index column the graph's sources are read off. -/
theorem srcIdx_eq (x1 : IVec S2x1600000 32) :
    broadcastInDim S1600000x1 ![0] bcast_S1600000_S1600000x1_0 (Terms.wrapIdx (Cert.ReferenceIdeal.Read.val_main_v1 (F := Ideal) x1))
      = Cert.ReferenceIdeal.Read.val_main_v129 (F := Ideal) x1 := by
  rw [wrap_eq]
  rfl

/-- The kernel's target index column is the index column the graph's targets are read off. -/
theorem tgtIdx_eq (x1 : IVec S2x1600000 32) :
    broadcastInDim S1600000x1 ![0] bcast_S1600000_S1600000x1_0 (Cert.ReferenceIdeal.Read.val_main_v3 (F := Ideal) x1)
      = Cert.ReferenceIdeal.Read.val_main_v135 (F := Ideal) x1 := rfl

/-- Gather at the source index column, scale by a weight column, scatter-add into zeros at the target index column,
    on single-column arrays: one propagation step. Every operand enters as a variable with its equation, so that the
    step is applied by matching the operands as they stand. -/
theorem prop1_of (x1 : IVec S2x1600000 32) (X0 X : S100000x1.Idx → EReal) (srcIdx tgtIdx : IVec S1600000x1 32)
    (G W : FVec Ideal S1600000x1 .f32)
    (hs : srcIdx = Cert.ReferenceIdeal.Read.val_main_v129 (F := Ideal) x1) (ht : tgtIdx = Cert.ReferenceIdeal.Read.val_main_v135 (F := Ideal) x1)
    (hX0 : ∀ i, X0 i = 0)
    (hG : G = Host.gather gather_S100000x1_S1600000x1_S1600000x1_1_0_n_n_0_1_11 X srcIdx)
    (hW : ∀ (e : Fin 1600000) (c : Fin 1), W (ix2 e c) = wgt x1 e) :
    Host.scatterAdd (F := Ideal) (φ := .f32) scatter_S100000x1_S1600000x1_S1600000x1_1_0_0_1 X0 tgtIdx (mulf (F := Ideal) G W)
      = prop (src x1) (tgt x1) (wgt x1) 1 X := by
  subst hs ht hG
  exact scatterAdd_gather_eq_prop (N := 100000) (E := 1600000) (D := 1) (by decide)
    gather_S100000x1_S1600000x1_S1600000x1_1_0_n_n_0_1_11.wf scatter_S100000x1_S1600000x1_S1600000x1_1_0_0_1.wf
    X0 X (Cert.ReferenceIdeal.Read.val_main_v129 (F := Ideal) x1) (Cert.ReferenceIdeal.Read.val_main_v135 (F := Ideal) x1) (wgt x1) _ hX0
    (fun e c => by rw [mulf_apply, hW]; rfl)

/-- The weight column read at edge e. -/
theorem wgtCol_apply (x1 : IVec S2x1600000 32) (e : Fin 1600000) (c : Fin 1) :
    broadcastInDim S1600000x1 ![0] bcast_S1600000_S1600000x1_0 (Cert.ReferenceIdeal.Read.val_main_v28 (F := Ideal) x1) (ix2 e c) = wgt x1 e := by
  unfold wgt
  exact broadcastInDim_apply _ bcast_S1600000_S1600000x1_0 _ (ix2 e c) (ix1 e) (fun a => by
    match a with
    | ⟨0, _⟩ => show e.val = if (1600000 : Nat) = 1 then 0 else e.val; rw [if_neg (by decide)])

/-- The zero column the step accumulates into. -/
theorem zeroCol_apply (i : S100000x1.Idx) :
    broadcastInDim S100000x1 ![] bcast_S_S100000x1 (constant (F := Ideal) S_ FTy.f32 0#32) i = (0 : EReal) :=
  Ideal.ofBits_zero_f32

/-- A propagation step on a single-column array is the abstract step along the graph's edges. -/
theorem prop1_eq (x1 : IVec S2x1600000 32) (X : S100000x1.Idx → EReal) :
    Terms.prop1 (F := Ideal) (Cert.ReferenceIdeal.Read.val_main_v1 (F := Ideal) x1) (Cert.ReferenceIdeal.Read.val_main_v3 (F := Ideal) x1)
      (Cert.ReferenceIdeal.Read.val_main_v28 (F := Ideal) x1) X
    = prop (src x1) (tgt x1) (wgt x1) 1 X := by
  unfold Terms.prop1
  exact prop1_of x1 _ X _ _ _ _ (srcIdx_eq x1) (tgtIdx_eq x1) zeroCol_apply rfl (wgtCol_apply x1)

/-- The sum of two arrays as a function of the index. -/
theorem addf_fun {s : Shape} (a b : FVec Ideal s .f32) : addf (F := Ideal) a b = fun j => a j + b j := rfl

/-- The bias, reshaped to one entry and broadcast down the rows, read at a row. -/
theorem bias_apply (a13 : S1.Idx → EReal) (i : S100000x1.Idx) :
    broadcastInDim S100000x1 ![0, 1] bcast_S1x1_S100000x1_0_1 (fun i => shapeCast S1x1 a13 shapeCasts_S1_S1x1 i) i
      = a13 (ix1 (0 : Fin 1)) := by
  refine (broadcastInDim_apply _ bcast_S1x1_S100000x1_0_1 _ i (ix2 (0 : Fin 1) (0 : Fin 1)) (fun a => ?_)).trans ?_
  · match a with
    | ⟨0, _⟩ => show 0 = if (1 : Nat) = 1 then 0 else (i 0).val; rw [if_pos rfl]
    | ⟨1, _⟩ => show 0 = if (1 : Nat) = 1 then 0 else (i 1).val; rw [if_pos rfl]
  · refine shapeCast_apply a13 shapeCasts_S1_S1x1 (ix2 (0 : Fin 1) (0 : Fin 1)) (ix1 (0 : Fin 1)) ?_
    rewrite [Shape.rowMajor_val_one, Shape.rowMajor_val_two]
    rfl

/-- The last stretch at a row: the Horner recurrence over the contractions, plus the bias. -/
theorem tail_apply (x1 : IVec S2x1600000 32) (H : S100000x128.Idx → EReal) (a12 : S4x1x128.Idx → EReal) (a13 : S1.Idx → EReal)
    (i : S100000x1.Idx) :
    Terms.tail (F := Ideal) (Cert.ReferenceIdeal.Read.val_main_v1 (F := Ideal) x1) (Cert.ReferenceIdeal.Read.val_main_v3 (F := Ideal) x1)
      (Cert.ReferenceIdeal.Read.val_main_v28 (F := Ideal) x1) (proj H a12) a13 i
    = (dotc H (om a12 0) i
        + prop (src x1) (tgt x1) (wgt x1) 1 (fun j => dotc H (om a12 1) j
            + prop (src x1) (tgt x1) (wgt x1) 1 (fun k => dotc H (om a12 2) k
                + prop (src x1) (tgt x1) (wgt x1) 1 (dotc H (om a12 3)) k) j) i)
      + a13 (ix1 (0 : Fin 1)) := by
  unfold Terms.tail
  rw [col0_eq, col1_eq, col2_eq, col3_eq, prop1_eq, prop1_eq, prop1_eq]
  rw [addf_apply, addf_apply, bias_apply,
    addf_fun (dotc H (om a12 2)) (prop (src x1) (tgt x1) (wgt x1) 1 (dotc H (om a12 3))),
    addf_fun (dotc H (om a12 1))]

end Cert.BridgeTail

end
-- ==== Proof.BridgeRefConv.lean ====
/- The last layer of the reference, in abstract form. With H the [100000,128] array of node features entering the layer,
   P the propagation step along the graph's edges (gather the rows of an array at the edges' source nodes, scale row e by
   the edge's weight, add the scaled rows at the edges' target nodes) and ω_0 … ω_3 the four rows of the layer's weight
   array: the reference propagates H three times in 128 columns, contracts H, P H, P (P H), P (P (P H)) against
   ω_0, ω_1, ω_2, ω_3 along the column axis, adds the four single columns left to right and adds the bias:
   out (n, 0) = (((∑_c H (n, c) ω_0 c + ∑_c (P H) (n, c) ω_1 c) + ∑_c (P² H) (n, c) ω_2 c) + ∑_c (P³ H) (n, c) ω_3 c) + b. -/
import proofs.«157029_j18502719111544_2_alg».proof.Proof.RefRead
import proofs.«157029_j18502719111544_2_alg».proof.Proof.EdgeMaps
import proofs.«157029_j18502719111544_2_alg».proof.Proof.LibHorner

noncomputable section

namespace Cert.BridgeRefConv

open Idealize.ShloMosaic Idealize.ShloMosaic.ValueIdx Idealize.ShloMosaic.RowPropagate
open Cert.ReferenceIdeal Cert.ReferenceIdeal.Read Cert.EdgeMaps
open scoped BigOperators

/-- The propagation step along the graph's edges, on arrays of 128 columns. -/
abbrev P (x1 : (⟨S2x1600000, .i32⟩ : BufTy).Contents (Elt Ideal)) (X : S100000x128.Idx → EReal) : S100000x128.Idx → EReal :=
  prop (src x1) (tgt x1) (wgt x1) 128 X

/-- Gather at the source index column, scale by the edge weights, scatter-add into zeros at the target index column:
    one propagation step. The index columns may be any copies of the two the graph is read off. -/
theorem step_of (x1 : (⟨S2x1600000, .i32⟩ : BufTy).Contents (Elt Ideal)) (X0 X : S100000x128.Idx → EReal)
    (srcIdx tgtIdx : IVec S1600000x1 32) (U : S1600000x128.Idx → EReal)
    (hs : srcIdx = val_main_v129 (F := Ideal) x1) (ht : tgtIdx = val_main_v135 (F := Ideal) x1)
    (hX0 : ∀ i, X0 i = 0)
    (hU : ∀ (e : Fin 1600000) (c : Fin 128), U (ix2 e c) = Host.gather gather_S100000x128_S1600000x1_S1600000x128_1_0_n_n_0_1_1128 X srcIdx (ix2 e c) * wgt x1 e) :
    Host.scatterAdd (F := Ideal) (φ := .f32) scatter_S100000x128_S1600000x1_S1600000x128_1_0_0_1 X0 tgtIdx U = P x1 X := by
  subst hs ht
  exact scatterAdd_gather_eq_prop (N := 100000) (E := 1600000) (D := 128) (by decide) gather_S100000x128_S1600000x1_S1600000x128_1_0_n_n_0_1_1128.wf scatter_S100000x128_S1600000x1_S1600000x128_1_0_0_1.wf
    X0 X (val_main_v129 (F := Ideal) x1) (val_main_v135 (F := Ideal) x1) (wgt x1) U hX0 hU

section Stages
variable (x0 : (⟨S100000x67, .f32⟩ : BufTy).Contents (Elt Ideal)) (x1 : (⟨S2x1600000, .i32⟩ : BufTy).Contents (Elt Ideal))
  (x2 x3 x4 x5 : (⟨S67, .f32⟩ : BufTy).Contents (Elt Ideal)) (x6 : (⟨S4x128x67, .f32⟩ : BufTy).Contents (Elt Ideal))
  (x7 x8 x9 x10 x11 : (⟨S128, .f32⟩ : BufTy).Contents (Elt Ideal)) (x12 : (⟨S4x1x128, .f32⟩ : BufTy).Contents (Elt Ideal))
  (x13 : (⟨S1, .f32⟩ : BufTy).Contents (Elt Ideal))

/-! ## The three propagation steps -/

/-- The first step: the features propagated once. -/
theorem step1 : val_main_v136 (F := Ideal) x0 x1 x2 x3 x4 x5 x6 x7 x8 x9 x10 x11 = P x1 (val_main_v120 (F := Ideal) x0 x1 x2 x3 x4 x5 x6 x7 x8 x9 x10 x11) := by
  unfold val_main_v136
  refine step_of x1 (val_main_v134 (F := Ideal)) (val_main_v120 (F := Ideal) x0 x1 x2 x3 x4 x5 x6 x7 x8 x9 x10 x11) (val_main_v129 (F := Ideal) x1)
    (val_main_v135 (F := Ideal) x1) (val_main_v133 (F := Ideal) x0 x1 x2 x3 x4 x5 x6 x7 x8 x9 x10 x11) rfl rfl (fun i => ?_) (fun e c => ?_)
  · rw [val_main_v134_apply]
    exact Ideal.ofBits_zero_f32
  · rw [val_main_v133_apply, val_main_v132_apply, val_main_v131_apply]
    have hi : idx_main_v131 (idx_main_v132 (ix2 e c)) = ix1 e := funext fun a => by
      match a with
      | ⟨0, _⟩ => rfl
    rw [hi]
    rfl

/-- The second step: the once-propagated features propagated again (its index columns are copies of the first step's). -/
theorem step2 : val_main_v153 (F := Ideal) x0 x1 x2 x3 x4 x5 x6 x7 x8 x9 x10 x11 = P x1 (val_main_v136 (F := Ideal) x0 x1 x2 x3 x4 x5 x6 x7 x8 x9 x10 x11) := by
  unfold val_main_v153
  refine step_of x1 (val_main_v151 (F := Ideal)) (val_main_v136 (F := Ideal) x0 x1 x2 x3 x4 x5 x6 x7 x8 x9 x10 x11) (val_main_v146 (F := Ideal) x1)
    (val_main_v152 (F := Ideal) x1) (val_main_v150 (F := Ideal) x0 x1 x2 x3 x4 x5 x6 x7 x8 x9 x10 x11) rfl rfl (fun i => ?_) (fun e c => ?_)
  · rw [val_main_v151_apply]
    exact Ideal.ofBits_zero_f32
  · rw [val_main_v150_apply, val_main_v149_apply, val_main_v148_apply]
    have hi : idx_main_v148 (idx_main_v149 (ix2 e c)) = ix1 e := funext fun a => by
      match a with
      | ⟨0, _⟩ => rfl
    rw [hi]
    rfl

/-- The third step. -/
theorem step3 : val_main_v170 (F := Ideal) x0 x1 x2 x3 x4 x5 x6 x7 x8 x9 x10 x11 = P x1 (val_main_v153 (F := Ideal) x0 x1 x2 x3 x4 x5 x6 x7 x8 x9 x10 x11) := by
  unfold val_main_v170
  refine step_of x1 (val_main_v168 (F := Ideal)) (val_main_v153 (F := Ideal) x0 x1 x2 x3 x4 x5 x6 x7 x8 x9 x10 x11) (val_main_v163 (F := Ideal) x1)
    (val_main_v169 (F := Ideal) x1) (val_main_v167 (F := Ideal) x0 x1 x2 x3 x4 x5 x6 x7 x8 x9 x10 x11) rfl rfl (fun i => ?_) (fun e c => ?_)
  · rw [val_main_v168_apply]
    exact Ideal.ofBits_zero_f32
  · rw [val_main_v167_apply, val_main_v166_apply, val_main_v165_apply]
    have hi : idx_main_v165 (idx_main_v166 (ix2 e c)) = ix1 e := funext fun a => by
      match a with
      | ⟨0, _⟩ => rfl
    rw [hi]
    rfl

/-! ## The four contractions against the rows of the weight array -/

/-- The features contracted against row 0 of the weights. -/
theorem contr0 : val_main_v123 (F := Ideal) x0 x1 x2 x3 x4 x5 x6 x7 x8 x9 x10 x11 x12 = dotc (val_main_v120 (F := Ideal) x0 x1 x2 x3 x4 x5 x6 x7 x8 x9 x10 x11) (om x12 0) := by
  funext i
  obtain ⟨n, z, rfl⟩ : ∃ (n : Fin 100000) (z : Fin 1), i = ix2 n z := ⟨i 0, i 1, eq_ix2 i⟩
  rw [val_main_v123_apply, dotc_apply]
  refine Finset.sum_congr rfl fun k _ => ?_
  have hl : lidx_main_v123 (ix2 n z) k = ix2 n k := funext fun a => by
    match a with
    | ⟨0, _⟩ => rfl
    | ⟨1, _⟩ => rfl
  have hr : val_main_v122 (F := Ideal) x12 (ridx_main_v123 (ix2 n z) k) = om x12 0 k := by
    rw [val_main_v122_apply, val_main_v121_apply]
    unfold om
    refine congrArg x12 (funext fun a => Fin.ext ?_)
    have hz : z.val = 0 := by have := z.isLt; omega
    have hk : k.val < 128 := k.isLt
    match a with
    | ⟨0, _⟩ => rfl
    | ⟨1, _⟩ => rfl
    | ⟨2, _⟩ => show (z.val * 128 + k.val) % 128 = k.val; omega
  rw [hl, hr]

/-- The once-propagated features contracted against row 1. -/
theorem contr1 : val_main_v139 (F := Ideal) x0 x1 x2 x3 x4 x5 x6 x7 x8 x9 x10 x11 x12 = dotc (val_main_v136 (F := Ideal) x0 x1 x2 x3 x4 x5 x6 x7 x8 x9 x10 x11) (om x12 1) := by
  funext i
  obtain ⟨n, z, rfl⟩ : ∃ (n : Fin 100000) (z : Fin 1), i = ix2 n z := ⟨i 0, i 1, eq_ix2 i⟩
  rw [val_main_v139_apply, dotc_apply]
  refine Finset.sum_congr rfl fun k _ => ?_
  have hl : lidx_main_v139 (ix2 n z) k = ix2 n k := funext fun a => by
    match a with
    | ⟨0, _⟩ => rfl
    | ⟨1, _⟩ => rfl
  have hr : val_main_v138 (F := Ideal) x12 (ridx_main_v139 (ix2 n z) k) = om x12 1 k := by
    rw [val_main_v138_apply, val_main_v137_apply]
    unfold om
    refine congrArg x12 (funext fun a => Fin.ext ?_)
    have hz : z.val = 0 := by have := z.isLt; omega
    have hk : k.val < 128 := k.isLt
    match a with
    | ⟨0, _⟩ => rfl
    | ⟨1, _⟩ => rfl
    | ⟨2, _⟩ => show (z.val * 128 + k.val) % 128 = k.val; omega
  rw [hl, hr]

/-- The twice-propagated features contracted against row 2. -/
theorem contr2 : val_main_v156 (F := Ideal) x0 x1 x2 x3 x4 x5 x6 x7 x8 x9 x10 x11 x12 = dotc (val_main_v153 (F := Ideal) x0 x1 x2 x3 x4 x5 x6 x7 x8 x9 x10 x11) (om x12 2) := by
  funext i
  obtain ⟨n, z, rfl⟩ : ∃ (n : Fin 100000) (z : Fin 1), i = ix2 n z := ⟨i 0, i 1, eq_ix2 i⟩
  rw [val_main_v156_apply, dotc_apply]
  refine Finset.sum_congr rfl fun k _ => ?_
  have hl : lidx_main_v156 (ix2 n z) k = ix2 n k := funext fun a => by
    match a with
    | ⟨0, _⟩ => rfl
    | ⟨1, _⟩ => rfl
  have hr : val_main_v155 (F := Ideal) x12 (ridx_main_v156 (ix2 n z) k) = om x12 2 k := by
    rw [val_main_v155_apply, val_main_v154_apply]
    unfold om
    refine congrArg x12 (funext fun a => Fin.ext ?_)
    have hz : z.val = 0 := by have := z.isLt; omega
    have hk : k.val < 128 := k.isLt
    match a with
    | ⟨0, _⟩ => rfl
    | ⟨1, _⟩ => rfl
    | ⟨2, _⟩ => show (z.val * 128 + k.val) % 128 = k.val; omega
  rw [hl, hr]

/-- The thrice-propagated features contracted against row 3. -/
theorem contr3 : val_main_v173 (F := Ideal) x0 x1 x2 x3 x4 x5 x6 x7 x8 x9 x10 x11 x12 = dotc (val_main_v170 (F := Ideal) x0 x1 x2 x3 x4 x5 x6 x7 x8 x9 x10 x11) (om x12 3) := by
  funext i
  obtain ⟨n, z, rfl⟩ : ∃ (n : Fin 100000) (z : Fin 1), i = ix2 n z := ⟨i 0, i 1, eq_ix2 i⟩
  rw [val_main_v173_apply, dotc_apply]
  refine Finset.sum_congr rfl fun k _ => ?_
  have hl : lidx_main_v173 (ix2 n z) k = ix2 n k := funext fun a => by
    match a with
    | ⟨0, _⟩ => rfl
    | ⟨1, _⟩ => rfl
  have hr : val_main_v172 (F := Ideal) x12 (ridx_main_v173 (ix2 n z) k) = om x12 3 k := by
    rw [val_main_v172_apply, val_main_v171_apply]
    unfold om
    refine congrArg x12 (funext fun a => Fin.ext ?_)
    have hz : z.val = 0 := by have := z.isLt; omega
    have hk : k.val < 128 := k.isLt
    match a with
    | ⟨0, _⟩ => rfl
    | ⟨1, _⟩ => rfl
    | ⟨2, _⟩ => show (z.val * 128 + k.val) % 128 = k.val; omega
  rw [hl, hr]

/-! ## The result -/

/-- The reference's result at an index: the four contractions added left to right, plus the bias. -/
theorem result_apply (i : S100000x1.Idx) :
    val_main_v177 (F := Ideal) x0 x1 x2 x3 x4 x5 x6 x7 x8 x9 x10 x11 x12 x13 i
      = (((dotc (val_main_v120 (F := Ideal) x0 x1 x2 x3 x4 x5 x6 x7 x8 x9 x10 x11) (om x12 0) i
            + dotc (P x1 (val_main_v120 (F := Ideal) x0 x1 x2 x3 x4 x5 x6 x7 x8 x9 x10 x11)) (om x12 1) i)
          + dotc (P x1 (P x1 (val_main_v120 (F := Ideal) x0 x1 x2 x3 x4 x5 x6 x7 x8 x9 x10 x11))) (om x12 2) i)
        + dotc (P x1 (P x1 (P x1 (val_main_v120 (F := Ideal) x0 x1 x2 x3 x4 x5 x6 x7 x8 x9 x10 x11)))) (om x12 3) i)
        + x13 (ix1 (0 : Fin 1)) := by
  rw [val_main_v177_apply, val_main_v174_apply, val_main_v157_apply, val_main_v140_apply,
    val_main_v176_apply, val_main_v175_apply,
    contr0, contr1, contr2, contr3, step3, step2, step1]
  have hb : idx_main_v175 (idx_main_v176 i) = ix1 (0 : Fin 1) := funext fun a => by
    match a with
    | ⟨0, _⟩ => rfl
  rw [hb]
  rfl

end Stages

end Cert.BridgeRefConv

end
-- ==== Proof.RefReal.lean ====
/-
  THE REFERENCE PROGRAM'S STAGES ARE REAL-VALUED.

  At the ideal values every float stage of the reference program is an array of extended reals. This file shows, stage by
  stage in program order, that the stages up to the activation of the hidden layer hold REAL numbers (never ±∞):
  first the edge weights, which depend on the index argument only — the degree count is a scatter-add of ones into zeros,
  its maximum with one is at least one, so the reciprocal square root is a positive real, and the weight of an edge is a
  product of two gathered entries of it (or of zero, where the degree is not positive);
  then, for real-valued float arguments with nonnegative variance arguments, the batch normalisation of the input, the
  three propagation steps (gather, scale by the edge weight, scatter-add into zeros), the four products with the slabs
  of the layer's weight array, their sum with the bias, the second batch normalisation and the leaky activation.
  Each stage is one small lemma citing the previous ones.
-/
import proofs.«157029_j18502719111544_2_alg».proof.Proof.RefRead
import proofs.«157029_j18502719111544_2_alg».proof.Proof.EdgeMaps
import proofs.«157029_j18502719111544_2_alg».proof.Proof.LibHorner

noncomputable section

open scoped BigOperators

namespace Cert.RefReal

open Idealize.ShloMosaic Idealize.ShloMosaic.ValueIdx Idealize.ShloMosaic.RowPropagate
open Cert.ReferenceIdeal Cert.ReferenceIdeal.Read

/-- At the ideal values a host scatter-add of real updates into a real operand is real, whatever the dimension numbers
    and the indices. -/
theorem hostScatterAdd_single_isReal {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) :=
  hostScatterAdd_isReal d idx hx hu i

/-! ## The edge weights (the index argument only) -/

section Weights
variable (x1 : (⟨S2x1600000, .i32⟩ : BufTy).Contents (Elt Ideal))

/-- The ones whose scatter-add counts the degrees. -/
theorem v4_isReal (i : S1600000.Idx) : IsReal (val_main_v4 (F := Ideal) i) := by
  rw [val_main_v4_apply, val_main_cst_apply, Ideal.ofBits_def]; exact isReal_ofBits_one
/-- The zeros they are added into. -/
theorem v5_isReal (i : S100000.Idx) : IsReal (val_main_v5 (F := Ideal) i) := by
  rw [val_main_v5_apply, val_main_cst_0_apply, Ideal.ofBits_def]; exact isReal_ofBits_zero
/-- The degree count: a scatter-add of reals into reals. -/
theorem v7_isReal (i : S100000.Idx) : IsReal (val_main_v7 (F := Ideal) x1 i) := by
  unfold val_main_v7
  exact hostScatterAdd_single_isReal _ _ _ _ v5_isReal v4_isReal i
/-- The splat of one. -/
theorem v10_eq (i : S100000.Idx) : val_main_v10 (F := Ideal) i = Ideal.ofBits .f32 0x3F800000#32 := by
  rw [val_main_v10_apply, val_main_cst_2_apply, Ideal.ofBits_def]
/-- The reciprocal square root of the degree's maximum with one: a real. -/
theorem v12_isReal (i : S100000.Idx) : IsReal (val_main_v12 (F := Ideal) x1 i) := by
  rw [val_main_v12_apply, Ideal.hostUnary_rsqrt_def, val_main_v11_apply, Ideal.maximumf_def, v10_eq]
  exact isReal_rsqrt_max_one (v7_isReal x1 i)
/-- The zero the selection falls back to. -/
theorem call0_v1_isReal (i : S100000.Idx) : IsReal (val_main_call0_v1 (F := Ideal) i) := by
  rw [val_main_call0_v1_apply, val_main_call0_v0_apply, val_main_cst_3_apply, Ideal.ofBits_def]; exact isReal_ofBits_zero
/-- The normalising factor of a node: that reciprocal square root where the degree is positive, zero elsewhere. -/
theorem v13_isReal (i : S100000.Idx) : IsReal (val_main_v13 (F := Ideal) x1 i) := by
  rw [val_main_v13_apply]; exact IsReal.select _ (v12_isReal x1 i) (call0_v1_isReal i)
/-- The factor gathered at the edges' sources. -/
theorem v20_isReal (i : S1600000.Idx) : IsReal (val_main_v20 (F := Ideal) x1 i) := by
  unfold val_main_v20; exact gather_isReal _ _ (v13_isReal x1) i
/-- The factor gathered at the edges' targets. -/
theorem v27_isReal (i : S1600000.Idx) : IsReal (val_main_v27 (F := Ideal) x1 i) := by
  unfold val_main_v27; exact gather_isReal _ _ (v13_isReal x1) i
/-- THE EDGE WEIGHTS ARE REAL: the product of the two gathered factors. -/
theorem v28_isReal (i : S1600000.Idx) : IsReal (val_main_v28 (F := Ideal) x1 i) := by
  rw [val_main_v28_apply, Ideal.mulf_def]; exact (v20_isReal x1 i).mul (v27_isReal x1 i)
/-- The weight of every edge is real. -/
theorem wgt_isReal (e : Fin 1600000) : IsReal (Cert.EdgeMaps.wgt x1 e) := v28_isReal x1 (ix1 e)

end Weights

/-! ## The layer, for real-valued float arguments -/

section Layer
variable {x0 : (⟨S100000x67, .f32⟩ : BufTy).Contents (Elt Ideal)} (x1 : (⟨S2x1600000, .i32⟩ : BufTy).Contents (Elt Ideal))
  {x2 x3 x4 x5 : (⟨S67, .f32⟩ : BufTy).Contents (Elt Ideal)} {x6 : (⟨S4x128x67, .f32⟩ : BufTy).Contents (Elt Ideal)}
  {x7 x8 x9 x10 x11 : (⟨S128, .f32⟩ : BufTy).Contents (Elt Ideal)}

/-- THE HYPOTHESES on the float arguments the layer reads: every entry real, the two variance arguments nonnegative. -/
structure RealArgs (x0 : (⟨S100000x67, .f32⟩ : BufTy).Contents (Elt Ideal)) (x2 x3 x4 x5 : (⟨S67, .f32⟩ : BufTy).Contents (Elt Ideal))
    (x6 : (⟨S4x128x67, .f32⟩ : BufTy).Contents (Elt Ideal)) (x7 x8 x9 x10 x11 : (⟨S128, .f32⟩ : BufTy).Contents (Elt Ideal)) : Prop where
  hx0 : ∀ i, IsReal (x0 i)
  hx2 : ∀ i, IsReal (x2 i)
  hx3 : ∀ i, IsReal (x3 i)
  hx4 : ∀ i, IsReal (x4 i)
  hx5 : ∀ i, IsReal (x5 i)
  hx6 : ∀ i, IsReal (x6 i)
  hx7 : ∀ i, IsReal (x7 i)
  hx8 : ∀ i, IsReal (x8 i)
  hx9 : ∀ i, IsReal (x9 i)
  hx10 : ∀ i, IsReal (x10 i)
  hx11 : ∀ i, IsReal (x11 i)
  nn5 : ∀ i, 0 ≤ x5 i
  nn11 : ∀ i, 0 ≤ x11 i

/-! ### The first batch normalisation -/

/-- The mean, broadcast over the rows. -/
theorem v30_isReal (h : RealArgs x0 x2 x3 x4 x5 x6 x7 x8 x9 x10 x11) (i : S100000x67.Idx) : IsReal (val_main_v30 (F := Ideal) x4 i) := by
  rw [val_main_v30_apply, val_main_v29_apply]; exact h.hx4 _
/-- The input minus the mean. -/
theorem v31_isReal (h : RealArgs x0 x2 x3 x4 x5 x6 x7 x8 x9 x10 x11) (i : S100000x67.Idx) : IsReal (val_main_v31 (F := Ideal) x0 x4 i) := by
  rw [val_main_v31_apply, Ideal.subf_def]; exact (h.hx0 i).sub (v30_isReal h i)
/-- The splat of the small constant added to the variance. -/
theorem v32_eq (i : S67.Idx) : val_main_v32 (F := Ideal) i = Ideal.ofBits .f32 0x3727C5AC#32 := by
  rw [val_main_v32_apply, val_main_cst_7_apply, Ideal.ofBits_def]
/-- The variance plus the constant: real … -/
theorem v33_isReal (h : RealArgs x0 x2 x3 x4 x5 x6 x7 x8 x9 x10 x11) (i : S67.Idx) : IsReal (val_main_v33 (F := Ideal) x5 i) := by
  rw [val_main_v33_apply, Ideal.addf_def, v32_eq]; exact (h.hx5 i).add isReal_ofBits_3727C5AC
/-- … and positive. -/
theorem v33_pos (h : RealArgs x0 x2 x3 x4 x5 x6 x7 x8 x9 x10 x11) (i : S67.Idx) : 0 < val_main_v33 (F := Ideal) x5 i := by
  rw [val_main_v33_apply, Ideal.addf_def, v32_eq]; exact add_eps_pos (h.nn5 i)
/-- Its reciprocal square root. -/
theorem v34_isReal (h : RealArgs x0 x2 x3 x4 x5 x6 x7 x8 x9 x10 x11) (i : S67.Idx) : IsReal (val_main_v34 (F := Ideal) x5 i) := by
  rw [val_main_v34_apply, Ideal.hostUnary_rsqrt_def]; exact IsReal.rsqrt (v33_pos h i) (v33_isReal h i)
/-- The same, broadcast over the rows. -/
theorem v36_isReal (h : RealArgs x0 x2 x3 x4 x5 x6 x7 x8 x9 x10 x11) (i : S100000x67.Idx) : IsReal (val_main_v36 (F := Ideal) x5 i) := by
  rw [val_main_v36_apply, val_main_v35_apply]; exact v34_isReal h _
/-- The centred input over the standard deviation. -/
theorem v37_isReal (h : RealArgs x0 x2 x3 x4 x5 x6 x7 x8 x9 x10 x11) (i : S100000x67.Idx) : IsReal (val_main_v37 (F := Ideal) x0 x4 x5 i) := by
  rw [val_main_v37_apply, Ideal.mulf_def]; exact (v31_isReal h i).mul (v36_isReal h i)
/-- The scale, broadcast over the rows. -/
theorem v39_isReal (h : RealArgs x0 x2 x3 x4 x5 x6 x7 x8 x9 x10 x11) (i : S100000x67.Idx) : IsReal (val_main_v39 (F := Ideal) x2 i) := by
  rw [val_main_v39_apply, val_main_v38_apply]; exact h.hx2 _
/-- Scaled. -/
theorem v40_isReal (h : RealArgs x0 x2 x3 x4 x5 x6 x7 x8 x9 x10 x11) (i : S100000x67.Idx) : IsReal (val_main_v40 (F := Ideal) x0 x2 x4 x5 i) := by
  rw [val_main_v40_apply, Ideal.mulf_def]; exact (v37_isReal h i).mul (v39_isReal h i)
/-- The shift, broadcast over the rows. -/
theorem v42_isReal (h : RealArgs x0 x2 x3 x4 x5 x6 x7 x8 x9 x10 x11) (i : S100000x67.Idx) : IsReal (val_main_v42 (F := Ideal) x3 i) := by
  rw [val_main_v42_apply, val_main_v41_apply]; exact h.hx3 _
/-- THE NORMALISED INPUT is real. -/
theorem v43_isReal (h : RealArgs x0 x2 x3 x4 x5 x6 x7 x8 x9 x10 x11) (i : S100000x67.Idx) : IsReal (val_main_v43 (F := Ideal) x0 x2 x3 x4 x5 i) := by
  rw [val_main_v43_apply, Ideal.addf_def]; exact (v40_isReal h i).add (v42_isReal h i)

/-! ### The first product -/

/-- Slab 0 of the layer's weight array, as a matrix. -/
theorem v45_isReal (h : RealArgs x0 x2 x3 x4 x5 x6 x7 x8 x9 x10 x11) (i : S128x67.Idx) : IsReal (val_main_v45 (F := Ideal) x6 i) := by
  rw [val_main_v45_apply, val_main_v44_apply]; exact h.hx6 _

/-- The normalised input times slab 0: a finite sum of products of reals. -/
theorem v46_isReal (h : RealArgs x0 x2 x3 x4 x5 x6 x7 x8 x9 x10 x11) (i : S100000x128.Idx) : IsReal (val_main_v46 (F := Ideal) x0 x2 x3 x4 x5 x6 i) := by
  rw [val_main_v46_apply]
  exact IsReal.sum _ _ fun k _ => (v43_isReal h _).mul (v45_isReal h _)

/-! ### Propagation step 1 -/

/-- The rows gathered at the edges' sources. -/
theorem v53_isReal (h : RealArgs x0 x2 x3 x4 x5 x6 x7 x8 x9 x10 x11) (i : S1600000x67.Idx) : IsReal (val_main_v53 (F := Ideal) x0 x1 x2 x3 x4 x5 i) := by
  unfold val_main_v53; exact gather_isReal _ _ (v43_isReal h) i
/-- The edge weights, broadcast over the columns. -/
theorem v55_isReal (i : S1600000x67.Idx) : IsReal (val_main_v55 (F := Ideal) x1 i) := by
  rw [val_main_v55_apply, val_main_v54_apply]; exact v28_isReal x1 _
/-- The gathered rows scaled by the edge weights. -/
theorem v56_isReal (h : RealArgs x0 x2 x3 x4 x5 x6 x7 x8 x9 x10 x11) (i : S1600000x67.Idx) : IsReal (val_main_v56 (F := Ideal) x0 x1 x2 x3 x4 x5 i) := by
  rw [val_main_v56_apply, Ideal.mulf_def]; exact (v53_isReal x1 h i).mul (v55_isReal x1 i)
/-- The zeros they are added into. -/
theorem v57_isReal (i : S100000x67.Idx) : IsReal (val_main_v57 (F := Ideal) i) := by
  rw [val_main_v57_apply, val_main_cst_10_apply, Ideal.ofBits_def]; exact isReal_ofBits_zero
/-- THE PROPAGATED ROWS: a scatter-add of reals into reals. -/
theorem v59_isReal (h : RealArgs x0 x2 x3 x4 x5 x6 x7 x8 x9 x10 x11) (i : S100000x67.Idx) : IsReal (val_main_v59 (F := Ideal) x0 x1 x2 x3 x4 x5 i) := by
  unfold val_main_v59
  exact hostScatterAdd_single_isReal _ _ _ _ v57_isReal (v56_isReal x1 h) i

/-- Slab 1 of the layer's weight array, as a matrix. -/
theorem v61_isReal (h : RealArgs x0 x2 x3 x4 x5 x6 x7 x8 x9 x10 x11) (i : S128x67.Idx) : IsReal (val_main_v61 (F := Ideal) x6 i) := by
  rw [val_main_v61_apply, val_main_v60_apply]; exact h.hx6 _

/-- The once-propagated rows times slab 1: a finite sum of products of reals. -/
theorem v62_isReal (h : RealArgs x0 x2 x3 x4 x5 x6 x7 x8 x9 x10 x11) (i : S100000x128.Idx) : IsReal (val_main_v62 (F := Ideal) x0 x1 x2 x3 x4 x5 x6 i) := by
  rw [val_main_v62_apply]
  exact IsReal.sum _ _ fun k _ => (v59_isReal x1 h _).mul (v61_isReal h _)

/-- The sum of the first two products. -/
theorem v63_isReal (h : RealArgs x0 x2 x3 x4 x5 x6 x7 x8 x9 x10 x11) (i : S100000x128.Idx) : IsReal (val_main_v63 (F := Ideal) x0 x1 x2 x3 x4 x5 x6 i) := by
  rw [val_main_v63_apply, Ideal.addf_def]; exact (v46_isReal h i).add (v62_isReal x1 h i)

/-! ### Propagation step 2 -/

/-- The rows gathered at the edges' sources. -/
theorem v70_isReal (h : RealArgs x0 x2 x3 x4 x5 x6 x7 x8 x9 x10 x11) (i : S1600000x67.Idx) : IsReal (val_main_v70 (F := Ideal) x0 x1 x2 x3 x4 x5 i) := by
  unfold val_main_v70; exact gather_isReal _ _ (v59_isReal x1 h) i
/-- The edge weights, broadcast over the columns. -/
theorem v72_isReal (i : S1600000x67.Idx) : IsReal (val_main_v72 (F := Ideal) x1 i) := by
  rw [val_main_v72_apply, val_main_v71_apply]; exact v28_isReal x1 _
/-- The gathered rows scaled by the edge weights. -/
theorem v73_isReal (h : RealArgs x0 x2 x3 x4 x5 x6 x7 x8 x9 x10 x11) (i : S1600000x67.Idx) : IsReal (val_main_v73 (F := Ideal) x0 x1 x2 x3 x4 x5 i) := by
  rw [val_main_v73_apply, Ideal.mulf_def]; exact (v70_isReal x1 h i).mul (v72_isReal x1 i)
/-- The zeros they are added into. -/
theorem v74_isReal (i : S100000x67.Idx) : IsReal (val_main_v74 (F := Ideal) i) := by
  rw [val_main_v74_apply, val_main_cst_13_apply, Ideal.ofBits_def]; exact isReal_ofBits_zero
/-- THE PROPAGATED ROWS: a scatter-add of reals into reals. -/
theorem v76_isReal (h : RealArgs x0 x2 x3 x4 x5 x6 x7 x8 x9 x10 x11) (i : S100000x67.Idx) : IsReal (val_main_v76 (F := Ideal) x0 x1 x2 x3 x4 x5 i) := by
  unfold val_main_v76
  exact hostScatterAdd_single_isReal _ _ _ _ v74_isReal (v73_isReal x1 h) i

/-- Slab 2 of the layer's weight array, as a matrix. -/
theorem v78_isReal (h : RealArgs x0 x2 x3 x4 x5 x6 x7 x8 x9 x10 x11) (i : S128x67.Idx) : IsReal (val_main_v78 (F := Ideal) x6 i) := by
  rw [val_main_v78_apply, val_main_v77_apply]; exact h.hx6 _

/-- The twice-propagated rows times slab 2: a finite sum of products of reals. -/
theorem v79_isReal (h : RealArgs x0 x2 x3 x4 x5 x6 x7 x8 x9 x10 x11) (i : S100000x128.Idx) : IsReal (val_main_v79 (F := Ideal) x0 x1 x2 x3 x4 x5 x6 i) := by
  rw [val_main_v79_apply]
  exact IsReal.sum _ _ fun k _ => (v76_isReal x1 h _).mul (v78_isReal h _)

/-- The sum of the first three products. -/
theorem v80_isReal (h : RealArgs x0 x2 x3 x4 x5 x6 x7 x8 x9 x10 x11) (i : S100000x128.Idx) : IsReal (val_main_v80 (F := Ideal) x0 x1 x2 x3 x4 x5 x6 i) := by
  rw [val_main_v80_apply, Ideal.addf_def]; exact (v63_isReal x1 h i).add (v79_isReal x1 h i)

/-! ### Propagation step 3 -/

/-- The rows gathered at the edges' sources. -/
theorem v87_isReal (h : RealArgs x0 x2 x3 x4 x5 x6 x7 x8 x9 x10 x11) (i : S1600000x67.Idx) : IsReal (val_main_v87 (F := Ideal) x0 x1 x2 x3 x4 x5 i) := by
  unfold val_main_v87; exact gather_isReal _ _ (v76_isReal x1 h) i
/-- The edge weights, broadcast over the columns. -/
theorem v89_isReal (i : S1600000x67.Idx) : IsReal (val_main_v89 (F := Ideal) x1 i) := by
  rw [val_main_v89_apply, val_main_v88_apply]; exact v28_isReal x1 _
/-- The gathered rows scaled by the edge weights. -/
theorem v90_isReal (h : RealArgs x0 x2 x3 x4 x5 x6 x7 x8 x9 x10 x11) (i : S1600000x67.Idx) : IsReal (val_main_v90 (F := Ideal) x0 x1 x2 x3 x4 x5 i) := by
  rw [val_main_v90_apply, Ideal.mulf_def]; exact (v87_isReal x1 h i).mul (v89_isReal x1 i)
/-- The zeros they are added into. -/
theorem v91_isReal (i : S100000x67.Idx) : IsReal (val_main_v91 (F := Ideal) i) := by
  rw [val_main_v91_apply, val_main_cst_16_apply, Ideal.ofBits_def]; exact isReal_ofBits_zero
/-- THE PROPAGATED ROWS: a scatter-add of reals into reals. -/
theorem v93_isReal (h : RealArgs x0 x2 x3 x4 x5 x6 x7 x8 x9 x10 x11) (i : S100000x67.Idx) : IsReal (val_main_v93 (F := Ideal) x0 x1 x2 x3 x4 x5 i) := by
  unfold val_main_v93
  exact hostScatterAdd_single_isReal _ _ _ _ v91_isReal (v90_isReal x1 h) i

/-- Slab 3 of the layer's weight array, as a matrix. -/
theorem v95_isReal (h : RealArgs x0 x2 x3 x4 x5 x6 x7 x8 x9 x10 x11) (i : S128x67.Idx) : IsReal (val_main_v95 (F := Ideal) x6 i) := by
  rw [val_main_v95_apply, val_main_v94_apply]; exact h.hx6 _

/-- The thrice-propagated rows times slab 3: a finite sum of products of reals. -/
theorem v96_isReal (h : RealArgs x0 x2 x3 x4 x5 x6 x7 x8 x9 x10 x11) (i : S100000x128.Idx) : IsReal (val_main_v96 (F := Ideal) x0 x1 x2 x3 x4 x5 x6 i) := by
  rw [val_main_v96_apply]
  exact IsReal.sum _ _ fun k _ => (v93_isReal x1 h _).mul (v95_isReal h _)

/-- The sum of the four products. -/
theorem v97_isReal (h : RealArgs x0 x2 x3 x4 x5 x6 x7 x8 x9 x10 x11) (i : S100000x128.Idx) : IsReal (val_main_v97 (F := Ideal) x0 x1 x2 x3 x4 x5 x6 i) := by
  rw [val_main_v97_apply, Ideal.addf_def]; exact (v80_isReal x1 h i).add (v96_isReal x1 h i)

/-! ### The bias, the second batch normalisation and the activation -/

/-- The bias, broadcast over the rows. -/
theorem v99_isReal (h : RealArgs x0 x2 x3 x4 x5 x6 x7 x8 x9 x10 x11) (i : S100000x128.Idx) : IsReal (val_main_v99 (F := Ideal) x7 i) := by
  rw [val_main_v99_apply, val_main_v98_apply]; exact h.hx7 _
/-- THE LAYER'S LINEAR OUTPUT is real. -/
theorem v100_isReal (h : RealArgs x0 x2 x3 x4 x5 x6 x7 x8 x9 x10 x11) (i : S100000x128.Idx) : IsReal (val_main_v100 (F := Ideal) x0 x1 x2 x3 x4 x5 x6 x7 i) := by
  rw [val_main_v100_apply, Ideal.addf_def]; exact (v97_isReal x1 h i).add (v99_isReal h i)
/-- The mean, broadcast over the rows. -/
theorem v102_isReal (h : RealArgs x0 x2 x3 x4 x5 x6 x7 x8 x9 x10 x11) (i : S100000x128.Idx) : IsReal (val_main_v102 (F := Ideal) x10 i) := by
  rw [val_main_v102_apply, val_main_v101_apply]; exact h.hx10 _
/-- The output minus the mean. -/
theorem v103_isReal (h : RealArgs x0 x2 x3 x4 x5 x6 x7 x8 x9 x10 x11) (i : S100000x128.Idx) : IsReal (val_main_v103 (F := Ideal) x0 x1 x2 x3 x4 x5 x6 x7 x10 i) := by
  rw [val_main_v103_apply, Ideal.subf_def]; exact (v100_isReal x1 h i).sub (v102_isReal h i)
/-- The splat of the small constant added to the variance. -/
theorem v104_eq (i : S128.Idx) : val_main_v104 (F := Ideal) i = Ideal.ofBits .f32 0x3727C5AC#32 := by
  rw [val_main_v104_apply, val_main_cst_17_apply, Ideal.ofBits_def]
/-- The variance plus the constant: real … -/
theorem v105_isReal (h : RealArgs x0 x2 x3 x4 x5 x6 x7 x8 x9 x10 x11) (i : S128.Idx) : IsReal (val_main_v105 (F := Ideal) x11 i) := by
  rw [val_main_v105_apply, Ideal.addf_def, v104_eq]; exact (h.hx11 i).add isReal_ofBits_3727C5AC
/-- … and positive. -/
theorem v105_pos (h : RealArgs x0 x2 x3 x4 x5 x6 x7 x8 x9 x10 x11) (i : S128.Idx) : 0 < val_main_v105 (F := Ideal) x11 i := by
  rw [val_main_v105_apply, Ideal.addf_def, v104_eq]; exact add_eps_pos (h.nn11 i)
/-- Its reciprocal square root. -/
theorem v106_isReal (h : RealArgs x0 x2 x3 x4 x5 x6 x7 x8 x9 x10 x11) (i : S128.Idx) : IsReal (val_main_v106 (F := Ideal) x11 i) := by
  rw [val_main_v106_apply, Ideal.hostUnary_rsqrt_def]; exact IsReal.rsqrt (v105_pos h i) (v105_isReal h i)
/-- The same, broadcast over the rows. -/
theorem v108_isReal (h : RealArgs x0 x2 x3 x4 x5 x6 x7 x8 x9 x10 x11) (i : S100000x128.Idx) : IsReal (val_main_v108 (F := Ideal) x11 i) := by
  rw [val_main_v108_apply, val_main_v107_apply]; exact v106_isReal h _
/-- The centred output over the standard deviation. -/
theorem v109_isReal (h : RealArgs x0 x2 x3 x4 x5 x6 x7 x8 x9 x10 x11) (i : S100000x128.Idx) : IsReal (val_main_v109 (F := Ideal) x0 x1 x2 x3 x4 x5 x6 x7 x10 x11 i) := by
  rw [val_main_v109_apply, Ideal.mulf_def]; exact (v103_isReal x1 h i).mul (v108_isReal h i)
/-- The scale, broadcast over the rows. -/
theorem v111_isReal (h : RealArgs x0 x2 x3 x4 x5 x6 x7 x8 x9 x10 x11) (i : S100000x128.Idx) : IsReal (val_main_v111 (F := Ideal) x8 i) := by
  rw [val_main_v111_apply, val_main_v110_apply]; exact h.hx8 _
/-- Scaled. -/
theorem v112_isReal (h : RealArgs x0 x2 x3 x4 x5 x6 x7 x8 x9 x10 x11) (i : S100000x128.Idx) : IsReal (val_main_v112 (F := Ideal) x0 x1 x2 x3 x4 x5 x6 x7 x8 x10 x11 i) := by
  rw [val_main_v112_apply, Ideal.mulf_def]; exact (v109_isReal x1 h i).mul (v111_isReal h i)
/-- The shift, broadcast over the rows. -/
theorem v114_isReal (h : RealArgs x0 x2 x3 x4 x5 x6 x7 x8 x9 x10 x11) (i : S100000x128.Idx) : IsReal (val_main_v114 (F := Ideal) x9 i) := by
  rw [val_main_v114_apply, val_main_v113_apply]; exact h.hx9 _
/-- THE NORMALISED OUTPUT is real. -/
theorem v115_isReal (h : RealArgs x0 x2 x3 x4 x5 x6 x7 x8 x9 x10 x11) (i : S100000x128.Idx) : IsReal (val_main_v115 (F := Ideal) x0 x1 x2 x3 x4 x5 x6 x7 x8 x9 x10 x11 i) := by
  rw [val_main_v115_apply, Ideal.addf_def]; exact (v112_isReal x1 h i).add (v114_isReal h i)
/-- The splat of the slope. -/
theorem v118_eq (i : S100000x128.Idx) : val_main_v118 (F := Ideal) i = Ideal.ofBits .f32 0x3C23D70A#32 := by
  rw [val_main_v118_apply, val_main_cst_19_apply, Ideal.ofBits_def]
/-- The slope times the normalised output. -/
theorem v119_isReal (h : RealArgs x0 x2 x3 x4 x5 x6 x7 x8 x9 x10 x11) (i : S100000x128.Idx) : IsReal (val_main_v119 (F := Ideal) x0 x1 x2 x3 x4 x5 x6 x7 x8 x9 x10 x11 i) := by
  rw [val_main_v119_apply, Ideal.mulf_def, v118_eq]; exact isReal_ofBits_3C23D70A_mul (v115_isReal x1 h i)
/-- THE ACTIVATED OUTPUT of the hidden layer is real: a selection between the normalised output and the slope times it. -/
theorem v120_isReal_of (h : RealArgs x0 x2 x3 x4 x5 x6 x7 x8 x9 x10 x11) (i : S100000x128.Idx) : IsReal (val_main_v120 (F := Ideal) x0 x1 x2 x3 x4 x5 x6 x7 x8 x9 x10 x11 i) := by
  rw [val_main_v120_apply]; exact IsReal.select _ (v115_isReal x1 h i) (v119_isReal x1 h i)

end Layer

/-- THE SAME, with the hypotheses spelled out: for real-valued float arguments and nonnegative variance arguments every
    entry of the hidden layer's activated output is real. -/
theorem v120_isReal (x0 : (⟨S100000x67, .f32⟩ : BufTy).Contents (Elt Ideal)) (x1 : (⟨S2x1600000, .i32⟩ : BufTy).Contents (Elt Ideal))
    (x2 x3 x4 x5 : (⟨S67, .f32⟩ : BufTy).Contents (Elt Ideal)) (x6 : (⟨S4x128x67, .f32⟩ : BufTy).Contents (Elt Ideal))
    (x7 x8 x9 x10 x11 : (⟨S128, .f32⟩ : BufTy).Contents (Elt Ideal))
    (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i))
    (h9 : ∀ i, IsReal (x9 i)) (h10 : ∀ i, IsReal (x10 i)) (h11 : ∀ i, IsReal (x11 i))
    (n5 : ∀ i, 0 ≤ x5 i) (n11 : ∀ i, 0 ≤ x11 i) (i : S100000x128.Idx) :
    IsReal (val_main_v120 (F := Ideal) x0 x1 x2 x3 x4 x5 x6 x7 x8 x9 x10 x11 i) :=
  v120_isReal_of x1 ⟨h0, h2, h3, h4, h5, h6, h7, h8, h9, h10, h11, n5, n11⟩ i

end Cert.RefReal

end
-- ==== Proof.PreDecode.lean ====
/- The precondition "every float input is finite, and arguments 5 and 11 are nonnegative", decoded.
   The printed function is a conjunction of fifteen whole-array tests: for each of the thirteen float
   arguments, "every entry x has |x| < +∞", and for arguments 5 and 11, "every entry x has x ≥ 0".
   At the extended reals |x| = max x (−x), so |x| < +∞ says x is neither +∞ nor −∞: x is a real number.
   Hence, when the function returns true, every entry of every float argument is (the image of) a real,
   and every entry of arguments 5 and 11 is nonnegative. -/
import proofs.«157029_j18502719111544_2_alg».proof.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The one-bit word of a truth value is 1 exactly when the value is true. -/
theorem ofBool_one (b : Bool) : BitVec.ofBool b = 1#1 ↔ b = true := by cases b <;> decide

/-- A conjunction of two one-bit words that is 1 has both words 1. -/
theorem both_one {s : Shape} (a b : IVec s 1) (i : s.Idx) (h : andi a b i = 1#1) : a i = 1#1 ∧ b i = 1#1 :=
  IntOp.andi_eq_one.mp h

/-- The entry test "|x| < +∞" read at an entry: the entry is a real number. -/
theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [inf_word] at h'
  unfold Ideal.cmp at h'
  simp only [ofBool_one, decide_eq_true_eq] at h'
  exact real_of_abs_lt_top _ h'

/-- The entry test "x ≥ 0" read at an entry. -/
theorem nonneg_of_test {s : Shape} (a : FVec Ideal s .f32) (hb : S_.BroadcastsInDim s (![] : Fin 0 → Fin s.rank)) (i : s.Idx)
    (h : cmpf .oge a (broadcastInDim s ![] hb (constant (F := Ideal) S_ .f32 0x00000000#32)) i = 1#1) :
    (0 : EReal) ≤ a i := by
  have h' : Ideal.cmp .oge (a i) (Ideal.ofBits .f32 0x00000000#32) = 1#1 := h
  rw [Ideal.ofBits_zero_f32] at h'
  unfold Ideal.cmp at h'
  simp only [ofBool_one, decide_eq_true_eq] at h'
  exact h'

variable [Facts]

/-- THE PRECONDITION DECODED: every entry of every float argument is a real number, and every entry of
    arguments 5 and 11 is nonnegative. -/
theorem decode (a0 : FVec Ideal S100000x67 .f32) (a1 : IVec S2x1600000 32) (a2 a3 a4 a5 : FVec Ideal S67 .f32)
    (a6 : FVec Ideal S4x128x67 .f32) (a7 a8 a9 a10 a11 : FVec Ideal S128 .f32) (a12 : FVec Ideal S4x1x128 .f32)
    (a13 : FVec Ideal S1 .f32)
    (h : fn (F := Ideal) a0 a1 a2 a3 a4 a5 a6 a7 a8 a9 a10 a11 a12 a13 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal)) ∧ (∀ i, ∃ r : ℝ, a12 i = (r : EReal))
    ∧ (∀ i, ∃ r : ℝ, a13 i = (r : EReal)) ∧ (∀ i, (0 : EReal) ≤ a5 i) ∧ (∀ i, (0 : EReal) ≤ a11 i) := by
  have e := congrFun h ix0
  dsimp only [fn, fn_part1, fn_part2, fn_part3, fn_part4] at e
  obtain ⟨e, n11⟩ := both_one _ _ _ e
  obtain ⟨e, n5⟩ := both_one _ _ _ e
  obtain ⟨e, f13⟩ := both_one _ _ _ e
  obtain ⟨e, f12⟩ := both_one _ _ _ e
  obtain ⟨e, f11⟩ := both_one _ _ _ e
  obtain ⟨e, f10⟩ := both_one _ _ _ e
  obtain ⟨e, f9⟩ := both_one _ _ _ e
  obtain ⟨e, f8⟩ := both_one _ _ _ e
  obtain ⟨e, f7⟩ := both_one _ _ _ e
  obtain ⟨e, f6⟩ := both_one _ _ _ e
  obtain ⟨e, f5⟩ := both_one _ _ _ e
  obtain ⟨e, f4⟩ := both_one _ _ _ e
  obtain ⟨e, f3⟩ := both_one _ _ _ e
  obtain ⟨f0, f2⟩ := both_one _ _ _ e
  exact ⟨fun i => real_of_test a0 _ i (Host.reduce_andi_all _ _ _ _ ix0 f0 i),
    fun i => real_of_test a2 _ i (Host.reduce_andi_all _ _ _ _ ix0 f2 i),
    fun i => real_of_test a3 _ i (Host.reduce_andi_all _ _ _ _ ix0 f3 i),
    fun i => real_of_test a4 _ i (Host.reduce_andi_all _ _ _ _ ix0 f4 i),
    fun i => real_of_test a5 _ i (Host.reduce_andi_all _ _ _ _ ix0 f5 i),
    fun i => real_of_test a6 _ i (Host.reduce_andi_all _ _ _ _ ix0 f6 i),
    fun i => real_of_test a7 _ i (Host.reduce_andi_all _ _ _ _ ix0 f7 i),
    fun i => real_of_test a8 _ i (Host.reduce_andi_all _ _ _ _ ix0 f8 i),
    fun i => real_of_test a9 _ i (Host.reduce_andi_all _ _ _ _ ix0 f9 i),
    fun i => real_of_test a10 _ i (Host.reduce_andi_all _ _ _ _ ix0 f10 i),
    fun i => real_of_test a11 _ i (Host.reduce_andi_all _ _ _ _ ix0 f11 i),
    fun i => real_of_test a12 _ i (Host.reduce_andi_all _ _ _ _ ix0 f12 i),
    fun i => real_of_test a13 _ i (Host.reduce_andi_all _ _ _ _ ix0 f13 i),
    fun i => nonneg_of_test a5 _ i (Host.reduce_andi_all _ _ _ _ ix0 n5 i),
    fun i => nonneg_of_test a11 _ i (Host.reduce_andi_all _ _ _ _ ix0 n11 i)⟩

end Cert.PreDecode

end
-- ==== Proof.Stage3.lean ====
/-
  The last layer. The third region's output is the product of the reference's feature array H (the kernel's second
  region leaves the same array) with the projection matrix; the last stretch is the Horner recurrence over its columns.
  The reference's result is the left-to-right sum of the contractions of H, P H, P P H, P P P H with the four weight rows.
  Under the precondition every input is a real number and both variances are non-negative, so H and the edge weights
  are real-valued, and the two expressions agree: P is additive and commutes with the contraction.
-/
import proofs.«157029_j18502719111544_2_alg».proof.Proof.Stage2
import proofs.«157029_j18502719111544_2_alg».proof.Proof.RegionProject
import proofs.«157029_j18502719111544_2_alg».proof.Proof.BridgeTail
import proofs.«157029_j18502719111544_2_alg».proof.Proof.BridgeRefConv
import proofs.«157029_j18502719111544_2_alg».proof.Proof.RefReal
import proofs.«157029_j18502719111544_2_alg».proof.Proof.PreDecode
import proofs.«157029_j18502719111544_2_alg».proof.Defs
import proofs.«157029_j18502719111544_2_alg».proof.Proof.Gen.Pre_finite_inputs

set_option maxRecDepth 16384

noncomputable section

namespace Cert.Stage3

open Idealize.ShloMosaic Idealize.ShloMosaic.TcCoe Idealize.ShloMosaic.ValueIdx Idealize.SL.Sem
open Idealize.ShloMosaic.RowPropagate
open Cert.KernelIdeal Cert.KernelIdeal.Gen Cert.EdgeMaps

variable (m : (ℓ : Loc nD τ sig) → Buf (Elt Ideal) ℓ) (ρ : Dev nD → PrngReg)

/-- The third region's output: the feature array times the projection matrix. -/
theorem proj_stage (c : Dev nD) : W8 m ρ c (Proc.devRef .tc main_v90)
    = BridgeTail.proj (Cert.ReferenceIdeal.Read.val_main_v120 (F := Ideal) (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c)) (Stage1.arg12 m c) := by
  have h1 : W8 m ρ c (Proc.devRef .tc main_v90) = (dat2 (V7 m ρ) c).arrAt 2 cfg2.N := W8_arr m ρ c 2
  have e0 : V7 m ρ c (Pipeline.arrRef spec2 0) = Cert.ReferenceIdeal.Read.val_main_v120 (F := Ideal) (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c) :=
    (Host.v87_keep m ρ c).trans (Stage2.feat_stage m ρ c)
  have e1 : V7 m ρ c (Pipeline.arrRef spec2 1) = BridgeTail.projMat (Stage1.arg12 m c) :=
    (Host.v89_eq m ρ c).trans (by rw [Keep.W6_main_arg12, Keep.W3_main_arg12]; rfl)
  rw [h1, RegionProject.array_eq (V7 m ρ) c, e0, e1]
  rfl

/-- The kernel's result array is the reference's last stage of the arguments. -/
theorem kernel_value (hpre : @Cert.Pre_KernelIdeal Cert.Pre_finite_inputs.Gen.facts m) (c : Dev nD) :
    W9 m ρ c (Proc.devRef .tc main_v136) = Cert.ReferenceIdeal.Read.val_main_v177 (F := Ideal) (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c) (Stage1.arg12 m c) (Stage1.arg13 m c) := by
  obtain ⟨r0, r2, r3, r4, r5, r6, r7, r8, r9, r10, r11, r12, r13, n5, n11⟩ :=
    Cert.PreDecode.decode (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c) (Stage1.arg12 m c) (Stage1.arg13 m c) (hpre c)
  have hH : ∀ i, IsReal (Cert.ReferenceIdeal.Read.val_main_v120 (F := Ideal) (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c) i) :=
    Cert.RefReal.v120_isReal (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c) r0 r2 r3 r4 r5 r6 r7 r8 r9 r10 r11 n5 n11
  have hw : ∀ e, IsReal (wgt (Stage1.arg1 m c) e) := Cert.RefReal.wgt_isReal (Stage1.arg1 m c)
  rw [Host.v136_eq, Keep.W8_main_v1, Keep.W8_main_v3, Keep.W8_main_v28, Keep.W8_main_arg13,
    EdgeData.v1_ref, EdgeData.v3_ref, EdgeData.v28_ref, Keep.W3_main_arg13, proj_stage]
  funext i
  rw [BridgeTail.tail_apply, BridgeRefConv.result_apply]
  have key := horner4 (H := (Cert.ReferenceIdeal.Read.val_main_v120 (F := Ideal) (Stage1.arg0 m c) (Stage1.arg1 m c) (Stage1.arg2 m c) (Stage1.arg3 m c) (Stage1.arg4 m c) (Stage1.arg5 m c) (Stage1.arg6 m c) (Stage1.arg7 m c) (Stage1.arg8 m c) (Stage1.arg9 m c) (Stage1.arg10 m c) (Stage1.arg11 m c)))
    (ω0 := om (Stage1.arg12 m c) 0) (ω1 := om (Stage1.arg12 m c) 1) (ω2 := om (Stage1.arg12 m c) 2) (ω3 := om (Stage1.arg12 m c) 3)
    (src (Stage1.arg1 m c)) (tgt (Stage1.arg1 m c)) (wgt (Stage1.arg1 m c)) hH hw (fun c' => r12 _) (fun c' => r12 _) (fun c' => r12 _) (fun c' => r12 _) i
  dsimp only [BridgeRefConv.P]
  rw [key]

end Cert.Stage3

end
-- ==== Proof.lean ====
/-
  The certificate of a three-layer graph network: batch normalisation, a topology-adaptive graph convolution 67 → 128
  over three propagation steps, batch normalisation with a leaky rectifier, and a second convolution 128 → 1.
  The kernel computes the first normalisation, the combination of the four propagated feature arrays with their weight
  slabs fused with the second normalisation, and — for the last layer — the projection onto the four weight rows FIRST,
  propagating the four resulting single columns by the Horner recurrence  z₀ + P (z₁ + P (z₂ + P z₃)) ; the reference
  propagates the 128-column features three times and projects each. The two agree because a propagation step P (gather
  the source rows, scale by the edge weight, add at the target) is additive and commutes with contracting the feature
  axis — laws of real arithmetic, which is why the statement asks the variances to be non-negative: every reciprocal
  square root is then a real number and no infinity enters. The frames are the generated ones; the reference's run is
  its generated run; the bridge is in the modules imported below.
-/
import proofs.«157029_j18502719111544_2_alg».proof.Defs
import proofs.«157029_j18502719111544_2_alg».proof.Proof.Gen.Kernel
import proofs.«157029_j18502719111544_2_alg».proof.Proof.Gen.Kernel.Skeleton
import proofs.«157029_j18502719111544_2_alg».proof.Proof.Gen.Kernel.Launch
import proofs.«157029_j18502719111544_2_alg».proof.Proof.Gen.Kernel.Points
import proofs.«157029_j18502719111544_2_alg».proof.Proof.Gen.Kernel.Frame
import proofs.«157029_j18502719111544_2_alg».proof.Proof.Gen.KernelIdeal
import proofs.«157029_j18502719111544_2_alg».proof.Proof.Gen.KernelIdeal.Skeleton
import proofs.«157029_j18502719111544_2_alg».proof.Proof.Gen.KernelIdeal.Launch
import proofs.«157029_j18502719111544_2_alg».proof.Proof.Gen.KernelIdeal.Points
import proofs.«157029_j18502719111544_2_alg».proof.Proof.Gen.KernelIdeal.Frame
import proofs.«157029_j18502719111544_2_alg».proof.Proof.Gen.ReferenceIdeal
import proofs.«157029_j18502719111544_2_alg».proof.Proof.RefRun
import proofs.«157029_j18502719111544_2_alg».proof.Proof.RefRead
import proofs.«157029_j18502719111544_2_alg».proof.Proof.Gen.Pre_finite_inputs
import proofs.«157029_j18502719111544_2_alg».proof.Proof.KernelRun
import proofs.«157029_j18502719111544_2_alg».proof.Proof.Stage3
import Idealize.ShloMosaic.Adequacy
import Idealize.ShloMosaic.Init

noncomputable section

namespace Cert.Proof

open Idealize.ShloMosaic Idealize.SL.Sem

/-- The printed kernel runs and leaves its arguments unchanged. -/
theorem frame_p : @Cert.frame_Kernel Cert.Kernel.Gen.facts Cert.Pre_finite_inputs.Gen.facts :=
  fun m ρ _ => Cert.Kernel.Gen.frame m ρ

/-- So does the idealized kernel. -/
theorem frame_pi : @Cert.frame_KernelIdeal Cert.KernelIdeal.Gen.facts Cert.Pre_finite_inputs.Gen.facts :=
  fun m ρ _ => Cert.KernelIdeal.Gen.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end with the reference's last stage of the
    arguments in their result arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.Read.val_main_v177 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.Stage3.kernel_value m ρ hpre c), (h c).2⟩)
      (Cert.KernelIdeal.ResultRun.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v177_eq]
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
